-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S5000x128 : Shape := ⟨2, ![5000, 128]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S5000x1 : Shape := ⟨2, ![5000, 1]⟩

abbrev nBuf : Space → Nat
  | .hbm => 73
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x128, .f32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S800000, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .f32⟩
  | .hbm, ⟨49, _⟩ => ⟨S800000x1, .f32⟩
  | .hbm, ⟨50, _⟩ => ⟨S800000x128, .f32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S50000, .f32⟩
  | .hbm, ⟨57, _⟩ => ⟨S50000x1, .f32⟩
  | .hbm, ⟨58, _⟩ => ⟨S1x128, .f32⟩
  | .hbm, ⟨59, _⟩ => ⟨S50000x128, .f32⟩
  | .hbm, ⟨60, _⟩ => ⟨S1x128, .f32⟩
  | .hbm, ⟨61, _⟩ => ⟨S1x128, .f32⟩
  | .hbm, ⟨62, _⟩ => ⟨S_, .f32⟩
  | .hbm, ⟨63, _⟩ => ⟨S1x128, .f32⟩
  | .hbm, ⟨64, _⟩ => ⟨S1x128, .f32⟩
  | .hbm, ⟨65, _⟩ => ⟨S_, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43_0 : Ref sig .tc := ⟨.hbm, 59, rfl⟩
abbrev main_v43_1 : Ref sig .tc := ⟨.hbm, 60, rfl⟩
abbrev main_v43_2 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc1_scratch0 : Ref sig .tc := ⟨.vmem, 16, rfl⟩
abbrev cc1_scratch1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem6_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v32 : BitVec 1 := Scalar.cmpi .eq arg0 c9_i32
  let v33 : BitVec 32 := Scalar.extui v32
  let c0_i32_19 : BitVec 32 := 0#32
  let v34 : BitVec 1 := Scalar.cmpi .ne v33 c0_i32_19
  v34

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S50000_S50000x1 : S50000.ShapeCasts S50000x1
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  broadcasts_S1x128_S5000x128 : S1x128.Broadcasts S5000x128
  reduces_S5000x128_S128 : S5000x128.Reduces [0] S128
  bcast_S_S1x128 : S_.BroadcastsInDim S1x128 (![] : Fin 0 → Fin S1x128.rank)
  dot_S5000x128_S128x128_S5000x128_1_0_0_1_n_n_wf : DotDims.WF S5000x128 S128x128 S5000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v43_1) S1x128.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43_2) S1x128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond2 i == 1#1) | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v43_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩

abbrev nBuf : Space → Nat
  | .hbm => 97
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x128, .f32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S800000, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .f32⟩
  | .hbm, ⟨49, _⟩ => ⟨S800000x1, .f32⟩
  | .hbm, ⟨50, _⟩ => ⟨S800000x128, .f32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S50000, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S128, .f32⟩
  | .hbm, ⟨66, _⟩ => ⟨S_, .f32⟩
  | .hbm, ⟨67, _⟩ => ⟨S128, .f32⟩
  | .hbm, ⟨68, _⟩ => ⟨S128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S128, .f32⟩
  | .hbm, ⟨75, _⟩ => ⟨S_, .f32⟩
  | .hbm, ⟨76, _⟩ => ⟨S128, .f32⟩
  | .hbm, ⟨77, _⟩ => ⟨S128, .f32⟩
  | .hbm, ⟨78, _⟩ => ⟨S1x128, .f32⟩
  | .hbm, ⟨79, _⟩ => ⟨S50000x128, .f32⟩
  | .hbm, ⟨80, _⟩ => ⟨S50000x128, .f32⟩
  | .hbm, ⟨81, _⟩ => ⟨S_, .f32⟩
  | .hbm, ⟨82, _⟩ => ⟨S128, .f32⟩
  | .hbm, ⟨83, _⟩ => ⟨S128, .f32⟩
  | .hbm, ⟨84, _⟩ => ⟨S128, .f32⟩
  | .hbm, ⟨85, _⟩ => ⟨S1x128, .f32⟩
  | .hbm, ⟨86, _⟩ => ⟨S50000x128, .f32⟩
  | .hbm, ⟨87, _⟩ => ⟨S50000x128, .f32⟩
  | .hbm, ⟨88, _⟩ => ⟨S1x128, .f32⟩
  | .hbm, ⟨89, _⟩ => ⟨S50000x128, .f32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S_, .f32⟩
  | .hbm, ⟨95, _⟩ => ⟨S50000x128, .f32⟩
  | .hbm, ⟨96, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_12 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_call0_cst : Ref sig .tc := ⟨.hbm, 94, rfl⟩
abbrev main_call0_v0 : Ref sig .tc := ⟨.hbm, 95, rfl⟩
abbrev main_v73 : Ref sig .tc := ⟨.hbm, 96, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KernelP.R0.lean ====
/- Regions 0 (the matmul kernel) of the kernel program, each at a parameter `V` (the buffer contents when the region is entered):
   every window's block at a grid point, what the body leaves in the output window's staging buffer as a function of
   the input blocks, the body's triple, the pipeline's proof data and its body obligation, generic in the float
   instance. -/
import proofs.«106382_j48249662603742_1_alg».proof.Proof.KernelP.Launch
import proofs.«106382_j48249662603742_1_alg».proof.Proof.Gen.Kernel.Skeleton
import proofs.«106382_j48249662603742_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 x 128 coordinates: the structural look recurses once per coordinate of the long axis
set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: x @ w by blocks of 5000 rows -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole staging buffer -/

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0

/-- The output window's staging buffer after the body, from the two input blocks: one store of the whole buffer,
    the product of the loaded rows and the loaded weight. -/
def out0_2 (x0 : Vec F S5000x128 .f32) (x1 : Vec F S128x128 .f32) : Vec F S5000x128 .f32 :=
  View.canon [⟨r0_0, k0_pay1 (View.ld x0 r0_0) (View.ld x1 r0_1)⟩]

/-- The one store covers the buffer. -/
theorem cover0_2 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

set_option maxHeartbeats 1000000 in
/-- The kernel body on whole staging memrefs, the inputs' at contents `x0`, `x1` and the output's at anything, runs to
    the continuation holding the inputs' as they were and the output's at `out0_2 x0 x1`. -/
theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them; after the body at point `t` each
    input's buffer at its block and the output's at `out0_2` of the input blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.GenP

end
-- ==== Proof.KernelP.R1Base.lean ====
/-
  The accumulating kernel (the second pallas_call): what its three kinds of grid point have in common.
  The kernel visits the 10 row blocks in order. At the first point it zeroes two [1,128] accumulators kept in scratch
  memory; at every point it writes the block  agg + xw * dinv2 + bias  and adds the block's column sums and column sums of
  squares to the accumulators; at the last point it copies the accumulators into its two [1,128] results.
  So a point is of one of three kinds — first, middle, last — decided by the grid coordinate alone.
-/
import proofs.«106382_j48249662603742_1_alg».proof.Proof.KernelP.Launch
import proofs.«106382_j48249662603742_1_alg».proof.Proof.Gen.Kernel.Skeleton
import proofs.«106382_j48249662603742_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, decided over the grid -/

/-- "this is the first point" as the kernel computes it from the grid coordinate. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 10 = 0 :=
  (by decide +kernel : ∀ t : Fin grid1.N, cond1_0 (grid1.coords t) ↔ t.val % 10 = 0)

/-- "this is the last point". -/
abbrev cond1_1 (i : grid1.Coords) : Prop := k1_cond2 i = 1#1
theorem hcond1_1 : ∀ t : Fin cfg1.N, cond1_1 (grid1.coords t) ↔ t.val % 10 = 9 :=
  (by decide +kernel : ∀ t : Fin grid1.N, cond1_1 (grid1.coords t) ↔ t.val % 10 = 9)

/-! ## Where the windows are idle: the two accumulator results are stored into (and written back) at the last point only -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-! ## The memrefs the body is called with -/

abbrev VO1_4 : View sig .tc .vmem S5000x128 .f32 := (Memref.whole cc1_stg4_0 : Memref sig .tc .vmem S5000x128 .f32).view
abbrev VO1_5 : View sig .tc .vmem S1x128 .f32 := (Memref.whole cc1_stg5_0 : Memref sig .tc .vmem S1x128 .f32).view
abbrev VO1_6 : View sig .tc .vmem S1x128 .f32 := (Memref.whole cc1_stg6_0 : Memref sig .tc .vmem S1x128 .f32).view
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S5000x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S5000x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128 .f32 := win1_6.stage (cfg1.slots t 6)
abbrev hs1_6 (t : Fin cfg1.N) : (ms1_6 t).IsWhole := hstage1_6 ((cfg1.slots t 6).cast nbuf1_6)
/-- The two accumulators: whole scoped buffers of the kernel's own. -/
abbrev scM1_0 : Memref sig .tc .vmem S1x128 .f32 := Memref.whole cc1_scratch0
abbrev scM1_1 : Memref sig .tc .vmem S1x128 .f32 := Memref.whole cc1_scratch1
abbrev VS1_0 : View sig .tc .vmem S1x128 .f32 := scM1_0.view
abbrev VS1_1 : View sig .tc .vmem S1x128 .f32 := scM1_1.view

/-- The scoped buffers of the other two pallas_calls (their staging buffers), each whole at some contents: they ride
    through this region untouched. -/
def otherRest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg5_0), ((c : Thread nD τ).loc cc2_stg5_0) ↦{fullShare} f)
    ∗ (∃ f : Buf (Elt F) ((c : Thread nD τ).loc cc2_stg5_1), ((c : Thread nD τ).loc cc2_stg5_1) ↦{fullShare} f))

/-- What the region hands the body besides its windows: the two accumulators at some contents, the other calls' scoped
    buffers, and the generator register. -/
theorem PhiA1_split (c : Dev nD) :
    (Pipeline.ΦA spec1 c : sProp 𝕄)
      ⊢ iprop((∃ d, owns (c : Thread nD τ) scM1_0 fullShare d) ∗ (∃ d, owns (c : Thread nD τ) scM1_1 fullShare d) ∗ otherRest1 c ∗ (∃ r, prngReg c r)) := by
  unfold Pipeline.ΦA otherRest1; rw [scopedRest1_eq]; simp only [scM1_0, scM1_1, owns_whole]
  iintro ⟨⟨B0, B1, B2, B3, B4, S0, S1, B5, B6, B7, B8, B9, B10, B11, B12⟩, Hp⟩
  isplitl [S0]; · iexact S0
  isplitl [S1]; · iexact S1
  isplitr [Hp]; swap; · iexact Hp
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  iexact B12

/-- And back. -/
theorem PhiA1_join (c : Dev nD) :
    iprop((∃ d, owns (c : Thread nD τ) scM1_0 fullShare d) ∗ (∃ d, owns (c : Thread nD τ) scM1_1 fullShare d) ∗ otherRest1 c ∗ (∃ r, prngReg c r))
      ⊢ (Pipeline.ΦA spec1 c : sProp 𝕄) := by
  unfold Pipeline.ΦA otherRest1; rw [scopedRest1_eq]; simp only [scM1_0, scM1_1, owns_whole]
  iintro ⟨S0, S1, ⟨B0, B1, B2, B3, B4, B5, B6, B7, B8, B9, B10, B11, B12⟩, Hp⟩
  isplitr [Hp]; swap; · iexact Hp
  isplitl [B0]; · iexact B0
  isplitl [B1]; · iexact B1
  isplitl [B2]; · iexact B2
  isplitl [B3]; · iexact B3
  isplitl [B4]; · iexact B4
  isplitl [S0]; · iexact S0
  isplitl [S1]; · iexact S1
  isplitl [B5]; · iexact B5
  isplitl [B6]; · iexact B6
  isplitl [B7]; · iexact B7
  isplitl [B8]; · iexact B8
  isplitl [B9]; · iexact B9
  isplitl [B10]; · iexact B10
  isplitl [B11]; · iexact B11
  iexact B12

end Cert.Kernel.GenP

end
-- ==== Proof.KernelP.R1A.lean ====
/-
  The accumulating kernel's body at the FIRST point (the accumulators are zeroed, then added to): on whole staging memrefs — the four inputs at their
  contents, the two accumulator results (not stored into here) at contents handed back untouched, the block result at anything, the
  accumulators at anything — the body runs to the end holding the inputs as they were and every buffer it stored
  into with those stores written, as a list of pieces (last store first). The lists are found by running the body.
-/
import proofs.«106382_j48249662603742_1_alg».proof.Proof.KernelP.R1Base

set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S5000x128 .f32) (x1 : Vec F S5000x128 .f32) (x2 : Vec F S5000x1 .f32) (x3 : Vec F S1x128 .f32) :
    Σ' (L4 : List (View.Piece (Elt F) S5000x128 .f32)), Σ' (LS0 : List (View.Piece (Elt F) S1x128 .f32)), { LS1 : List (View.Piece (Elt F) S1x128 .f32) //
      ∀ (xi5 : Vec F S1x128 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__reduce_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc1__reduce_kernel_eq_skeleton]; unfold cc1__reduce_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.Kernel.GenP

end
-- ==== Proof.KernelP.R1B.lean ====
/-
  The accumulating kernel's body at a MIDDLE point (the accumulators are added to): on whole staging memrefs — the four inputs at their
  contents, the two accumulator results (not stored into here) at contents handed back untouched, the block result at anything, the
  accumulators at the contents the point before left — the body runs to the end holding the inputs as they were and every buffer it stored
  into with those stores written, as a list of pieces (last store first). The lists are found by running the body.
-/
import proofs.«106382_j48249662603742_1_alg».proof.Proof.KernelP.R1Base

set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S5000x128 .f32) (x1 : Vec F S5000x128 .f32) (x2 : Vec F S5000x1 .f32) (x3 : Vec F S1x128 .f32) (xs0 : Vec F S1x128 .f32) (xs1 : Vec F S1x128 .f32) :
    Σ' (L4 : List (View.Piece (Elt F) S5000x128 .f32)), Σ' (LS0 : List (View.Piece (Elt F) S1x128 .f32)), { LS1 : List (View.Piece (Elt F) S1x128 .f32) //
      ∀ (xi5 : Vec F S1x128 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__reduce_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc1__reduce_kernel_eq_skeleton]; unfold cc1__reduce_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.Kernel.GenP

end
-- ==== Proof.KernelP.R1C.lean ====
/-
  The accumulating kernel's body at the LAST point (the accumulators are added to, then copied into the two results): on whole staging memrefs — the four inputs at their
  contents, the block result at anything, the
  accumulators at the contents the point before left — the body runs to the end holding the inputs as they were and every buffer it stored
  into with those stores written, as a list of pieces (last store first). The lists are found by running the body.
-/
import proofs.«106382_j48249662603742_1_alg».proof.Proof.KernelP.R1Base

set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S5000x128 .f32) (x1 : Vec F S5000x128 .f32) (x2 : Vec F S5000x1 .f32) (x3 : Vec F S1x128 .f32) (xs0 : Vec F S1x128 .f32) (xs1 : Vec F S1x128 .f32) :
    Σ' (L4 : List (View.Piece (Elt F) S5000x128 .f32)), Σ' (L5 : List (View.Piece (Elt F) S1x128 .f32)), Σ' (L6 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__reduce_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc1__reduce_kernel_eq_skeleton]; unfold cc1__reduce_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.Kernel.GenP

end
-- ==== Proof.KernelP.R1.lean ====
/-
  The accumulating kernel over the whole grid, at the buffer contents `V` the region is entered with: what each result's
  staging buffer and the two accumulators hold after each point (by recursion on the point: a later point adds to what the
  point before left in the accumulators), the region's invariant carrying the accumulators from point to point, the proof
  data of the pipeline, and the body obligation at every point.
-/
import proofs.«106382_j48249662603742_1_alg».proof.Proof.KernelP.R1A
import proofs.«106382_j48249662603742_1_alg».proof.Proof.KernelP.R1B
import proofs.«106382_j48249662603742_1_alg».proof.Proof.KernelP.R1C

set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The three kinds of point -/

theorem N1_eq : cfg1.N = 10 := N_1
theorem first_pt (t : Fin cfg1.N) (hz : t.val = 0) : cond1_0 (grid1.coords t) := (hcond1_0 t).mpr (by rw [hz])
theorem first_not_last (t : Fin cfg1.N) (hz : t.val = 0) : ¬cond1_1 (grid1.coords t) := fun h => by
  have := (hcond1_1 t).mp h; omega
theorem later_not_first (t : Fin cfg1.N) (hz : t.val ≠ 0) : ¬cond1_0 (grid1.coords t) := fun h => by
  have h' := (hcond1_0 t).mp h; have hN : t.val < 10 := lt_of_lt_of_eq t.isLt N1_eq; omega

/-- The body's run at a first point, at the point's memrefs and input blocks. -/
abbrev runA (c : Dev nD) (t : Fin cfg1.N) (hc0 : cond1_0 (grid1.coords t)) (hc1 : ¬cond1_1 (grid1.coords t)) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t)
/-- at a middle point, the accumulators found at `s0`, `s1`. -/
abbrev runB (c : Dev nD) (t : Fin cfg1.N) (hc0 : ¬cond1_0 (grid1.coords t)) (hc1 : ¬cond1_1 (grid1.coords t)) (s0 s1 : Vec F S1x128 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t) s0 s1
/-- at the last point. -/
abbrev runC (c : Dev nD) (t : Fin cfg1.N) (hc0 : ¬cond1_0 (grid1.coords t)) (hc1 : cond1_1 (grid1.coords t)) (s0 s1 : Vec F S1x128 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t) s0 s1

/-- A placeholder for an accumulator result at a point that does not store into it (nothing consults it there). -/
abbrev idle5 : Vec F S1x128 .f32 := VO1_5.read (Elt F) (VO1_5.writes (Elt F) VO1_5.junk [])
abbrev idle6 : Vec F S1x128 .f32 := VO1_6.read (Elt F) (VO1_6.writes (Elt F) VO1_6.junk [])

/-- What a first point leaves: the block result, the two idle placeholders, the two accumulators. -/
def caseA (c : Dev nD) (t : Fin cfg1.N) (hc0 : cond1_0 (grid1.coords t)) (hc1 : ¬cond1_1 (grid1.coords t)) : Vec F S5000x128 .f32 × Vec F S1x128 .f32 × Vec F S1x128 .f32 × Vec F S1x128 .f32 × Vec F S1x128 .f32 :=
  (VO1_4.read (Elt F) (VO1_4.writes (Elt F) VO1_4.junk (runA V c t hc0 hc1).1), idle5, idle6,
   VS1_0.read (Elt F) (VS1_0.writes (Elt F) VS1_0.junk (runA V c t hc0 hc1).2.1), VS1_1.read (Elt F) (VS1_1.writes (Elt F) VS1_1.junk (runA V c t hc0 hc1).2.2.1))
def caseB (c : Dev nD) (t : Fin cfg1.N) (hc0 : ¬cond1_0 (grid1.coords t)) (hc1 : ¬cond1_1 (grid1.coords t)) (s0 s1 : Vec F S1x128 .f32) : Vec F S5000x128 .f32 × Vec F S1x128 .f32 × Vec F S1x128 .f32 × Vec F S1x128 .f32 × Vec F S1x128 .f32 :=
  (VO1_4.read (Elt F) (VO1_4.writes (Elt F) VO1_4.junk (runB V c t hc0 hc1 s0 s1).1), idle5, idle6,
   VS1_0.read (Elt F) (VS1_0.writes (Elt F) VS1_0.junk (runB V c t hc0 hc1 s0 s1).2.1), VS1_1.read (Elt F) (VS1_1.writes (Elt F) VS1_1.junk (runB V c t hc0 hc1 s0 s1).2.2.1))
def caseC (c : Dev nD) (t : Fin cfg1.N) (hc0 : ¬cond1_0 (grid1.coords t)) (hc1 : cond1_1 (grid1.coords t)) (s0 s1 : Vec F S1x128 .f32) : Vec F S5000x128 .f32 × Vec F S1x128 .f32 × Vec F S1x128 .f32 × Vec F S1x128 .f32 × Vec F S1x128 .f32 :=
  (VO1_4.read (Elt F) (VO1_4.writes (Elt F) VO1_4.junk (runC V c t hc0 hc1 s0 s1).1), VO1_5.read (Elt F) (VO1_5.writes (Elt F) VO1_5.junk (runC V c t hc0 hc1 s0 s1).2.1), VO1_6.read (Elt F) (VO1_6.writes (Elt F) VO1_6.junk (runC V c t hc0 hc1 s0 s1).2.2.1),
   VS1_0.read (Elt F) (VS1_0.writes (Elt F) VS1_0.junk (runC V c t hc0 hc1 s0 s1).2.2.2.1), VS1_1.read (Elt F) (VS1_1.writes (Elt F) VS1_1.junk (runC V c t hc0 hc1 s0 s1).2.2.2.2.1))

/-! The stores of each kind of point tile the buffers they go into (checked by evaluating the found lists), so they cover them. -/
theorem coverA_4 (c : Dev nD) (t : Fin cfg1.N) (hc0 hc1) (y : S5000x128.Idx) : ∃ pc ∈ (runA V c t hc0 hc1).1, y ∈ pc.1.set :=
  View.cover_of_tiledL (runA V c t hc0 hc1).1 S5000x128.size (by sl_kernel_rfl) y
theorem scoverA_0 (c : Dev nD) (t : Fin cfg1.N) (hc0 hc1) (y : S1x128.Idx) : ∃ pc ∈ (runA V c t hc0 hc1).2.1, y ∈ pc.1.set :=
  View.cover_of_tiledL (runA V c t hc0 hc1).2.1 S1x128.size (by sl_kernel_rfl) y
theorem scoverA_1 (c : Dev nD) (t : Fin cfg1.N) (hc0 hc1) (y : S1x128.Idx) : ∃ pc ∈ (runA V c t hc0 hc1).2.2.1, y ∈ pc.1.set :=
  View.cover_of_tiledL (runA V c t hc0 hc1).2.2.1 S1x128.size (by sl_kernel_rfl) y
theorem coverB_4 (c : Dev nD) (t : Fin cfg1.N) (hc0 hc1) (s0 s1 : Vec F S1x128 .f32) (y : S5000x128.Idx) : ∃ pc ∈ (runB V c t hc0 hc1 s0 s1).1, y ∈ pc.1.set :=
  View.cover_of_tiledL (runB V c t hc0 hc1 s0 s1).1 S5000x128.size (by sl_kernel_rfl) y
theorem scoverB_0 (c : Dev nD) (t : Fin cfg1.N) (hc0 hc1) (s0 s1 : Vec F S1x128 .f32) (y : S1x128.Idx) : ∃ pc ∈ (runB V c t hc0 hc1 s0 s1).2.1, y ∈ pc.1.set :=
  View.cover_of_tiledL (runB V c t hc0 hc1 s0 s1).2.1 S1x128.size (by sl_kernel_rfl) y
theorem scoverB_1 (c : Dev nD) (t : Fin cfg1.N) (hc0 hc1) (s0 s1 : Vec F S1x128 .f32) (y : S1x128.Idx) : ∃ pc ∈ (runB V c t hc0 hc1 s0 s1).2.2.1, y ∈ pc.1.set :=
  View.cover_of_tiledL (runB V c t hc0 hc1 s0 s1).2.2.1 S1x128.size (by sl_kernel_rfl) y
theorem coverC_4 (c : Dev nD) (t : Fin cfg1.N) (hc0 hc1) (s0 s1 : Vec F S1x128 .f32) (y : S5000x128.Idx) : ∃ pc ∈ (runC V c t hc0 hc1 s0 s1).1, y ∈ pc.1.set :=
  View.cover_of_tiledL (runC V c t hc0 hc1 s0 s1).1 S5000x128.size (by sl_kernel_rfl) y
theorem coverC_5 (c : Dev nD) (t : Fin cfg1.N) (hc0 hc1) (s0 s1 : Vec F S1x128 .f32) (y : S1x128.Idx) : ∃ pc ∈ (runC V c t hc0 hc1 s0 s1).2.1, y ∈ pc.1.set :=
  View.cover_of_tiledL (runC V c t hc0 hc1 s0 s1).2.1 S1x128.size (by sl_kernel_rfl) y
theorem coverC_6 (c : Dev nD) (t : Fin cfg1.N) (hc0 hc1) (s0 s1 : Vec F S1x128 .f32) (y : S1x128.Idx) : ∃ pc ∈ (runC V c t hc0 hc1 s0 s1).2.2.1, y ∈ pc.1.set :=
  View.cover_of_tiledL (runC V c t hc0 hc1 s0 s1).2.2.1 S1x128.size (by sl_kernel_rfl) y
theorem scoverC_0 (c : Dev nD) (t : Fin cfg1.N) (hc0 hc1) (s0 s1 : Vec F S1x128 .f32) (y : S1x128.Idx) : ∃ pc ∈ (runC V c t hc0 hc1 s0 s1).2.2.2.1, y ∈ pc.1.set :=
  View.cover_of_tiledL (runC V c t hc0 hc1 s0 s1).2.2.2.1 S1x128.size (by sl_kernel_rfl) y
theorem scoverC_1 (c : Dev nD) (t : Fin cfg1.N) (hc0 hc1) (s0 s1 : Vec F S1x128 .f32) (y : S1x128.Idx) : ∃ pc ∈ (runC V c t hc0 hc1 s0 s1).2.2.2.2.1, y ∈ pc.1.set :=
  View.cover_of_tiledL (runC V c t hc0 hc1 s0 s1).2.2.2.2.1 S1x128.size (by sl_kernel_rfl) y

/-! ## What the results and the accumulators hold after each point -/

/-- THE ACCUMULATION, by recursion on the point: the first point's run; a later point's run over the accumulators the
    point before left (the last point's if it is the last). The tuple: block result, sum result, sum-of-squares result,
    sum accumulator, sum-of-squares accumulator. -/
def outsAt1 (c : Dev nD) : (n : ℕ) → n < cfg1.N → Vec F S5000x128 .f32 × Vec F S1x128 .f32 × Vec F S1x128 .f32 × Vec F S1x128 .f32 × Vec F S1x128 .f32
  | 0, hn => caseA V c ⟨0, hn⟩ (first_pt _ rfl) (first_not_last _ rfl)
  | n + 1, hn =>
    if h1 : (n + 1) % 10 = 9 then
      caseC V c ⟨n + 1, hn⟩ (later_not_first _ (Nat.succ_ne_zero n)) ((hcond1_1 ⟨n + 1, hn⟩).mpr h1)
        (outsAt1 c n (Nat.lt_of_succ_lt hn)).2.2.2.1 (outsAt1 c n (Nat.lt_of_succ_lt hn)).2.2.2.2
    else
      caseB V c ⟨n + 1, hn⟩ (later_not_first _ (Nat.succ_ne_zero n)) (fun h => h1 ((hcond1_1 ⟨n + 1, hn⟩).mp h))
        (outsAt1 c n (Nat.lt_of_succ_lt hn)).2.2.2.1 (outsAt1 c n (Nat.lt_of_succ_lt hn)).2.2.2.2

theorem outsAt1_A (c : Dev nD) (t : Fin cfg1.N) (hz : t.val = 0) :
    outsAt1 V c t.val t.isLt = caseA V c t (first_pt t hz) (first_not_last t hz) := by
  obtain ⟨n, hn⟩ := t
  cases n with
  | zero => rfl
  | succ n => exact absurd hz (Nat.succ_ne_zero n)

theorem outsAt1_B (c : Dev nD) (t : Fin cfg1.N) (hz : t.val ≠ 0) (h1 : ¬t.val % 10 = 9) :
    outsAt1 V c t.val t.isLt = caseB V c t (later_not_first t hz) (fun h => h1 ((hcond1_1 t).mp h))
      (outsAt1 V c (t.val - 1) (Nat.lt_of_le_of_lt (Nat.sub_le _ _) t.isLt)).2.2.2.1 (outsAt1 V c (t.val - 1) (Nat.lt_of_le_of_lt (Nat.sub_le _ _) t.isLt)).2.2.2.2 := by
  obtain ⟨n, hn⟩ := t
  cases n with
  | zero => exact absurd rfl hz
  | succ n => exact (dif_neg h1).trans rfl

theorem outsAt1_C (c : Dev nD) (t : Fin cfg1.N) (hz : t.val ≠ 0) (h1 : t.val % 10 = 9) :
    outsAt1 V c t.val t.isLt = caseC V c t (later_not_first t hz) ((hcond1_1 t).mpr h1)
      (outsAt1 V c (t.val - 1) (Nat.lt_of_le_of_lt (Nat.sub_le _ _) t.isLt)).2.2.2.1 (outsAt1 V c (t.val - 1) (Nat.lt_of_le_of_lt (Nat.sub_le _ _) t.isLt)).2.2.2.2 := by
  obtain ⟨n, hn⟩ := t
  cases n with
  | zero => exact absurd rfl hz
  | succ n => exact (dif_pos h1).trans rfl

/-- The region's invariant before position `n`: before the first point what the region is handed (every scoped buffer at
    anything); afterwards the two accumulators at what the point before left in them, the other calls' scoped buffers, and
    the generator register. -/
def PhiS (c : Dev nD) : (n : ℕ) → n ≤ cfg1.N → sProp 𝕄
  | 0, _ => Pipeline.ΦA spec1 c
  | n + 1, hn => iprop(owns (c : Thread nD τ) scM1_0 fullShare ((outsAt1 V c n hn).2.2.2.1) ∗ owns (c : Thread nD τ) scM1_1 fullShare ((outsAt1 V c n hn).2.2.2.2) ∗ otherRest1 c ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(owns (c : Thread nD τ) scM1_0 fullShare ((outsAt1 V c n hn).2.2.2.1) ∗ owns (c : Thread nD τ) scM1_1 fullShare ((outsAt1 V c n hn).2.2.2.2) ∗ otherRest1 c ∗ (∃ r, prngReg c r)) := rfl
theorem PhiS_pos (c : Dev nD) (n : ℕ) (h : n ≤ cfg1.N) (hz : n ≠ 0) :
    PhiS V c n h = iprop(owns (c : Thread nD τ) scM1_0 fullShare ((outsAt1 V c (n - 1) (by omega)).2.2.2.1) ∗ owns (c : Thread nD τ) scM1_1 fullShare ((outsAt1 V c (n - 1) (by omega)).2.2.2.2) ∗ otherRest1 c ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2.1 := by dsimp only [dat1]
theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d
theorem before1_3 (c : Dev nD) (t : Fin cfg1.N) (d) : (dat1 V c).before 3 t d = iblk1 V c 3 t := before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point. The inputs' memrefs hold their blocks; the point is first, middle or last; the invariant
    hands the body the accumulators (at anything at the first point, at what the point before left afterwards) and takes
    them back at this point's contents; the two accumulator results are handed back untouched except at the last point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  have hN : t.val < 10 := lt_of_lt_of_eq t.isLt N1_eq
  by_cases hz : t.val = 0
  · have hl : ¬cond1_1 (grid1.coords t) := first_not_last t hz
    rw [Dat.leavesExact_idle (dat1 V c) 5 t (idleAt1_5 t hl) (noFlush1_5 t hl), Dat.leavesExact_idle (dat1 V c) 6 t (idleAt1_6 t hl) (noFlush1_6 t hl)]
    rw [outsAt1_A V c t hz]
    unfold caseA; (try dsimp only)
    rw [PhiS_castSucc V c t, PhiS_zero V c _ _ hz]
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := PhiA1_split c $$ HΦ
    icases HΦ' with ⟨HS0, HS1, Hoth, Hg⟩
    iapply ((runA V c t (first_pt t hz) (first_not_last t hz)).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 Hoth Hg]
    · isplitl [HS0]
      · unfold owns; iexists _; isplitr
        swap; · iexact HS0
        ipureintro; exact View.read_writes_of_cover _ _ _ _ _ (scoverA_0 V c t _ _)
      isplitl [HS1]
      · unfold owns; iexists _; isplitr
        swap; · iexact HS1
        ipureintro; exact View.read_writes_of_cover _ _ _ _ _ (scoverA_1 V c t _ _)
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverA_4 V c t _ _)
    isplitl [H5]; · iexists _; iexact H5
    iexists _; iexact H6
  · by_cases h1 : t.val % 10 = 9
    · rw [show (dat1 V c).leavesExact 5 t = owns (c : Thread nD τ) (ms1_5 t) fullShare ((dat1 V c).after 5 t) from by
        unfold Dat.leavesExact; rw [liveAt1_5 t ((hcond1_1 t).mpr h1)], after1_5]
      rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t hz h1]
      unfold caseC; (try dsimp only)
      rw [PhiS_castSucc V c t, PhiS_pos V c _ _ hz]
      iintro ⟨⟨HS0, HS1, Hoth, Hg⟩, Ho, ⟨%d0, H0⟩, ⟨%d1, H1⟩, ⟨%d2, H2⟩, ⟨%d3, H3⟩, ⟨%d4, H4⟩, ⟨%d5, H5⟩, ⟨%d6, H6⟩⟩
      iapply ((runC V c t (later_not_first t hz) ((hcond1_1 t).mpr h1) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 Hoth Hg]
      · isplitl [HS0]
        · unfold owns; iexists _; isplitr
          swap; · iexact HS0
          ipureintro; exact View.read_writes_of_cover _ _ _ _ _ (scoverC_0 V c t _ _ _ _)
        isplitl [HS1]
        · unfold owns; iexists _; isplitr
          swap; · iexact HS1
          ipureintro; exact View.read_writes_of_cover _ _ _ _ _ (scoverC_1 V c t _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverC_4 V c t _ _ _ _)
      isplitl [H5]
      · unfold owns; iexists _; isplitr
        swap; · iexact H5
        ipureintro; exact View.read_writes_of_cover _ _ _ _ _ (coverC_5 V c t _ _ _ _)
      unfold owns; iexists _; isplitr
      swap; · iexact H6
      ipureintro; exact View.read_writes_of_cover _ _ _ _ _ (coverC_6 V c t _ _ _ _)
    · have hl : ¬cond1_1 (grid1.coords t) := fun h => h1 ((hcond1_1 t).mp h)
      rw [Dat.leavesExact_idle (dat1 V c) 5 t (idleAt1_5 t hl) (noFlush1_5 t hl), Dat.leavesExact_idle (dat1 V c) 6 t (idleAt1_6 t hl) (noFlush1_6 t hl)]
      rw [outsAt1_B V c t hz h1]
      unfold caseB; (try dsimp only)
      rw [PhiS_castSucc V c t, PhiS_pos V c _ _ hz]
      iintro ⟨⟨HS0, HS1, Hoth, Hg⟩, Ho, ⟨%d0, H0⟩, ⟨%d1, H1⟩, ⟨%d2, H2⟩, ⟨%d3, H3⟩, ⟨%d4, H4⟩, ⟨%d5, H5⟩, ⟨%d6, H6⟩⟩
      iapply ((runB V c t (later_not_first t hz) hl _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hoth Hg]
      · isplitl [HS0]
        · unfold owns; iexists _; isplitr
          swap; · iexact HS0
          ipureintro; exact View.read_writes_of_cover _ _ _ _ _ (scoverB_0 V c t _ _ _ _)
        isplitl [HS1]
        · unfold owns; iexists _; isplitr
          swap; · iexact HS1
          ipureintro; exact View.read_writes_of_cover _ _ _ _ _ (scoverB_1 V c t _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverB_4 V c t _ _ _ _)
      isplitl [H5]; · iexists _; iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives everything back, the accumulators' contents forgotten. -/
theorem hout1 (c : Dev nD) : (dat1 V c).Φ (Fin.last cfg1.N) ⊢ Pipeline.ΦA spec1 c := by
  have ht : (Fin.last cfg1.N).val ≠ 0 := by rw [Fin.val_last]; have : cfg1.N = 10 := N1_eq; omega
  rw [show (dat1 V c).Φ (Fin.last cfg1.N) = PhiS V c (Fin.last cfg1.N).val (Nat.le_of_lt_succ (Fin.last cfg1.N).isLt) from rfl, PhiS_pos V c _ _ ht]
  iintro ⟨HS0, HS1, Hoth, Hg⟩
  iapply (PhiA1_join c)
  isplitl [HS0]; · iexists _; iexact HS0
  isplitl [HS1]; · iexists _; iexact HS1
  isplitl [Hoth]; · iexact Hoth
  iexact Hg

end Cert.Kernel.GenP

end
-- ==== Proof.KernelP.R2.lean ====
/- Regions 2 (the normalise kernel) of the kernel program, each at a parameter `V` (the buffer contents when the region is entered):
   every window's block at a grid point, what the body leaves in the output window's staging buffer as a function of
   the input blocks, the body's triple, the pipeline's proof data and its body obligation, generic in the float
   instance. -/
import proofs.«106382_j48249662603742_1_alg».proof.Proof.KernelP.Launch
import proofs.«106382_j48249662603742_1_alg».proof.Proof.Gen.Kernel.Skeleton
import proofs.«106382_j48249662603742_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 x 128 coordinates: the structural look recurses once per coordinate of the long axis
set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: max((pre - mean) * rsqrt(var + eps) * gamma + beta, 0) by blocks of 5000 rows -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place: unfetched, the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s and whose body leaves the block in place: unfetched, the block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each the whole staging buffer -/

abbrev r2_0 : Rect S5000x128 := Rect.unit (s := S5000x128) ![0, 0] S5000x128.size inb_S5000x128_S5000x128_0_0
abbrev r2_1 : Rect S1x128 := Rect.unit (s := S1x128) ![0, 0] S1x128.size inb_S1x128_S1x128_0_0

/-- The output window's staging buffer after the body, from the five input blocks (the rows, then the mean, the
    variance, the scale and the shift, each one row): one store of the whole buffer. -/
def out2_5 (x0 : Vec F S5000x128 .f32) (x1 : Vec F S1x128 .f32) (x2 : Vec F S1x128 .f32) (x3 : Vec F S1x128 .f32) (x4 : Vec F S1x128 .f32) : Vec F S5000x128 .f32 :=
  View.canon [⟨r2_0, k2_pay1 (View.ld x2 r2_1) (View.ld x0 r2_0) (View.ld x1 r2_1) (View.ld x3 r2_1) (View.ld x4 r2_1)⟩]

/-- The one store covers the buffer. -/
theorem cover2_5 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

set_option maxHeartbeats 1000000 in
/-- The kernel body on whole staging memrefs, the inputs' at contents `x0 … x4` and the output's at anything, runs to
    the continuation holding the inputs' as they were and the output's at `out2_5 x0 x1 x2 x3 x4`. -/
theorem sound_kernel2 (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__norm_kernel i arg1 harg1 arg2 harg2 arg3 harg3 arg4 harg4 arg5 harg5 arg6 harg6) K := by
  simp only [cc2__norm_kernel_eq_skeleton]; unfold cc2__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them; after the body at point `t` each
    input's buffer at its block and the output's at `out2_5` of the input blocks; the scoped rest and the generator
    register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.GenP

end
-- ==== Proof.KernelP.Run.lean ====
/-
  The whole program as a run of six segments — host operations, the product kernel, host operations, the accumulating
  kernel, host operations, the normalising kernel — from the launch to the return: the contents of every unscoped
  buffer at each boundary (a fold through the program), each kernel's proof data taken at its own entry contents, and the
  run: every weakly fair execution terminates with every unscoped buffer at the last boundary's contents. The frame (the
  arguments end as launched) and the result array's contents are read off that.
-/
import proofs.«106382_j48249662603742_1_alg».proof.Proof.KernelP.R0
import proofs.«106382_j48249662603742_1_alg».proof.Proof.KernelP.R1
import proofs.«106382_j48249662603742_1_alg».proof.Proof.KernelP.R2

set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After the host operations before call 0 (its entry contents). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At call 0's exit: its arrays at what the pipeline leaves (an input as entered, a result its blocks written back), every
    other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host operations before call 1 (its entry contents). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At call 1's exit: its arrays at what the pipeline leaves (an input as entered, a result its blocks written back), every
    other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host operations before call 2 (its entry contents). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At call 2's exit: its arrays at what the pipeline leaves (an input as entered, a result its blocks written back), every
    other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ### The arguments end as launched: no host operation writes one, and a kernel only reads one -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-! ## The proof data family and the thread state -/

abbrev adm : (p : Fin 3) → (pcfgs (F := F) p).Adm := fun p => (cfgs p).toPCfg_adm
/-- Every pipeline's proof data, each at its call's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The calls as segments -/

set_option backward.isDefEq.respectTransparency.types false in
/-- Call 0 over the thread state: entered with every unscoped buffer at its entry contents, left with them at its exit
    contents; its arrays are split out of the unscoped buffers and put back; the generator register goes into the
    pipeline's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered with every unscoped buffer at its entry contents, left with them at its exit
    contents; its arrays are split out of the unscoped buffers and put back; the generator register goes into the
    pipeline's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    have h := hin1 (V3 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (dat1 (V3 m ρ) c).Φ (Fin.last cfg1.N) from rfl]
    have h := hout1 (V3 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered with every unscoped buffer at its entry contents, left with them at its exit
    contents; its arrays are split out of the unscoped buffers and put back; the generator register goes into the
    pipeline's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting,
    and in every final state every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)) :=
  (θ_run defs _ _).mono (fun _ h c => ⟨(h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c)⟩) (run_all m ρ)

/-- THE RESULT: besides, the result array ends at what the normalising kernel's blocks, written back, leave in it. -/
theorem run_result : θ_run defs (onTc (τ := τ) (main (F := F))) ⟨m, fun _ => 0, ρ⟩ (fun r => ∀ c : Dev nD,
      r.2.mem ((c.tc : Thread nD τ).loc main_v52) = (dat2 (V5 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c _ (mem_uc main_v52 (by decide))).trans (W6_arr m ρ c 5),
    (h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c)⟩) (run_all m ρ)

end Cert.Kernel.GenP

end
-- ==== Proof.KernelIdealP.R0.lean ====
/- Regions 0 (the matmul kernel) of the kernel program, each at a parameter `V` (the buffer contents when the region is entered):
   every window's block at a grid point, what the body leaves in the output window's staging buffer as a function of
   the input blocks, the body's triple, the pipeline's proof data and its body obligation, generic in the float
   instance. -/
import proofs.«106382_j48249662603742_1_alg».proof.Proof.KernelIdealP.Launch
import proofs.«106382_j48249662603742_1_alg».proof.Proof.Gen.KernelIdeal.Skeleton
import proofs.«106382_j48249662603742_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 x 128 coordinates: the structural look recurses once per coordinate of the long axis
set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: x @ w by blocks of 5000 rows -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole staging buffer -/

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0

/-- The output window's staging buffer after the body, from the two input blocks: one store of the whole buffer,
    the product of the loaded rows and the loaded weight. -/
def out0_2 (x0 : Vec F S5000x128 .f32) (x1 : Vec F S128x128 .f32) : Vec F S5000x128 .f32 :=
  View.canon [⟨r0_0, k0_pay1 (View.ld x0 r0_0) (View.ld x1 r0_1)⟩]

/-- The one store covers the buffer. -/
theorem cover0_2 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

set_option maxHeartbeats 1000000 in
/-- The kernel body on whole staging memrefs, the inputs' at contents `x0`, `x1` and the output's at anything, runs to
    the continuation holding the inputs' as they were and the output's at `out0_2 x0 x1`. -/
theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them; after the body at point `t` each
    input's buffer at its block and the output's at `out0_2` of the input blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.GenP

end
-- ==== Proof.KernelIdealP.R1Base.lean ====
/-
  The accumulating kernel (the second pallas_call): what its three kinds of grid point have in common.
  The kernel visits the 10 row blocks in order. At the first point it zeroes two [1,128] accumulators kept in scratch
  memory; at every point it writes the block  agg + xw * dinv2 + bias  and adds the block's column sums and column sums of
  squares to the accumulators; at the last point it copies the accumulators into its two [1,128] results.
  So a point is of one of three kinds — first, middle, last — decided by the grid coordinate alone.
-/
import proofs.«106382_j48249662603742_1_alg».proof.Proof.KernelIdealP.Launch
import proofs.«106382_j48249662603742_1_alg».proof.Proof.Gen.KernelIdeal.Skeleton
import proofs.«106382_j48249662603742_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, decided over the grid -/

/-- "this is the first point" as the kernel computes it from the grid coordinate. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 10 = 0 :=
  (by decide +kernel : ∀ t : Fin grid1.N, cond1_0 (grid1.coords t) ↔ t.val % 10 = 0)

/-- "this is the last point". -/
abbrev cond1_1 (i : grid1.Coords) : Prop := k1_cond2 i = 1#1
theorem hcond1_1 : ∀ t : Fin cfg1.N, cond1_1 (grid1.coords t) ↔ t.val % 10 = 9 :=
  (by decide +kernel : ∀ t : Fin grid1.N, cond1_1 (grid1.coords t) ↔ t.val % 10 = 9)

/-! ## Where the windows are idle: the two accumulator results are stored into (and written back) at the last point only -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-! ## The memrefs the body is called with -/

abbrev VO1_4 : View sig .tc .vmem S5000x128 .f32 := (Memref.whole cc1_stg4_0 : Memref sig .tc .vmem S5000x128 .f32).view
abbrev VO1_5 : View sig .tc .vmem S1x128 .f32 := (Memref.whole cc1_stg5_0 : Memref sig .tc .vmem S1x128 .f32).view
abbrev VO1_6 : View sig .tc .vmem S1x128 .f32 := (Memref.whole cc1_stg6_0 : Memref sig .tc .vmem S1x128 .f32).view
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S5000x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S5000x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128 .f32 := win1_6.stage (cfg1.slots t 6)
abbrev hs1_6 (t : Fin cfg1.N) : (ms1_6 t).IsWhole := hstage1_6 ((cfg1.slots t 6).cast nbuf1_6)
/-- The two accumulators: whole scoped buffers of the kernel's own. -/
abbrev scM1_0 : Memref sig .tc .vmem S1x128 .f32 := Memref.whole cc1_scratch0
abbrev scM1_1 : Memref sig .tc .vmem S1x128 .f32 := Memref.whole cc1_scratch1
abbrev VS1_0 : View sig .tc .vmem S1x128 .f32 := scM1_0.view
abbrev VS1_1 : View sig .tc .vmem S1x128 .f32 := scM1_1.view

/-- The scoped buffers of the other two pallas_calls (their staging buffers), each whole at some contents: they ride
    through this region untouched. -/
def otherRest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg5_0), ((c : Thread nD τ).loc cc2_stg5_0) ↦{fullShare} f)
    ∗ (∃ f : Buf (Elt F) ((c : Thread nD τ).loc cc2_stg5_1), ((c : Thread nD τ).loc cc2_stg5_1) ↦{fullShare} f))

/-- What the region hands the body besides its windows: the two accumulators at some contents, the other calls' scoped
    buffers, and the generator register. -/
theorem PhiA1_split (c : Dev nD) :
    (Pipeline.ΦA spec1 c : sProp 𝕄)
      ⊢ iprop((∃ d, owns (c : Thread nD τ) scM1_0 fullShare d) ∗ (∃ d, owns (c : Thread nD τ) scM1_1 fullShare d) ∗ otherRest1 c ∗ (∃ r, prngReg c r)) := by
  unfold Pipeline.ΦA otherRest1; rw [scopedRest1_eq]; simp only [scM1_0, scM1_1, owns_whole]
  iintro ⟨⟨B0, B1, B2, B3, B4, S0, S1, B5, B6, B7, B8, B9, B10, B11, B12⟩, Hp⟩
  isplitl [S0]; · iexact S0
  isplitl [S1]; · iexact S1
  isplitr [Hp]; swap; · iexact Hp
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  iexact B12

/-- And back. -/
theorem PhiA1_join (c : Dev nD) :
    iprop((∃ d, owns (c : Thread nD τ) scM1_0 fullShare d) ∗ (∃ d, owns (c : Thread nD τ) scM1_1 fullShare d) ∗ otherRest1 c ∗ (∃ r, prngReg c r))
      ⊢ (Pipeline.ΦA spec1 c : sProp 𝕄) := by
  unfold Pipeline.ΦA otherRest1; rw [scopedRest1_eq]; simp only [scM1_0, scM1_1, owns_whole]
  iintro ⟨S0, S1, ⟨B0, B1, B2, B3, B4, B5, B6, B7, B8, B9, B10, B11, B12⟩, Hp⟩
  isplitr [Hp]; swap; · iexact Hp
  isplitl [B0]; · iexact B0
  isplitl [B1]; · iexact B1
  isplitl [B2]; · iexact B2
  isplitl [B3]; · iexact B3
  isplitl [B4]; · iexact B4
  isplitl [S0]; · iexact S0
  isplitl [S1]; · iexact S1
  isplitl [B5]; · iexact B5
  isplitl [B6]; · iexact B6
  isplitl [B7]; · iexact B7
  isplitl [B8]; · iexact B8
  isplitl [B9]; · iexact B9
  isplitl [B10]; · iexact B10
  isplitl [B11]; · iexact B11
  iexact B12

end Cert.KernelIdeal.GenP

end
-- ==== Proof.KernelIdealP.R1A.lean ====
/-
  The accumulating kernel's body at the FIRST point (the accumulators are zeroed, then added to): on whole staging memrefs — the four inputs at their
  contents, the two accumulator results (not stored into here) at contents handed back untouched, the block result at anything, the
  accumulators at anything — the body runs to the end holding the inputs as they were and every buffer it stored
  into with those stores written, as a list of pieces (last store first). The lists are found by running the body.
-/
import proofs.«106382_j48249662603742_1_alg».proof.Proof.KernelIdealP.R1Base

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : cond1_0 i) (hc1 : ¬cond1_1 i)
    (x0 : Vec F S5000x128 .f32) (x1 : Vec F S5000x128 .f32) (x2 : Vec F S5000x1 .f32) (x3 : Vec F S1x128 .f32) :
    Σ' (L4 : List (View.Piece (Elt F) S5000x128 .f32)), Σ' (LS0 : List (View.Piece (Elt F) S1x128 .f32)), { LS1 : List (View.Piece (Elt F) S1x128 .f32) //
      ∀ (xi5 : Vec F S1x128 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__reduce_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc1__reduce_kernel_eq_skeleton]; unfold cc1__reduce_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.KernelIdeal.GenP

end
-- ==== Proof.KernelIdealP.R1B.lean ====
/-
  The accumulating kernel's body at a MIDDLE point (the accumulators are added to): on whole staging memrefs — the four inputs at their
  contents, the two accumulator results (not stored into here) at contents handed back untouched, the block result at anything, the
  accumulators at the contents the point before left — the body runs to the end holding the inputs as they were and every buffer it stored
  into with those stores written, as a list of pieces (last store first). The lists are found by running the body.
-/
import proofs.«106382_j48249662603742_1_alg».proof.Proof.KernelIdealP.R1Base

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : ¬cond1_1 i)
    (x0 : Vec F S5000x128 .f32) (x1 : Vec F S5000x128 .f32) (x2 : Vec F S5000x1 .f32) (x3 : Vec F S1x128 .f32) (xs0 : Vec F S1x128 .f32) (xs1 : Vec F S1x128 .f32) :
    Σ' (L4 : List (View.Piece (Elt F) S5000x128 .f32)), Σ' (LS0 : List (View.Piece (Elt F) S1x128 .f32)), { LS1 : List (View.Piece (Elt F) S1x128 .f32) //
      ∀ (xi5 : Vec F S1x128 .f32) (xi6 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__reduce_kernel i arg1 harg1 arg2 harg2 arg3 harg3 arg4 harg4 arg5 harg5 arg6 harg6 arg7 harg7 arg8 harg8 arg9 harg9) K } := by
  refine ⟨?_, ?_, ?_, fun xi5 xi6 E K => ?run⟩
  case run =>
    simp only [cc1__reduce_kernel_eq_skeleton]; unfold cc1__reduce_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Cert.KernelIdeal.GenP

end
-- ==== Proof.KernelIdealP.R1C.lean ====
/-
  The accumulating kernel's body at the LAST point (the accumulators are added to, then copied into the two results): on whole staging memrefs — the four inputs at their
  contents, the block result at anything, the
  accumulators at the contents the point before left — the body runs to the end holding the inputs as they were and every buffer it stored
  into with those stores written, as a list of pieces (last store first). The lists are found by running the body.
-/
import proofs.«106382_j48249662603742_1_alg».proof.Proof.KernelIdealP.R1Base

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (hc1 : cond1_1 i)
    (x0 : Vec F S5000x128 .f32) (x1 : Vec F S5000x128 .f32) (x2 : Vec F S5000x1 .f32) (x3 : Vec F S1x128 .f32) (xs0 : Vec F S1x128 .f32) (xs1 : Vec F S1x128 .f32) :
    Σ' (L4 : List (View.Piece (Elt F) S5000x128 .f32)), Σ' (L5 : List (View.Piece (Elt F) S1x128 .f32)), Σ' (L6 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__reduce_kernel i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc1__reduce_kernel_eq_skeleton]; unfold cc1__reduce_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]; · iexists _; iexact HS0
    iexists _; iexact HS1

end Cert.KernelIdeal.GenP

end
-- ==== Proof.KernelIdealP.R1.lean ====
/-
  The accumulating kernel over the whole grid, at the buffer contents `V` the region is entered with: what each result's
  staging buffer and the two accumulators hold after each point (by recursion on the point: a later point adds to what the
  point before left in the accumulators), the region's invariant carrying the accumulators from point to point, the proof
  data of the pipeline, and the body obligation at every point.
-/
import proofs.«106382_j48249662603742_1_alg».proof.Proof.KernelIdealP.R1A
import proofs.«106382_j48249662603742_1_alg».proof.Proof.KernelIdealP.R1B
import proofs.«106382_j48249662603742_1_alg».proof.Proof.KernelIdealP.R1C

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The three kinds of point -/

theorem N1_eq : cfg1.N = 10 := N_1
theorem first_pt (t : Fin cfg1.N) (hz : t.val = 0) : cond1_0 (grid1.coords t) := (hcond1_0 t).mpr (by rw [hz])
theorem first_not_last (t : Fin cfg1.N) (hz : t.val = 0) : ¬cond1_1 (grid1.coords t) := fun h => by
  have := (hcond1_1 t).mp h; omega
theorem later_not_first (t : Fin cfg1.N) (hz : t.val ≠ 0) : ¬cond1_0 (grid1.coords t) := fun h => by
  have h' := (hcond1_0 t).mp h; have hN : t.val < 10 := lt_of_lt_of_eq t.isLt N1_eq; omega

/-- The body's run at a first point, at the point's memrefs and input blocks. -/
abbrev runA (c : Dev nD) (t : Fin cfg1.N) (hc0 : cond1_0 (grid1.coords t)) (hc1 : ¬cond1_1 (grid1.coords t)) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t)
/-- at a middle point, the accumulators found at `s0`, `s1`. -/
abbrev runB (c : Dev nD) (t : Fin cfg1.N) (hc0 : ¬cond1_0 (grid1.coords t)) (hc1 : ¬cond1_1 (grid1.coords t)) (s0 s1 : Vec F S1x128 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t) s0 s1
/-- at the last point. -/
abbrev runC (c : Dev nD) (t : Fin cfg1.N) (hc0 : ¬cond1_0 (grid1.coords t)) (hc1 : cond1_1 (grid1.coords t)) (s0 s1 : Vec F S1x128 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t) s0 s1

/-- A placeholder for an accumulator result at a point that does not store into it (nothing consults it there). -/
abbrev idle5 : Vec F S1x128 .f32 := VO1_5.read (Elt F) (VO1_5.writes (Elt F) VO1_5.junk [])
abbrev idle6 : Vec F S1x128 .f32 := VO1_6.read (Elt F) (VO1_6.writes (Elt F) VO1_6.junk [])

/-- What a first point leaves: the block result, the two idle placeholders, the two accumulators. -/
def caseA (c : Dev nD) (t : Fin cfg1.N) (hc0 : cond1_0 (grid1.coords t)) (hc1 : ¬cond1_1 (grid1.coords t)) : Vec F S5000x128 .f32 × Vec F S1x128 .f32 × Vec F S1x128 .f32 × Vec F S1x128 .f32 × Vec F S1x128 .f32 :=
  (VO1_4.read (Elt F) (VO1_4.writes (Elt F) VO1_4.junk (runA V c t hc0 hc1).1), idle5, idle6,
   VS1_0.read (Elt F) (VS1_0.writes (Elt F) VS1_0.junk (runA V c t hc0 hc1).2.1), VS1_1.read (Elt F) (VS1_1.writes (Elt F) VS1_1.junk (runA V c t hc0 hc1).2.2.1))
def caseB (c : Dev nD) (t : Fin cfg1.N) (hc0 : ¬cond1_0 (grid1.coords t)) (hc1 : ¬cond1_1 (grid1.coords t)) (s0 s1 : Vec F S1x128 .f32) : Vec F S5000x128 .f32 × Vec F S1x128 .f32 × Vec F S1x128 .f32 × Vec F S1x128 .f32 × Vec F S1x128 .f32 :=
  (VO1_4.read (Elt F) (VO1_4.writes (Elt F) VO1_4.junk (runB V c t hc0 hc1 s0 s1).1), idle5, idle6,
   VS1_0.read (Elt F) (VS1_0.writes (Elt F) VS1_0.junk (runB V c t hc0 hc1 s0 s1).2.1), VS1_1.read (Elt F) (VS1_1.writes (Elt F) VS1_1.junk (runB V c t hc0 hc1 s0 s1).2.2.1))
def caseC (c : Dev nD) (t : Fin cfg1.N) (hc0 : ¬cond1_0 (grid1.coords t)) (hc1 : cond1_1 (grid1.coords t)) (s0 s1 : Vec F S1x128 .f32) : Vec F S5000x128 .f32 × Vec F S1x128 .f32 × Vec F S1x128 .f32 × Vec F S1x128 .f32 × Vec F S1x128 .f32 :=
  (VO1_4.read (Elt F) (VO1_4.writes (Elt F) VO1_4.junk (runC V c t hc0 hc1 s0 s1).1), VO1_5.read (Elt F) (VO1_5.writes (Elt F) VO1_5.junk (runC V c t hc0 hc1 s0 s1).2.1), VO1_6.read (Elt F) (VO1_6.writes (Elt F) VO1_6.junk (runC V c t hc0 hc1 s0 s1).2.2.1),
   VS1_0.read (Elt F) (VS1_0.writes (Elt F) VS1_0.junk (runC V c t hc0 hc1 s0 s1).2.2.2.1), VS1_1.read (Elt F) (VS1_1.writes (Elt F) VS1_1.junk (runC V c t hc0 hc1 s0 s1).2.2.2.2.1))

/-! The stores of each kind of point tile the buffers they go into (checked by evaluating the found lists), so they cover them. -/
theorem coverA_4 (c : Dev nD) (t : Fin cfg1.N) (hc0 hc1) (y : S5000x128.Idx) : ∃ pc ∈ (runA V c t hc0 hc1).1, y ∈ pc.1.set :=
  View.cover_of_tiledL (runA V c t hc0 hc1).1 S5000x128.size (by sl_kernel_rfl) y
theorem scoverA_0 (c : Dev nD) (t : Fin cfg1.N) (hc0 hc1) (y : S1x128.Idx) : ∃ pc ∈ (runA V c t hc0 hc1).2.1, y ∈ pc.1.set :=
  View.cover_of_tiledL (runA V c t hc0 hc1).2.1 S1x128.size (by sl_kernel_rfl) y
theorem scoverA_1 (c : Dev nD) (t : Fin cfg1.N) (hc0 hc1) (y : S1x128.Idx) : ∃ pc ∈ (runA V c t hc0 hc1).2.2.1, y ∈ pc.1.set :=
  View.cover_of_tiledL (runA V c t hc0 hc1).2.2.1 S1x128.size (by sl_kernel_rfl) y
theorem coverB_4 (c : Dev nD) (t : Fin cfg1.N) (hc0 hc1) (s0 s1 : Vec F S1x128 .f32) (y : S5000x128.Idx) : ∃ pc ∈ (runB V c t hc0 hc1 s0 s1).1, y ∈ pc.1.set :=
  View.cover_of_tiledL (runB V c t hc0 hc1 s0 s1).1 S5000x128.size (by sl_kernel_rfl) y
theorem scoverB_0 (c : Dev nD) (t : Fin cfg1.N) (hc0 hc1) (s0 s1 : Vec F S1x128 .f32) (y : S1x128.Idx) : ∃ pc ∈ (runB V c t hc0 hc1 s0 s1).2.1, y ∈ pc.1.set :=
  View.cover_of_tiledL (runB V c t hc0 hc1 s0 s1).2.1 S1x128.size (by sl_kernel_rfl) y
theorem scoverB_1 (c : Dev nD) (t : Fin cfg1.N) (hc0 hc1) (s0 s1 : Vec F S1x128 .f32) (y : S1x128.Idx) : ∃ pc ∈ (runB V c t hc0 hc1 s0 s1).2.2.1, y ∈ pc.1.set :=
  View.cover_of_tiledL (runB V c t hc0 hc1 s0 s1).2.2.1 S1x128.size (by sl_kernel_rfl) y
theorem coverC_4 (c : Dev nD) (t : Fin cfg1.N) (hc0 hc1) (s0 s1 : Vec F S1x128 .f32) (y : S5000x128.Idx) : ∃ pc ∈ (runC V c t hc0 hc1 s0 s1).1, y ∈ pc.1.set :=
  View.cover_of_tiledL (runC V c t hc0 hc1 s0 s1).1 S5000x128.size (by sl_kernel_rfl) y
theorem coverC_5 (c : Dev nD) (t : Fin cfg1.N) (hc0 hc1) (s0 s1 : Vec F S1x128 .f32) (y : S1x128.Idx) : ∃ pc ∈ (runC V c t hc0 hc1 s0 s1).2.1, y ∈ pc.1.set :=
  View.cover_of_tiledL (runC V c t hc0 hc1 s0 s1).2.1 S1x128.size (by sl_kernel_rfl) y
theorem coverC_6 (c : Dev nD) (t : Fin cfg1.N) (hc0 hc1) (s0 s1 : Vec F S1x128 .f32) (y : S1x128.Idx) : ∃ pc ∈ (runC V c t hc0 hc1 s0 s1).2.2.1, y ∈ pc.1.set :=
  View.cover_of_tiledL (runC V c t hc0 hc1 s0 s1).2.2.1 S1x128.size (by sl_kernel_rfl) y
theorem scoverC_0 (c : Dev nD) (t : Fin cfg1.N) (hc0 hc1) (s0 s1 : Vec F S1x128 .f32) (y : S1x128.Idx) : ∃ pc ∈ (runC V c t hc0 hc1 s0 s1).2.2.2.1, y ∈ pc.1.set :=
  View.cover_of_tiledL (runC V c t hc0 hc1 s0 s1).2.2.2.1 S1x128.size (by sl_kernel_rfl) y
theorem scoverC_1 (c : Dev nD) (t : Fin cfg1.N) (hc0 hc1) (s0 s1 : Vec F S1x128 .f32) (y : S1x128.Idx) : ∃ pc ∈ (runC V c t hc0 hc1 s0 s1).2.2.2.2.1, y ∈ pc.1.set :=
  View.cover_of_tiledL (runC V c t hc0 hc1 s0 s1).2.2.2.2.1 S1x128.size (by sl_kernel_rfl) y

/-! ## What the results and the accumulators hold after each point -/

/-- THE ACCUMULATION, by recursion on the point: the first point's run; a later point's run over the accumulators the
    point before left (the last point's if it is the last). The tuple: block result, sum result, sum-of-squares result,
    sum accumulator, sum-of-squares accumulator. -/
def outsAt1 (c : Dev nD) : (n : ℕ) → n < cfg1.N → Vec F S5000x128 .f32 × Vec F S1x128 .f32 × Vec F S1x128 .f32 × Vec F S1x128 .f32 × Vec F S1x128 .f32
  | 0, hn => caseA V c ⟨0, hn⟩ (first_pt _ rfl) (first_not_last _ rfl)
  | n + 1, hn =>
    if h1 : (n + 1) % 10 = 9 then
      caseC V c ⟨n + 1, hn⟩ (later_not_first _ (Nat.succ_ne_zero n)) ((hcond1_1 ⟨n + 1, hn⟩).mpr h1)
        (outsAt1 c n (Nat.lt_of_succ_lt hn)).2.2.2.1 (outsAt1 c n (Nat.lt_of_succ_lt hn)).2.2.2.2
    else
      caseB V c ⟨n + 1, hn⟩ (later_not_first _ (Nat.succ_ne_zero n)) (fun h => h1 ((hcond1_1 ⟨n + 1, hn⟩).mp h))
        (outsAt1 c n (Nat.lt_of_succ_lt hn)).2.2.2.1 (outsAt1 c n (Nat.lt_of_succ_lt hn)).2.2.2.2

theorem outsAt1_A (c : Dev nD) (t : Fin cfg1.N) (hz : t.val = 0) :
    outsAt1 V c t.val t.isLt = caseA V c t (first_pt t hz) (first_not_last t hz) := by
  obtain ⟨n, hn⟩ := t
  cases n with
  | zero => rfl
  | succ n => exact absurd hz (Nat.succ_ne_zero n)

theorem outsAt1_B (c : Dev nD) (t : Fin cfg1.N) (hz : t.val ≠ 0) (h1 : ¬t.val % 10 = 9) :
    outsAt1 V c t.val t.isLt = caseB V c t (later_not_first t hz) (fun h => h1 ((hcond1_1 t).mp h))
      (outsAt1 V c (t.val - 1) (Nat.lt_of_le_of_lt (Nat.sub_le _ _) t.isLt)).2.2.2.1 (outsAt1 V c (t.val - 1) (Nat.lt_of_le_of_lt (Nat.sub_le _ _) t.isLt)).2.2.2.2 := by
  obtain ⟨n, hn⟩ := t
  cases n with
  | zero => exact absurd rfl hz
  | succ n => exact (dif_neg h1).trans rfl

theorem outsAt1_C (c : Dev nD) (t : Fin cfg1.N) (hz : t.val ≠ 0) (h1 : t.val % 10 = 9) :
    outsAt1 V c t.val t.isLt = caseC V c t (later_not_first t hz) ((hcond1_1 t).mpr h1)
      (outsAt1 V c (t.val - 1) (Nat.lt_of_le_of_lt (Nat.sub_le _ _) t.isLt)).2.2.2.1 (outsAt1 V c (t.val - 1) (Nat.lt_of_le_of_lt (Nat.sub_le _ _) t.isLt)).2.2.2.2 := by
  obtain ⟨n, hn⟩ := t
  cases n with
  | zero => exact absurd rfl hz
  | succ n => exact (dif_pos h1).trans rfl

/-- The region's invariant before position `n`: before the first point what the region is handed (every scoped buffer at
    anything); afterwards the two accumulators at what the point before left in them, the other calls' scoped buffers, and
    the generator register. -/
def PhiS (c : Dev nD) : (n : ℕ) → n ≤ cfg1.N → sProp 𝕄
  | 0, _ => Pipeline.ΦA spec1 c
  | n + 1, hn => iprop(owns (c : Thread nD τ) scM1_0 fullShare ((outsAt1 V c n hn).2.2.2.1) ∗ owns (c : Thread nD τ) scM1_1 fullShare ((outsAt1 V c n hn).2.2.2.2) ∗ otherRest1 c ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(owns (c : Thread nD τ) scM1_0 fullShare ((outsAt1 V c n hn).2.2.2.1) ∗ owns (c : Thread nD τ) scM1_1 fullShare ((outsAt1 V c n hn).2.2.2.2) ∗ otherRest1 c ∗ (∃ r, prngReg c r)) := rfl
theorem PhiS_pos (c : Dev nD) (n : ℕ) (h : n ≤ cfg1.N) (hz : n ≠ 0) :
    PhiS V c n h = iprop(owns (c : Thread nD τ) scM1_0 fullShare ((outsAt1 V c (n - 1) (by omega)).2.2.2.1) ∗ owns (c : Thread nD τ) scM1_1 fullShare ((outsAt1 V c (n - 1) (by omega)).2.2.2.2) ∗ otherRest1 c ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2.1 := by dsimp only [dat1]
theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d
theorem before1_3 (c : Dev nD) (t : Fin cfg1.N) (d) : (dat1 V c).before 3 t d = iblk1 V c 3 t := before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point. The inputs' memrefs hold their blocks; the point is first, middle or last; the invariant
    hands the body the accumulators (at anything at the first point, at what the point before left afterwards) and takes
    them back at this point's contents; the two accumulator results are handed back untouched except at the last point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  have hN : t.val < 10 := lt_of_lt_of_eq t.isLt N1_eq
  by_cases hz : t.val = 0
  · have hl : ¬cond1_1 (grid1.coords t) := first_not_last t hz
    rw [Dat.leavesExact_idle (dat1 V c) 5 t (idleAt1_5 t hl) (noFlush1_5 t hl), Dat.leavesExact_idle (dat1 V c) 6 t (idleAt1_6 t hl) (noFlush1_6 t hl)]
    rw [outsAt1_A V c t hz]
    unfold caseA; (try dsimp only)
    rw [PhiS_castSucc V c t, PhiS_zero V c _ _ hz]
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := PhiA1_split c $$ HΦ
    icases HΦ' with ⟨HS0, HS1, Hoth, Hg⟩
    iapply ((runA V c t (first_pt t hz) (first_not_last t hz)).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 Hoth Hg]
    · isplitl [HS0]
      · unfold owns; iexists _; isplitr
        swap; · iexact HS0
        ipureintro; exact View.read_writes_of_cover _ _ _ _ _ (scoverA_0 V c t _ _)
      isplitl [HS1]
      · unfold owns; iexists _; isplitr
        swap; · iexact HS1
        ipureintro; exact View.read_writes_of_cover _ _ _ _ _ (scoverA_1 V c t _ _)
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverA_4 V c t _ _)
    isplitl [H5]; · iexists _; iexact H5
    iexists _; iexact H6
  · by_cases h1 : t.val % 10 = 9
    · rw [show (dat1 V c).leavesExact 5 t = owns (c : Thread nD τ) (ms1_5 t) fullShare ((dat1 V c).after 5 t) from by
        unfold Dat.leavesExact; rw [liveAt1_5 t ((hcond1_1 t).mpr h1)], after1_5]
      rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t hz h1]
      unfold caseC; (try dsimp only)
      rw [PhiS_castSucc V c t, PhiS_pos V c _ _ hz]
      iintro ⟨⟨HS0, HS1, Hoth, Hg⟩, Ho, ⟨%d0, H0⟩, ⟨%d1, H1⟩, ⟨%d2, H2⟩, ⟨%d3, H3⟩, ⟨%d4, H4⟩, ⟨%d5, H5⟩, ⟨%d6, H6⟩⟩
      iapply ((runC V c t (later_not_first t hz) ((hcond1_1 t).mpr h1) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 Hoth Hg]
      · isplitl [HS0]
        · unfold owns; iexists _; isplitr
          swap; · iexact HS0
          ipureintro; exact View.read_writes_of_cover _ _ _ _ _ (scoverC_0 V c t _ _ _ _)
        isplitl [HS1]
        · unfold owns; iexists _; isplitr
          swap; · iexact HS1
          ipureintro; exact View.read_writes_of_cover _ _ _ _ _ (scoverC_1 V c t _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverC_4 V c t _ _ _ _)
      isplitl [H5]
      · unfold owns; iexists _; isplitr
        swap; · iexact H5
        ipureintro; exact View.read_writes_of_cover _ _ _ _ _ (coverC_5 V c t _ _ _ _)
      unfold owns; iexists _; isplitr
      swap; · iexact H6
      ipureintro; exact View.read_writes_of_cover _ _ _ _ _ (coverC_6 V c t _ _ _ _)
    · have hl : ¬cond1_1 (grid1.coords t) := fun h => h1 ((hcond1_1 t).mp h)
      rw [Dat.leavesExact_idle (dat1 V c) 5 t (idleAt1_5 t hl) (noFlush1_5 t hl), Dat.leavesExact_idle (dat1 V c) 6 t (idleAt1_6 t hl) (noFlush1_6 t hl)]
      rw [outsAt1_B V c t hz h1]
      unfold caseB; (try dsimp only)
      rw [PhiS_castSucc V c t, PhiS_pos V c _ _ hz]
      iintro ⟨⟨HS0, HS1, Hoth, Hg⟩, Ho, ⟨%d0, H0⟩, ⟨%d1, H1⟩, ⟨%d2, H2⟩, ⟨%d3, H3⟩, ⟨%d4, H4⟩, ⟨%d5, H5⟩, ⟨%d6, H6⟩⟩
      iapply ((runB V c t (later_not_first t hz) hl _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 Hoth Hg]
      · isplitl [HS0]
        · unfold owns; iexists _; isplitr
          swap; · iexact HS0
          ipureintro; exact View.read_writes_of_cover _ _ _ _ _ (scoverB_0 V c t _ _ _ _)
        isplitl [HS1]
        · unfold owns; iexists _; isplitr
          swap; · iexact HS1
          ipureintro; exact View.read_writes_of_cover _ _ _ _ _ (scoverB_1 V c t _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverB_4 V c t _ _ _ _)
      isplitl [H5]; · iexists _; iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives everything back, the accumulators' contents forgotten. -/
theorem hout1 (c : Dev nD) : (dat1 V c).Φ (Fin.last cfg1.N) ⊢ Pipeline.ΦA spec1 c := by
  have ht : (Fin.last cfg1.N).val ≠ 0 := by rw [Fin.val_last]; have : cfg1.N = 10 := N1_eq; omega
  rw [show (dat1 V c).Φ (Fin.last cfg1.N) = PhiS V c (Fin.last cfg1.N).val (Nat.le_of_lt_succ (Fin.last cfg1.N).isLt) from rfl, PhiS_pos V c _ _ ht]
  iintro ⟨HS0, HS1, Hoth, Hg⟩
  iapply (PhiA1_join c)
  isplitl [HS0]; · iexists _; iexact HS0
  isplitl [HS1]; · iexists _; iexact HS1
  isplitl [Hoth]; · iexact Hoth
  iexact Hg

end Cert.KernelIdeal.GenP

end
-- ==== Proof.KernelIdealP.R2.lean ====
/- Regions 2 (the normalise kernel) of the kernel program, each at a parameter `V` (the buffer contents when the region is entered):
   every window's block at a grid point, what the body leaves in the output window's staging buffer as a function of
   the input blocks, the body's triple, the pipeline's proof data and its body obligation, generic in the float
   instance. -/
import proofs.«106382_j48249662603742_1_alg».proof.Proof.KernelIdealP.Launch
import proofs.«106382_j48249662603742_1_alg».proof.Proof.Gen.KernelIdeal.Skeleton
import proofs.«106382_j48249662603742_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 x 128 coordinates: the structural look recurses once per coordinate of the long axis
set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: max((pre - mean) * rsqrt(var + eps) * gamma + beta, 0) by blocks of 5000 rows -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place: unfetched, the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s and whose body leaves the block in place: unfetched, the block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each the whole staging buffer -/

abbrev r2_0 : Rect S5000x128 := Rect.unit (s := S5000x128) ![0, 0] S5000x128.size inb_S5000x128_S5000x128_0_0
abbrev r2_1 : Rect S1x128 := Rect.unit (s := S1x128) ![0, 0] S1x128.size inb_S1x128_S1x128_0_0

/-- The output window's staging buffer after the body, from the five input blocks (the rows, then the mean, the
    variance, the scale and the shift, each one row): one store of the whole buffer. -/
def out2_5 (x0 : Vec F S5000x128 .f32) (x1 : Vec F S1x128 .f32) (x2 : Vec F S1x128 .f32) (x3 : Vec F S1x128 .f32) (x4 : Vec F S1x128 .f32) : Vec F S5000x128 .f32 :=
  View.canon [⟨r2_0, k2_pay1 (View.ld x2 r2_1) (View.ld x0 r2_0) (View.ld x1 r2_1) (View.ld x3 r2_1) (View.ld x4 r2_1)⟩]

/-- The one store covers the buffer. -/
theorem cover2_5 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

set_option maxHeartbeats 1000000 in
/-- The kernel body on whole staging memrefs, the inputs' at contents `x0 … x4` and the output's at anything, runs to
    the continuation holding the inputs' as they were and the output's at `out2_5 x0 x1 x2 x3 x4`. -/
theorem sound_kernel2 (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__norm_kernel i arg1 harg1 arg2 harg2 arg3 harg3 arg4 harg4 arg5 harg5 arg6 harg6) K := by
  simp only [cc2__norm_kernel_eq_skeleton]; unfold cc2__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them; after the body at point `t` each
    input's buffer at its block and the output's at `out2_5` of the input blocks; the scoped rest and the generator
    register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.GenP

end
-- ==== Proof.KernelIdealP.Run.lean ====
/-
  The whole program as a run of six segments — host operations, the product kernel, host operations, the accumulating
  kernel, host operations, the normalising kernel — from the launch to the return: the contents of every unscoped
  buffer at each boundary (a fold through the program), each kernel's proof data taken at its own entry contents, and the
  run: every weakly fair execution terminates with every unscoped buffer at the last boundary's contents. The frame (the
  arguments end as launched) and the result array's contents are read off that.
-/
import proofs.«106382_j48249662603742_1_alg».proof.Proof.KernelIdealP.R0
import proofs.«106382_j48249662603742_1_alg».proof.Proof.KernelIdealP.R1
import proofs.«106382_j48249662603742_1_alg».proof.Proof.KernelIdealP.R2

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After the host operations before call 0 (its entry contents). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At call 0's exit: its arrays at what the pipeline leaves (an input as entered, a result its blocks written back), every
    other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host operations before call 1 (its entry contents). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At call 1's exit: its arrays at what the pipeline leaves (an input as entered, a result its blocks written back), every
    other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host operations before call 2 (its entry contents). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At call 2's exit: its arrays at what the pipeline leaves (an input as entered, a result its blocks written back), every
    other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ### The arguments end as launched: no host operation writes one, and a kernel only reads one -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-! ## The proof data family and the thread state -/

abbrev adm : (p : Fin 3) → (pcfgs (F := F) p).Adm := fun p => (cfgs p).toPCfg_adm
/-- Every pipeline's proof data, each at its call's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The calls as segments -/

set_option backward.isDefEq.respectTransparency.types false in
/-- Call 0 over the thread state: entered with every unscoped buffer at its entry contents, left with them at its exit
    contents; its arrays are split out of the unscoped buffers and put back; the generator register goes into the
    pipeline's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered with every unscoped buffer at its entry contents, left with them at its exit
    contents; its arrays are split out of the unscoped buffers and put back; the generator register goes into the
    pipeline's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    have h := hin1 (V3 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (dat1 (V3 m ρ) c).Φ (Fin.last cfg1.N) from rfl]
    have h := hout1 (V3 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered with every unscoped buffer at its entry contents, left with them at its exit
    contents; its arrays are split out of the unscoped buffers and put back; the generator register goes into the
    pipeline's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting,
    and in every final state every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)) :=
  (θ_run defs _ _).mono (fun _ h c => ⟨(h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c)⟩) (run_all m ρ)

/-- THE RESULT: besides, the result array ends at what the normalising kernel's blocks, written back, leave in it. -/
theorem run_result : θ_run defs (onTc (τ := τ) (main (F := F))) ⟨m, fun _ => 0, ρ⟩ (fun r => ∀ c : Dev nD,
      r.2.mem ((c.tc : Thread nD τ).loc main_v52) = (dat2 (V5 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c _ (mem_uc main_v52 (by decide))).trans (W6_arr m ρ c 5),
    (h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c)⟩) (run_all m ρ)

end Cert.KernelIdeal.GenP

end
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.KernelIdealP.Val0.lean ====
/- Region 0 at the extended reals: the array the matmul kernel's write-backs leave is the matrix product of the
   two argument arrays as the region finds them, index by index. Each grid point writes back block `t` (rows
   `5000 t … 5000 t + 4999`) of that product; the ten blocks cover the array. -/
import proofs.«106382_j48249662603742_1_alg».proof.Proof.KernelIdealP.R0
import proofs.«106382_j48249662603742_1_alg».proof.Proof.LibPlainMatmul
import Idealize.ShloMosaic.Lib.Pipeline.Value
import Idealize.ShloMosaic.Lib.ValueLayout
import Idealize.ShloMosaic.Lib.ValueIdx
import Idealize.ShloMosaic.PureOps.Ideal.Laws
import Idealize.ShloMosaic.Lib.Tactic

set_option maxRecDepth 16384

noncomputable section

namespace Cert.KernelIdeal.GenP

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when the region is entered, at the extended reals
variable (V : (c : Dev nD) → (b : Ref sig .tc) → Buf (Elt Ideal) ((c : Thread nD τ).loc b))

theorem zero_off0 : (![0, 0] : Fin 2 → Nat) = fun _ => 0 := funext fun a => by fin_cases a <;> rfl

/-- The product of a `50000 × 128` array by a `128 × 128` one, index by index. -/
abbrev G0 (a0 : FVec Ideal S50000x128 .f32) (a2 : FVec Ideal S128x128 .f32) : FVec Ideal S50000x128 .f32 :=
  fun i => ∑ k : Fin 128, a0 (ix2 (i 0) k) * a2 (ix2 k (i 1))

/-- The body's payload at an index: the product accumulated into the zero block is the sum over the shared axis. -/
theorem pay0_apply (x0 : FVec Ideal S5000x128 .f32) (x1 : FVec Ideal S128x128 .f32) (j : S5000x128.Idx) :
    k0_pay1 x0 x1 j = ∑ k : Fin 128, x0 (ix2 (j 0) k) * x1 (ix2 k (j 1)) := by
  obtain ⟨p, q, rfl⟩ : ∃ (p : Fin 5000) (q : Fin 128), j = ix2 p q := ⟨j 0, j 1, eq_ix2 j⟩
  exact Cert.PointConv.plainMatmul_zero_apply (R := 5000) (n := 128) (k := 128)
    dot_S5000x128_S128x128_S5000x128_1_0_0_1_n_n_wf none x0 x1 p q

/-- The printed index maps, decided over the grid: the row block of the input and of the output is the point's,
    every other block index is zero. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every row block is some point's. -/
theorem idx_onto0 : ∀ q0 : Fin 10, ∃ t : Fin cfg0.N, win0_2.index t = ![q0.val, 0] :=
  (by decide +kernel : ∀ q0 : Fin 10, ∃ t : Fin grid0.N, win0_2.index t = ![q0.val, 0])

/-- The input rows' block at point `t`, read at row `p` of the block and column `k`: the array at the output
    block's row. -/
theorem iblk0_0_apply (c : Dev nD) (t : Fin cfg0.N) (j : S5000x128.Idx) (k : Fin 128) :
    (iblk0 V c 0 t : FVec Ideal S5000x128 .f32) (ix2 (j 0) k)
      = (V c main_arg0 : FVec Ideal S50000x128 .f32) (ix2 ((((cfg0.win 2).blk t).view.emb j) 0) k) := by
  obtain ⟨e0, e1, e2, e3, e4⟩ := idx_facts0 t
  unfold iblk0
  rw [View.read_apply]
  show (V c main_arg0 : FVec Ideal S50000x128 .f32) _ = _
  congr 1
  funext a
  apply Fin.ext
  match a with
  | ⟨0, _⟩ => show win0_0.index t (0 : Fin 2) * 5000 + 1 * (j 0).val = win0_2.index t (0 : Fin 2) * 5000 + 1 * (j 0).val; omega
  | ⟨1, _⟩ => show win0_0.index t (1 : Fin 2) * 128 + 1 * k.val = k.val; omega

/-- The weight's block at any point is the whole weight. -/
theorem iblk0_1_apply (c : Dev nD) (t : Fin cfg0.N) (j : S5000x128.Idx) (k : Fin 128) :
    (iblk0 V c 1 t : FVec Ideal S128x128 .f32) (ix2 k (j 1))
      = (V c main_arg2 : FVec Ideal S128x128 .f32) (ix2 k ((((cfg0.win 2).blk t).view.emb j) 1)) := by
  obtain ⟨e0, e1, e2, e3, e4⟩ := idx_facts0 t
  unfold iblk0
  rw [View.read_apply]
  show (V c main_arg2 : FVec Ideal S128x128 .f32) _ = _
  congr 1
  funext a
  apply Fin.ext
  match a with
  | ⟨0, _⟩ => show win0_1.index t (0 : Fin 2) * 128 + 1 * k.val = k.val; omega
  | ⟨1, _⟩ => show win0_1.index t (1 : Fin 2) * 128 + 1 * (j 1).val = win0_2.index t (1 : Fin 2) * 128 + 1 * (j 1).val; omega

/-- What point `t` writes back is block `t` of the product of the arrays as the region finds them. -/
theorem flushed0_eq (c : Dev nD) (t : Fin cfg0.N) :
    (dat0 V c).flushed 2 t = ((cfg0.win 2).blk t).view.read (Elt Ideal) (G0 (V c main_arg0) (V c main_arg2)) := by
  show (cfg0.win 2).cut (grid0.coords t) ((dat0 V c).after 2 t) = _
  rw [after0_2]
  unfold out0_2
  rw [View.canon_unit_zero zero_off0]
  simp only [View.ld_unit_zero (S := S5000x128) zero_off0, View.ld_unit_zero (S := S128x128) zero_off0]
  funext j
  rw [View.read_apply]
  refine (pay0_apply _ _ j).trans ?_
  exact Finset.sum_congr rfl fun k _ => by rw [iblk0_0_apply V c t j k, iblk0_1_apply V c t j k]

/-- An index of the array is in point `t`'s block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v4).slice (win0_2.rect t)).set ↔ _
  rw [View.set_slice_whole, Rect.mem_set_unit]
  exact Iff.rfl

/-- The ten row blocks cover the array: row `r` is in the block of point `r / 5000`. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- `G0` at an index, for rewriting. -/
theorem G0_apply (a0 : FVec Ideal S50000x128 .f32) (a2 : FVec Ideal S128x128 .f32) (i : S50000x128.Idx) :
    G0 a0 a2 i = ∑ k : Fin 128, a0 (ix2 (i 0) k) * a2 (ix2 k (i 1)) := rfl

/-- The array after the region: the product of the two argument arrays as the region finds them. -/
theorem final0 (c : Dev nD) : (dat0 (F := Ideal) V c).arrAt 2 cfg0.N = G0 (V c main_arg0) (V c main_arg2) :=
  (dat0 V c).arrAt_eq_of_cover 2 (G0 (V c main_arg0) (V c main_arg2)) (fun t _ => flushed0_eq V c t) (cover0)

end Cert.KernelIdeal.GenP

end
-- ==== Proof.Spec.lean ====
/-
  The result of the layer as one function of its six argument arrays.

  A graph-convolution layer followed by a batch normalisation and a rectification, on N = 50000 nodes with
  C = 128 channels and E = 800000 edges. With `src`, `dst` the two rows of the edge list:

    deg   = 1 + (number of edges arriving at each node)          dinv = deg^(-1/2)
    norm  = dinv[src] * dinv[dst]                                 (one weight per edge)
    xw    = x · w                                                 (N × C)
    agg   = segment sum over dst of xw[src] * norm                (N × C)
    pre   = agg + xw * dinv² + bias
    out   = max ((pre − mean) * rsqrt (var + ε) * γ + β, 0)       mean, var over the N rows of each column

  The graph part (`srcOf` … `agg`, `dinv2`) is written as the composition of the array operations themselves: the
  slices of the edge list, the wrap of a negative index (`v < 0 ↦ v + N`), the accumulating scatters and the
  gathers. The dense part is written entry by entry: `xw` as the sum over the contracted channel, the column
  moments as sums over the rows, and the variance from the RAW moments, `Q / N − (S / N)²`.
-/
import proofs.«106382_j48249662603742_1_alg».proof.Proof.Gen.ReferenceIdeal
import Idealize.ShloMosaic.Lib.ValueIdx
import Idealize.ShloMosaic.PureOps.Ideal.Laws

noncomputable section

namespace Cert.Spec

open Cert.ReferenceIdeal Cert.ReferenceIdeal.Gen Idealize.ShloMosaic Idealize.ShloMosaic.ValueIdx

/-! ### The graph part, as compositions of array operations -/

/-- Row 0 of the edge list: the source node of each edge. -/
def srcOf (ei : IVec S2x800000 32) : IVec S800000 32 :=
  shapeCast _ (extractStridedSlice S1x800000 ![0, 0] ei slices_S2x800000_S1x800000_0_0) shapeCasts_S1x800000_S800000

/-- Row 1 of the edge list: the destination node of each edge. -/
def dstOf (ei : IVec S2x800000 32) : IVec S800000 32 :=
  shapeCast _ (extractStridedSlice S1x800000 ![1, 0] ei slices_S2x800000_S1x800000_1_0) shapeCasts_S1x800000_S800000

/-- A negative index counts from the end: `v < 0 ↦ v + 50000`. -/
def wrapIdx (v : IVec S800000 32) : IVec S800000 32 :=
  select (cmpi .slt v (broadcastInDim S800000 ![] bcast_S_S800000 (constantI S_ 32 0#32)))
    (addi v (broadcastInDim S800000 ![] bcast_S_S800000 (constantI S_ 32 50000#32))) v

/-- An index vector as the one-column index array a gather or a scatter reads. -/
def colIdx (v : IVec S800000 32) : IVec S800000x1 32 :=
  broadcastInDim S800000x1 ![0] bcast_S800000_S800000x1_0 v

/-- The degree of each node, self-loop included: one per arriving edge, plus one. -/
def deg (ei : IVec S2x800000 32) : FVec Ideal S50000 .f32 :=
  addf (Host.scatterAdd scatter_S50000_S800000x1_S800000_n_0_0_1
          (broadcastInDim S50000 ![] bcast_S_S50000 (constant (F := Ideal) S_ .f32 0x00000000#32))
          (colIdx (dstOf ei))
          (broadcastInDim S800000 ![] bcast_S_S800000 (constant (F := Ideal) S_ .f32 0x3F800000#32)))
       (broadcastInDim S50000 ![] bcast_S_S50000 (constant (F := Ideal) S_ .f32 0x3F800000#32))

/-- `deg^(-1/2)`. -/
def dinv (ei : IVec S2x800000 32) : FVec Ideal S50000 .f32 :=
  Host.rsqrt (deg ei)

/-- The weight of each edge: `dinv[src] * dinv[dst]`. -/
def edgeNorm (ei : IVec S2x800000 32) : FVec Ideal S800000 .f32 :=
  mulf (Host.gather gather_S50000_S800000x1_S800000_n_0_n_n_0_1_1 (dinv ei) (colIdx (wrapIdx (srcOf ei))))
       (Host.gather gather_S50000_S800000x1_S800000_n_0_n_n_0_1_1 (dinv ei) (colIdx (wrapIdx (dstOf ei))))

/-- The messages: row `src` of `xw`, scaled by the edge's weight. -/
def msg (xw : FVec Ideal S50000x128 .f32) (ei : IVec S2x800000 32) : FVec Ideal S800000x128 .f32 :=
  mulf (Host.gather gather_S50000x128_S800000x1_S800000x128_1_0_n_n_0_1_1128 xw (colIdx (wrapIdx (srcOf ei))))
       (broadcastInDim S800000x128 ![0, 1] bcast_S800000x1_S800000x128_0_1
          (broadcastInDim S800000x1 ![0] bcast_S800000_S800000x1_0 (edgeNorm ei)))

/-- The aggregation: the messages summed onto their destination rows. -/
def agg (xw : FVec Ideal S50000x128 .f32) (ei : IVec S2x800000 32) : FVec Ideal S50000x128 .f32 :=
  Host.scatterAdd scatter_S50000x128_S800000x1_S800000x128_1_0_0_1
    (broadcastInDim S50000x128 ![] bcast_S_S50000x128 (constant (F := Ideal) S_ .f32 0x00000000#32))
    (colIdx (dstOf ei))
    (msg xw ei)

/-- The self-loop weight `dinv²`. -/
def dinv2 (ei : IVec S2x800000 32) : FVec Ideal S50000 .f32 :=
  mulf (dinv ei) (dinv ei)

/-! ### The dense part, entry by entry -/

/-- `x · w`: the sum over the contracted channel. -/
def xw (x : FVec Ideal S50000x128 .f32) (w : FVec Ideal S128x128 .f32) : FVec Ideal S50000x128 .f32 :=
  fun i => ∑ k : Fin 128, x (ix2 (i 0) k) * w (ix2 k (i 1))

/-- The layer before normalisation: aggregation, self-loop term and bias. -/
def pre (x : FVec Ideal S50000x128 .f32) (ei : IVec S2x800000 32) (w : FVec Ideal S128x128 .f32) (b : FVec Ideal S128 .f32) :
    FVec Ideal S50000x128 .f32 :=
  fun i => agg (xw x w) ei i + xw x w i * dinv2 ei (ix1 (i 0)) + b (ix1 (i 1))

/-- The number of rows, 50000, as the word the programs divide by. -/
def nRows : EReal := Ideal.ofBits .f32 0x47435000#32

/-- The variance floor ε (the f32 nearest 1e-5). -/
def eps : EReal := Ideal.ofBits .f32 0x3727C5AC#32

/-- The sum of column `j` over the rows. -/
def colSum (p : FVec Ideal S50000x128 .f32) (j : Fin 128) : EReal := ∑ r : Fin 50000, p (ix2 r j)

/-- The sum of squares of column `j` over the rows. -/
def colSumSq (p : FVec Ideal S50000x128 .f32) (j : Fin 128) : EReal := ∑ r : Fin 50000, p (ix2 r j) * p (ix2 r j)

/-- The column mean `S / N`. -/
def meanK (p : FVec Ideal S50000x128 .f32) (j : Fin 128) : EReal := Ideal.div (colSum p j) nRows

/-- The column variance from the raw moments, `Q / N − (S / N)²`. -/
def varK (p : FVec Ideal S50000x128 .f32) (j : Fin 128) : EReal :=
  Ideal.div (colSumSq p j) nRows - meanK p j * meanK p j

/-- Normalisation, affine map and rectification of an array `p`. -/
def normRelu (p : FVec Ideal S50000x128 .f32) (γ β : FVec Ideal S128 .f32) : FVec Ideal S50000x128 .f32 :=
  fun i => max ((((p i - meanK p (i 1)) * Ideal.rsqrt (varK p (i 1) + eps)) * γ (ix1 (i 1))) + β (ix1 (i 1)))
             (Ideal.ofBits .f32 0x00000000#32)

/-- The whole layer. -/
def G (x : FVec Ideal S50000x128 .f32) (ei : IVec S2x800000 32) (w : FVec Ideal S128x128 .f32)
    (b γ β : FVec Ideal S128 .f32) : FVec Ideal S50000x128 .f32 :=
  normRelu (pre x ei w b) γ β

theorem G_apply (x : FVec Ideal S50000x128 .f32) (ei : IVec S2x800000 32) (w : FVec Ideal S128x128 .f32)
    (b γ β : FVec Ideal S128 .f32) (i : S50000x128.Idx) :
    G x ei w b γ β i
      = max ((((pre x ei w b i - meanK (pre x ei w b) (i 1)) * Ideal.rsqrt (varK (pre x ei w b) (i 1) + eps))
                * γ (ix1 (i 1))) + β (ix1 (i 1)))
            (Ideal.ofBits .f32 0x00000000#32) := rfl

end Cert.Spec

end
-- ==== Proof.KernelIdealP.KVal1.lean ====
/-
  The host operations of the kernel program, read as values: what the buffers the three kernels are entered with hold, as
  functions of the six argument arrays. The graph part (degrees, edge weights, the gathered and scattered messages) is
  the same composition of array operations as in the specification; the product kernel's result enters it as `x · w`.
-/
import proofs.«106382_j48249662603742_1_alg».proof.Proof.KernelIdealP.Run
import proofs.«106382_j48249662603742_1_alg».proof.Proof.KernelIdealP.Val0
import proofs.«106382_j48249662603742_1_alg».proof.Proof.Spec
import Idealize.ShloMosaic.Lib.StableHlo.Run
import Idealize.ShloMosaic.PureOps.Ideal
import Idealize.ShloMosaic.PureOps.Ideal.Laws

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

/-! ## Before the product kernel: the arguments, and the two rows of the edge list -/

theorem W1_arg0 (c : Dev nD) : W1 (F := Ideal) m ρ c (Proc.devRef .tc main_arg0) = (m ((c : Thread nD τ).loc main_arg0)) := by
  show StableHlo.after hostOps0 (W0 m ρ c) (Proc.devRef .tc main_arg0) = _
  after_results_simp <;> rfl
theorem W1_arg1 (c : Dev nD) : W1 (F := Ideal) m ρ c (Proc.devRef .tc main_arg1) = (m ((c : Thread nD τ).loc main_arg1)) := by
  show StableHlo.after hostOps0 (W0 m ρ c) (Proc.devRef .tc main_arg1) = _
  after_results_simp <;> rfl
theorem W1_arg2 (c : Dev nD) : W1 (F := Ideal) m ρ c (Proc.devRef .tc main_arg2) = (m ((c : Thread nD τ).loc main_arg2)) := by
  show StableHlo.after hostOps0 (W0 m ρ c) (Proc.devRef .tc main_arg2) = _
  after_results_simp <;> rfl
theorem W1_arg3 (c : Dev nD) : W1 (F := Ideal) m ρ c (Proc.devRef .tc main_arg3) = (m ((c : Thread nD τ).loc main_arg3)) := by
  show StableHlo.after hostOps0 (W0 m ρ c) (Proc.devRef .tc main_arg3) = _
  after_results_simp <;> rfl
theorem W1_arg4 (c : Dev nD) : W1 (F := Ideal) m ρ c (Proc.devRef .tc main_arg4) = (m ((c : Thread nD τ).loc main_arg4)) := by
  show StableHlo.after hostOps0 (W0 m ρ c) (Proc.devRef .tc main_arg4) = _
  after_results_simp <;> rfl
theorem W1_arg5 (c : Dev nD) : W1 (F := Ideal) m ρ c (Proc.devRef .tc main_arg5) = (m ((c : Thread nD τ).loc main_arg5)) := by
  show StableHlo.after hostOps0 (W0 m ρ c) (Proc.devRef .tc main_arg5) = _
  after_results_simp <;> rfl
theorem W1_v1 (c : Dev nD) : W1 (F := Ideal) m ρ c (Proc.devRef .tc main_v1) = Cert.Spec.srcOf (m ((c : Thread nD τ).loc main_arg1)) := by
  show StableHlo.after hostOps0 (W0 m ρ c) (Proc.devRef .tc main_v1) = _
  after_results_simp <;> rfl
theorem W1_v3 (c : Dev nD) : W1 (F := Ideal) m ρ c (Proc.devRef .tc main_v3) = Cert.Spec.dstOf (m ((c : Thread nD τ).loc main_arg1)) := by
  show StableHlo.after hostOps0 (W0 m ρ c) (Proc.devRef .tc main_v3) = _
  after_results_simp <;> rfl

/-! ## After the product kernel: its result is `x · w`, everything else is as before -/

theorem W2_arg1 (c : Dev nD) : W2 (F := Ideal) m ρ c (Proc.devRef .tc main_arg1) = (m ((c : Thread nD τ).loc main_arg1)) :=
  (W2_of_ne m ρ c main_arg1 (by decide)).trans (W1_arg1 m ρ c)
theorem W2_arg3 (c : Dev nD) : W2 (F := Ideal) m ρ c (Proc.devRef .tc main_arg3) = (m ((c : Thread nD τ).loc main_arg3)) :=
  (W2_of_ne m ρ c main_arg3 (by decide)).trans (W1_arg3 m ρ c)
theorem W2_arg4 (c : Dev nD) : W2 (F := Ideal) m ρ c (Proc.devRef .tc main_arg4) = (m ((c : Thread nD τ).loc main_arg4)) :=
  (W2_of_ne m ρ c main_arg4 (by decide)).trans (W1_arg4 m ρ c)
theorem W2_arg5 (c : Dev nD) : W2 (F := Ideal) m ρ c (Proc.devRef .tc main_arg5) = (m ((c : Thread nD τ).loc main_arg5)) :=
  (W2_of_ne m ρ c main_arg5 (by decide)).trans (W1_arg5 m ρ c)
theorem W2_v1 (c : Dev nD) : W2 (F := Ideal) m ρ c (Proc.devRef .tc main_v1) = Cert.Spec.srcOf (m ((c : Thread nD τ).loc main_arg1)) :=
  (W2_of_ne m ρ c main_v1 (by decide)).trans (W1_v1 m ρ c)
theorem W2_v3 (c : Dev nD) : W2 (F := Ideal) m ρ c (Proc.devRef .tc main_v3) = Cert.Spec.dstOf (m ((c : Thread nD τ).loc main_arg1)) :=
  (W2_of_ne m ρ c main_v3 (by decide)).trans (W1_v3 m ρ c)
theorem W2_v4 (c : Dev nD) : W2 (F := Ideal) m ρ c (Proc.devRef .tc main_v4) = Cert.Spec.xw (m ((c : Thread nD τ).loc main_arg0)) (m ((c : Thread nD τ).loc main_arg2)) := by
  refine (W2_arr m ρ c 2).trans ((final0 (V1 m ρ) c).trans ?_)
  rw [show V1 (F := Ideal) m ρ c main_arg0 = (m ((c : Thread nD τ).loc main_arg0)) from W1_arg0 m ρ c, show V1 (F := Ideal) m ρ c main_arg2 = (m ((c : Thread nD τ).loc main_arg2)) from W1_arg2 m ρ c]
  rfl

/-! ## Before the accumulating kernel -/

theorem V3_v39 (c : Dev nD) : V3 (F := Ideal) m ρ c main_v39 = Cert.Spec.agg (Cert.Spec.xw (m ((c : Thread nD τ).loc main_arg0)) (m ((c : Thread nD τ).loc main_arg2))) (m ((c : Thread nD τ).loc main_arg1)) := by
  show StableHlo.after hostOps1 (W2 m ρ c) (Proc.devRef .tc main_v39) = _
  after_results_simp
  rw [W2_v1, W2_v3, W2_v4]
  rfl
theorem V3_v4 (c : Dev nD) : V3 (F := Ideal) m ρ c main_v4 = Cert.Spec.xw (m ((c : Thread nD τ).loc main_arg0)) (m ((c : Thread nD τ).loc main_arg2)) := by
  show StableHlo.after hostOps1 (W2 m ρ c) (Proc.devRef .tc main_v4) = _
  after_results_simp
  exact W2_v4 m ρ c
theorem V3_v41 (c : Dev nD) : V3 (F := Ideal) m ρ c main_v41 = (shapeCast S50000x1 (Cert.Spec.dinv2 (m ((c : Thread nD τ).loc main_arg1))) shapeCasts_S50000_S50000x1 : FVec Ideal S50000x1 .f32) := by
  show StableHlo.after hostOps1 (W2 m ρ c) (Proc.devRef .tc main_v41) = _
  after_results_simp
  rw [W2_v3]
  rfl
theorem V3_v42 (c : Dev nD) : V3 (F := Ideal) m ρ c main_v42 = (shapeCast S1x128 (m ((c : Thread nD τ).loc main_arg3)) shapeCasts_S128_S1x128 : FVec Ideal S1x128 .f32) := by
  show StableHlo.after hostOps1 (W2 m ρ c) (Proc.devRef .tc main_v42) = _
  after_results_simp
  rw [W2_arg3]
  rfl

end Cert.KernelIdeal.GenP

end
-- ==== Proof.KernelIdealP.Val1a.lean ====
/-
  What each kind of point of the accumulating kernel leaves, read off the stores its run found: the block result is the
  block  agg + xw * dinv2 + bias  of the point's input blocks; each accumulator is the accumulator it found (zero at the
  first point) plus the block's column sums (of squares); at the last point the two results are those accumulators.
  Every store here overwrites its whole buffer, so a buffer reads back as its last store's value.
-/
import proofs.«106382_j48249662603742_1_alg».proof.Proof.KernelIdealP.R1
import Idealize.ShloMosaic.Lib.Pipeline.Value

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → ℕ) = fun _ => 0 := funext fun a => by
  match a with
  | ⟨0, _⟩ => rfl
  | ⟨1, _⟩ => rfl

/-- A load of a whole buffer through the whole rectangle reads the buffer's contents. -/
theorem readAt_whole {S : Shape} {e : EltTy} (m : Memref sig .tc .vmem S e) (h : m.IsWhole) {off : Fin S.rank → ℕ} (hoff : off = fun _ => 0)
    (inb : ∀ a, off a + S.size a ≤ S.size a) (X : S.Idx → Elt F e) :
    View.readAt (Elt F) m.view (Rect.unit off S.size inb).toLoadRect (h.unread X) = X := by
  simp only [View.readAt_eq_ld, Memref.IsWhole.read_unread, View.ld_unit_zero hoff]

theorem app4 {α β γ δ ζ : Sort _} (f : α → β → γ → δ → ζ) {a a' : α} {b b' : β} {c c' : γ} {d d' : δ}
    (ha : a = a') (hb : b = b') (hc : c = c') (hd : d = d') : f a b c d = f a' b' c' d' := by
  subst ha hb hc hd; rfl
theorem app5 {α β γ δ ε ζ : Sort _} (f : α → β → γ → δ → ε → ζ) {a a' : α} {b b' : β} {c c' : γ} {d d' : δ} {e e' : ε}
    (ha : a = a') (hb : b = b') (hc : c = c') (hd : d = d') (he : e = e') : f a b c d e = f a' b' c' d' e' := by
  subst ha hb hc hd he; rfl

/-! ## The block result, at every kind of point -/

theorem caseA_blk (c : Dev nD) (t : Fin cfg1.N) (hc0 hc1) :
    (caseA V c t hc0 hc1).1 = k1_pay3 (iblk1 V c 0 t) (iblk1 V c 1 t) (iblk1 V c 2 t) (iblk1 V c 3 t) := by
  unfold caseA; dsimp only
  rw [View.read_writes_eq_canon _ _ _ (coverA_4 V c t hc0 hc1)]
  unfold runA kernelRun1_A; dsimp only
  sl_unfold_words
  refine (View.canon_unit_zero hz2 _ _).trans ?_
  have e0 := readAt_whole (F := F) (ms1_0 t) (hs1_0 t) hz2 inb_S5000x128_S5000x128_0_0 (iblk1 V c 0 t)
  have e1 := readAt_whole (F := F) (ms1_1 t) (hs1_1 t) hz2 inb_S5000x128_S5000x128_0_0 (iblk1 V c 1 t)
  have e2 := readAt_whole (F := F) (ms1_2 t) (hs1_2 t) hz2 inb_S5000x1_S5000x1_0_0 (iblk1 V c 2 t)
  have e3 := readAt_whole (F := F) (ms1_3 t) (hs1_3 t) hz2 inb_S1x128_S1x128_0_0 (iblk1 V c 3 t)
  exact app4 k1_pay3 e0 e1 e2 e3

theorem caseB_blk (c : Dev nD) (t : Fin cfg1.N) (hc0 hc1) (s0 s1 : Vec F S1x128 .f32) :
    (caseB V c t hc0 hc1 s0 s1).1 = k1_pay3 (iblk1 V c 0 t) (iblk1 V c 1 t) (iblk1 V c 2 t) (iblk1 V c 3 t) := by
  unfold caseB; dsimp only
  rw [View.read_writes_eq_canon _ _ _ (coverB_4 V c t hc0 hc1 s0 s1)]
  unfold runB kernelRun1_B; dsimp only
  sl_unfold_words
  refine (View.canon_unit_zero hz2 _ _).trans ?_
  have e0 := readAt_whole (F := F) (ms1_0 t) (hs1_0 t) hz2 inb_S5000x128_S5000x128_0_0 (iblk1 V c 0 t)
  have e1 := readAt_whole (F := F) (ms1_1 t) (hs1_1 t) hz2 inb_S5000x128_S5000x128_0_0 (iblk1 V c 1 t)
  have e2 := readAt_whole (F := F) (ms1_2 t) (hs1_2 t) hz2 inb_S5000x1_S5000x1_0_0 (iblk1 V c 2 t)
  have e3 := readAt_whole (F := F) (ms1_3 t) (hs1_3 t) hz2 inb_S1x128_S1x128_0_0 (iblk1 V c 3 t)
  exact app4 k1_pay3 e0 e1 e2 e3

theorem caseC_blk (c : Dev nD) (t : Fin cfg1.N) (hc0 hc1) (s0 s1 : Vec F S1x128 .f32) :
    (caseC V c t hc0 hc1 s0 s1).1 = k1_pay3 (iblk1 V c 0 t) (iblk1 V c 1 t) (iblk1 V c 2 t) (iblk1 V c 3 t) := by
  unfold caseC; dsimp only
  rw [View.read_writes_eq_canon _ _ _ (coverC_4 V c t hc0 hc1 s0 s1)]
  unfold runC kernelRun1_C; dsimp only
  sl_unfold_words
  refine (View.canon_unit_zero hz2 _ _).trans ?_
  have e0 := readAt_whole (F := F) (ms1_0 t) (hs1_0 t) hz2 inb_S5000x128_S5000x128_0_0 (iblk1 V c 0 t)
  have e1 := readAt_whole (F := F) (ms1_1 t) (hs1_1 t) hz2 inb_S5000x128_S5000x128_0_0 (iblk1 V c 1 t)
  have e2 := readAt_whole (F := F) (ms1_2 t) (hs1_2 t) hz2 inb_S5000x1_S5000x1_0_0 (iblk1 V c 2 t)
  have e3 := readAt_whole (F := F) (ms1_3 t) (hs1_3 t) hz2 inb_S1x128_S1x128_0_0 (iblk1 V c 3 t)
  exact app4 k1_pay3 e0 e1 e2 e3

/-! ## The accumulators -/

theorem caseA_s0 (c : Dev nD) (t : Fin cfg1.N) (hc0 hc1) :
    (caseA V c t hc0 hc1).2.2.2.1 = k1_pay4 (iblk1 V c 0 t) (iblk1 V c 1 t) (iblk1 V c 2 t) (iblk1 V c 3 t) (k1_pay1 (F := F)) := by
  unfold caseA; dsimp only
  rw [View.read_writes_eq_canon _ _ _ (scoverA_0 V c t hc0 hc1)]
  unfold runA kernelRun1_A; dsimp only
  sl_unfold_words
  refine (View.canon_cons_unit_zero hz2 _ _ _).trans ?_
  have e0 := readAt_whole (F := F) (ms1_0 t) (hs1_0 t) hz2 inb_S5000x128_S5000x128_0_0 (iblk1 V c 0 t)
  have e1 := readAt_whole (F := F) (ms1_1 t) (hs1_1 t) hz2 inb_S5000x128_S5000x128_0_0 (iblk1 V c 1 t)
  have e2 := readAt_whole (F := F) (ms1_2 t) (hs1_2 t) hz2 inb_S5000x1_S5000x1_0_0 (iblk1 V c 2 t)
  have e3 := readAt_whole (F := F) (ms1_3 t) (hs1_3 t) hz2 inb_S1x128_S1x128_0_0 (iblk1 V c 3 t)
  have e4 := View.readCov_unit_zero (Val := Elt F) scM1_0.view hz2 inb_S1x128_S1x128_0_0 (k1_pay1 (F := F))
  exact app5 k1_pay4 e0 e1 e2 e3 e4

theorem caseA_s1 (c : Dev nD) (t : Fin cfg1.N) (hc0 hc1) :
    (caseA V c t hc0 hc1).2.2.2.2 = k1_pay5 (iblk1 V c 0 t) (iblk1 V c 1 t) (iblk1 V c 2 t) (iblk1 V c 3 t) (k1_pay2 (F := F)) := by
  unfold caseA; dsimp only
  rw [View.read_writes_eq_canon _ _ _ (scoverA_1 V c t hc0 hc1)]
  unfold runA kernelRun1_A; dsimp only
  sl_unfold_words
  refine (View.canon_cons_unit_zero hz2 _ _ _).trans ?_
  have e0 := readAt_whole (F := F) (ms1_0 t) (hs1_0 t) hz2 inb_S5000x128_S5000x128_0_0 (iblk1 V c 0 t)
  have e1 := readAt_whole (F := F) (ms1_1 t) (hs1_1 t) hz2 inb_S5000x128_S5000x128_0_0 (iblk1 V c 1 t)
  have e2 := readAt_whole (F := F) (ms1_2 t) (hs1_2 t) hz2 inb_S5000x1_S5000x1_0_0 (iblk1 V c 2 t)
  have e3 := readAt_whole (F := F) (ms1_3 t) (hs1_3 t) hz2 inb_S1x128_S1x128_0_0 (iblk1 V c 3 t)
  have e4 := View.readCov_unit_zero (Val := Elt F) scM1_1.view hz2 inb_S1x128_S1x128_0_0 (k1_pay2 (F := F))
  exact app5 k1_pay5 e0 e1 e2 e3 e4

theorem caseB_s0 (c : Dev nD) (t : Fin cfg1.N) (hc0 hc1) (s0 s1 : Vec F S1x128 .f32) :
    (caseB V c t hc0 hc1 s0 s1).2.2.2.1 = k1_pay4 (iblk1 V c 0 t) (iblk1 V c 1 t) (iblk1 V c 2 t) (iblk1 V c 3 t) s0 := by
  unfold caseB; dsimp only
  rw [View.read_writes_eq_canon _ _ _ (scoverB_0 V c t hc0 hc1 s0 s1)]
  unfold runB kernelRun1_B; dsimp only
  sl_unfold_words
  refine (View.canon_unit_zero hz2 _ _).trans ?_
  have e0 := readAt_whole (F := F) (ms1_0 t) (hs1_0 t) hz2 inb_S5000x128_S5000x128_0_0 (iblk1 V c 0 t)
  have e1 := readAt_whole (F := F) (ms1_1 t) (hs1_1 t) hz2 inb_S5000x128_S5000x128_0_0 (iblk1 V c 1 t)
  have e2 := readAt_whole (F := F) (ms1_2 t) (hs1_2 t) hz2 inb_S5000x1_S5000x1_0_0 (iblk1 V c 2 t)
  have e3 := readAt_whole (F := F) (ms1_3 t) (hs1_3 t) hz2 inb_S1x128_S1x128_0_0 (iblk1 V c 3 t)
  have e4 := readAt_whole (F := F) scM1_0 (Memref.isWhole_whole _) hz2 inb_S1x128_S1x128_0_0 s0
  exact app5 k1_pay4 e0 e1 e2 e3 e4

theorem caseB_s1 (c : Dev nD) (t : Fin cfg1.N) (hc0 hc1) (s0 s1 : Vec F S1x128 .f32) :
    (caseB V c t hc0 hc1 s0 s1).2.2.2.2 = k1_pay5 (iblk1 V c 0 t) (iblk1 V c 1 t) (iblk1 V c 2 t) (iblk1 V c 3 t) s1 := by
  unfold caseB; dsimp only
  rw [View.read_writes_eq_canon _ _ _ (scoverB_1 V c t hc0 hc1 s0 s1)]
  unfold runB kernelRun1_B; dsimp only
  sl_unfold_words
  refine (View.canon_unit_zero hz2 _ _).trans ?_
  have e0 := readAt_whole (F := F) (ms1_0 t) (hs1_0 t) hz2 inb_S5000x128_S5000x128_0_0 (iblk1 V c 0 t)
  have e1 := readAt_whole (F := F) (ms1_1 t) (hs1_1 t) hz2 inb_S5000x128_S5000x128_0_0 (iblk1 V c 1 t)
  have e2 := readAt_whole (F := F) (ms1_2 t) (hs1_2 t) hz2 inb_S5000x1_S5000x1_0_0 (iblk1 V c 2 t)
  have e3 := readAt_whole (F := F) (ms1_3 t) (hs1_3 t) hz2 inb_S1x128_S1x128_0_0 (iblk1 V c 3 t)
  have e4 := readAt_whole (F := F) scM1_1 (Memref.isWhole_whole _) hz2 inb_S1x128_S1x128_0_0 s1
  exact app5 k1_pay5 e0 e1 e2 e3 e4

theorem caseC_s0 (c : Dev nD) (t : Fin cfg1.N) (hc0 hc1) (s0 s1 : Vec F S1x128 .f32) :
    (caseC V c t hc0 hc1 s0 s1).2.2.2.1 = k1_pay4 (iblk1 V c 0 t) (iblk1 V c 1 t) (iblk1 V c 2 t) (iblk1 V c 3 t) s0 := by
  unfold caseC; dsimp only
  rw [View.read_writes_eq_canon _ _ _ (scoverC_0 V c t hc0 hc1 s0 s1)]
  unfold runC kernelRun1_C; dsimp only
  sl_unfold_words
  refine (View.canon_unit_zero hz2 _ _).trans ?_
  have e0 := readAt_whole (F := F) (ms1_0 t) (hs1_0 t) hz2 inb_S5000x128_S5000x128_0_0 (iblk1 V c 0 t)
  have e1 := readAt_whole (F := F) (ms1_1 t) (hs1_1 t) hz2 inb_S5000x128_S5000x128_0_0 (iblk1 V c 1 t)
  have e2 := readAt_whole (F := F) (ms1_2 t) (hs1_2 t) hz2 inb_S5000x1_S5000x1_0_0 (iblk1 V c 2 t)
  have e3 := readAt_whole (F := F) (ms1_3 t) (hs1_3 t) hz2 inb_S1x128_S1x128_0_0 (iblk1 V c 3 t)
  have e4 := readAt_whole (F := F) scM1_0 (Memref.isWhole_whole _) hz2 inb_S1x128_S1x128_0_0 s0
  exact app5 k1_pay4 e0 e1 e2 e3 e4

theorem caseC_s1 (c : Dev nD) (t : Fin cfg1.N) (hc0 hc1) (s0 s1 : Vec F S1x128 .f32) :
    (caseC V c t hc0 hc1 s0 s1).2.2.2.2 = k1_pay5 (iblk1 V c 0 t) (iblk1 V c 1 t) (iblk1 V c 2 t) (iblk1 V c 3 t) s1 := by
  unfold caseC; dsimp only
  rw [View.read_writes_eq_canon _ _ _ (scoverC_1 V c t hc0 hc1 s0 s1)]
  unfold runC kernelRun1_C; dsimp only
  sl_unfold_words
  refine (View.canon_unit_zero hz2 _ _).trans ?_
  have e0 := readAt_whole (F := F) (ms1_0 t) (hs1_0 t) hz2 inb_S5000x128_S5000x128_0_0 (iblk1 V c 0 t)
  have e1 := readAt_whole (F := F) (ms1_1 t) (hs1_1 t) hz2 inb_S5000x128_S5000x128_0_0 (iblk1 V c 1 t)
  have e2 := readAt_whole (F := F) (ms1_2 t) (hs1_2 t) hz2 inb_S5000x1_S5000x1_0_0 (iblk1 V c 2 t)
  have e3 := readAt_whole (F := F) (ms1_3 t) (hs1_3 t) hz2 inb_S1x128_S1x128_0_0 (iblk1 V c 3 t)
  have e4 := readAt_whole (F := F) scM1_1 (Memref.isWhole_whole _) hz2 inb_S1x128_S1x128_0_0 s1
  exact app5 k1_pay5 e0 e1 e2 e3 e4

/-! ## The two results at the last point: the accumulators, read back -/

theorem caseC_out5 (c : Dev nD) (t : Fin cfg1.N) (hc0 hc1) (s0 s1 : Vec F S1x128 .f32) :
    (caseC V c t hc0 hc1 s0 s1).2.1 = k1_pay4 (iblk1 V c 0 t) (iblk1 V c 1 t) (iblk1 V c 2 t) (iblk1 V c 3 t) s0 := by
  unfold caseC; dsimp only
  rw [View.read_writes_eq_canon _ _ _ (coverC_5 V c t hc0 hc1 s0 s1)]
  unfold runC kernelRun1_C; dsimp only
  sl_unfold_words
  refine (View.canon_unit_zero hz2 _ _).trans ?_
  refine (View.readCov_unit_zero _ hz2 _ _).trans ?_
  have e0 := readAt_whole (F := F) (ms1_0 t) (hs1_0 t) hz2 inb_S5000x128_S5000x128_0_0 (iblk1 V c 0 t)
  have e1 := readAt_whole (F := F) (ms1_1 t) (hs1_1 t) hz2 inb_S5000x128_S5000x128_0_0 (iblk1 V c 1 t)
  have e2 := readAt_whole (F := F) (ms1_2 t) (hs1_2 t) hz2 inb_S5000x1_S5000x1_0_0 (iblk1 V c 2 t)
  have e3 := readAt_whole (F := F) (ms1_3 t) (hs1_3 t) hz2 inb_S1x128_S1x128_0_0 (iblk1 V c 3 t)
  have e4 := readAt_whole (F := F) scM1_0 (Memref.isWhole_whole _) hz2 inb_S1x128_S1x128_0_0 s0
  exact app5 k1_pay4 e0 e1 e2 e3 e4

theorem caseC_out6 (c : Dev nD) (t : Fin cfg1.N) (hc0 hc1) (s0 s1 : Vec F S1x128 .f32) :
    (caseC V c t hc0 hc1 s0 s1).2.2.1 = k1_pay5 (iblk1 V c 0 t) (iblk1 V c 1 t) (iblk1 V c 2 t) (iblk1 V c 3 t) s1 := by
  unfold caseC; dsimp only
  rw [View.read_writes_eq_canon _ _ _ (coverC_6 V c t hc0 hc1 s0 s1)]
  unfold runC kernelRun1_C; dsimp only
  sl_unfold_words
  refine (View.canon_unit_zero hz2 _ _).trans ?_
  refine (View.readCov_unit_zero _ hz2 _ _).trans ?_
  have e0 := readAt_whole (F := F) (ms1_0 t) (hs1_0 t) hz2 inb_S5000x128_S5000x128_0_0 (iblk1 V c 0 t)
  have e1 := readAt_whole (F := F) (ms1_1 t) (hs1_1 t) hz2 inb_S5000x128_S5000x128_0_0 (iblk1 V c 1 t)
  have e2 := readAt_whole (F := F) (ms1_2 t) (hs1_2 t) hz2 inb_S5000x1_S5000x1_0_0 (iblk1 V c 2 t)
  have e3 := readAt_whole (F := F) (ms1_3 t) (hs1_3 t) hz2 inb_S1x128_S1x128_0_0 (iblk1 V c 3 t)
  have e4 := readAt_whole (F := F) scM1_1 (Memref.isWhole_whole _) hz2 inb_S1x128_S1x128_0_0 s1
  exact app5 k1_pay5 e0 e1 e2 e3 e4

end Cert.KernelIdeal.GenP

end
-- ==== Proof.KernelIdealP.Val1b.lean ====
/- The accumulating kernel's payloads at an index, at the extended reals, over variables of the literal vector
   types: the block result is pointwise (the second operand scaled by a column, a row added); each accumulator's new
   value is its old value plus the sum, down the block's 5000 rows, of the block result (or of its square); the two
   accumulators start from the zero row. -/
import proofs.«106382_j48249662603742_1_alg».proof.Proof.Gen.KernelIdeal.Skeleton
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.GenP

open Cert.KernelIdeal Cert.KernelIdeal.Gen
open Idealize.ShloMosaic Idealize.ShloMosaic.ValueIdx

/-- A column of 5000 copied along 128 lanes, read at `(p, q)`: the column at `p`. -/
theorem bcast_col_apply (v : FVec Ideal S5000x1 .f32) (p : Fin 5000) (q : Fin 128) :
    broadcastTo S5000x128 v broadcasts_S5000x1_S5000x128 (ix2 p q) = v (ix2 p (0 : Fin 1)) := by
  refine broadcastTo_apply v broadcasts_S5000x1_S5000x128 (ix2 p q) (ix2 p (0 : Fin 1)) fun ax => ?_
  match ax with
  | ⟨0, _⟩ => show p.val = if (5000 : ℕ) = 1 then 0 else p.val; rw [if_neg (by decide)]
  | ⟨1, _⟩ => rfl

/-- The index over lane `q` of the reduced shape with row `r` put back is `(r, q)`. -/
theorem lift_rows (q : Fin 128) (r : Fin 5000) : reduces_S5000x128_S128.lift (ix1 q) r = ix2 r q := by
  funext a
  apply Fin.ext
  match a with
  | ⟨0, _⟩ => rfl
  | ⟨1, _⟩ => rfl

/-- The block result at `(p, q)`. -/
theorem pay3_apply (x0 x1 : FVec Ideal S5000x128 .f32) (x2 : FVec Ideal S5000x1 .f32) (x3 : FVec Ideal S1x128 .f32) (p : Fin 5000) (q : Fin 128) :
    k1_pay3 x0 x1 x2 x3 (ix2 p q) = x0 (ix2 p q) + x1 (ix2 p q) * x2 (ix2 p (0 : Fin 1)) + x3 (ix2 (0 : Fin 1) q) := by
  unfold k1_pay3
  simp only [shapeCast_self]
  rw [addf_apply, addf_apply, mulf_apply, bcast_col_apply, broadcastTo_1b_ab_apply (a := 5000) (b := 128)]

/-- The zero row the sum accumulator starts from. -/
theorem pay1_apply (q : Fin 128) : (k1_pay1 (F := Ideal)) (ix2 (0 : Fin 1) q) = 0 := by
  unfold k1_pay1
  simp only [shapeCast_self]
  rw [broadcast_apply]
  exact Ideal.ofBits_zero_f32

/-- The zero row the sum-of-squares accumulator starts from. -/
theorem pay2z_apply (q : Fin 128) : (k1_pay2 (F := Ideal)) (ix2 (0 : Fin 1) q) = 0 := by
  unfold k1_pay2
  simp only [shapeCast_self]
  rw [broadcast_apply]
  exact Ideal.ofBits_zero_f32

/-- The sum accumulator after a point, at lane `q`: what it held plus the block result summed down the rows. -/
theorem pay4_apply (x0 x1 : FVec Ideal S5000x128 .f32) (x2 : FVec Ideal S5000x1 .f32) (x3 s : FVec Ideal S1x128 .f32) (q : Fin 128) :
    k1_pay4 x0 x1 x2 x3 s (ix2 (0 : Fin 1) q) = s (ix2 (0 : Fin 1) q) + ∑ r : Fin 5000, k1_pay3 x0 x1 x2 x3 (ix2 r q) := by
  unfold k1_pay4
  simp only [shapeCast_self]
  rw [addf_apply, shapeCast_a_1a_apply (a := 128)]
  congr 1
  refine (Ideal.multiReduction_add_single (k1_pay3 x0 x1 x2 x3) 0x00000000#32 reduces_S5000x128_S128 (.inl rfl) rfl (ix1 q)).trans ?_
  exact Finset.sum_congr rfl fun r _ => by rw [lift_rows q r]

/-- The sum-of-squares accumulator after a point, at lane `q`. -/
theorem pay5_apply (x0 x1 : FVec Ideal S5000x128 .f32) (x2 : FVec Ideal S5000x1 .f32) (x3 s : FVec Ideal S1x128 .f32) (q : Fin 128) :
    k1_pay5 x0 x1 x2 x3 s (ix2 (0 : Fin 1) q)
      = s (ix2 (0 : Fin 1) q) + ∑ r : Fin 5000, k1_pay3 x0 x1 x2 x3 (ix2 r q) * k1_pay3 x0 x1 x2 x3 (ix2 r q) := by
  unfold k1_pay5
  simp only [shapeCast_self]
  rw [addf_apply, shapeCast_a_1a_apply (a := 128)]
  congr 1
  refine (Ideal.multiReduction_add_single (mulf (k1_pay3 x0 x1 x2 x3) (k1_pay3 x0 x1 x2 x3)) 0x00000000#32 reduces_S5000x128_S128 (.inl rfl) rfl (ix1 q)).trans ?_
  exact Finset.sum_congr rfl fun r _ => by rw [mulf_apply, lift_rows q r]

end Cert.KernelIdeal.GenP

end
-- ==== Proof.LibBlockedSum.lean ====
/-
  A finite sum taken block by block: an axis of `n = nb · bs` positions cut into `nb` consecutive blocks of `bs`.

  `blkIdx hn bs k q` is position `q` of block `k` (that is `bs · k + q`), `blockSum hn bs g k` the sum of `g` over block
  `k`, and `partialSum hn bs g k` the sum over the blocks `0 … k`.  In any commutative monoid the partial sums obey the
  recurrence of an accumulator that adds one block per step (`partialSum_zero`, `partialSum_succ`), and the partial
  sum after the last block is the sum over the whole axis (`partialSum_last`): the pairs (block, position in the
  block) enumerate the axis exactly once.  Only associativity and commutativity of the addition are used, so all of
  this holds on the extended reals as it stands, with no finiteness assumption.  This is the arithmetic of a matrix
  product whose contracted axis is visited block by block into an accumulator.
-/
import Mathlib.Algebra.BigOperators.Fin
import Mathlib.Algebra.BigOperators.Intervals
import Mathlib.Logic.Equiv.Fin.Basic

namespace BlockedSum

/-- Position `q` of block `k` on an axis of `n` positions cut into blocks of `bs` (reduced modulo `n` so that it is a
    position for every `k`; for a block that exists nothing is reduced: `blkIdx_val`). -/
def blkIdx {n : ℕ} (hn : 0 < n) (bs : ℕ) (k : ℕ) (q : Fin bs) : Fin n := ⟨(bs * k + q.val) % n, Nat.mod_lt _ hn⟩

theorem blkIdx_val {n nb bs : ℕ} (hn : 0 < n) (h : nb * bs = n) {k : ℕ} (hk : k < nb) (q : Fin bs) :
    (blkIdx hn bs k q).val = bs * k + q.val := by
  show (bs * k + q.val) % n = _
  apply Nat.mod_eq_of_lt
  have hq := q.isLt
  calc bs * k + q.val < bs * k + bs := by omega
    _ = bs * (k + 1) := (Nat.mul_succ bs k).symm
    _ ≤ bs * nb := Nat.mul_le_mul_left bs hk
    _ = n := by rw [Nat.mul_comm]; exact h

/-- The pairs (block, position in the block) are the positions of the axis. -/
def blkEquiv {n nb bs : ℕ} (h : nb * bs = n) : Fin nb × Fin bs ≃ Fin n := finProdFinEquiv.trans (finCongr h)

theorem blkEquiv_apply {n nb bs : ℕ} (hn : 0 < n) (h : nb * bs = n) (k : Fin nb) (q : Fin bs) :
    blkEquiv h (k, q) = blkIdx hn bs k.val q := by
  apply Fin.ext
  rw [blkIdx_val hn h k.isLt]
  show q.val + bs * k.val = _
  omega

variable {M : Type*} [AddCommMonoid M] {n : ℕ}

/-- The sum of `g` over block `k`. -/
def blockSum (hn : 0 < n) (bs : ℕ) (g : Fin n → M) (k : ℕ) : M := ∑ q : Fin bs, g (blkIdx hn bs k q)

/-- The sum of `g` over the blocks `0 … k`. -/
def partialSum (hn : 0 < n) (bs : ℕ) (g : Fin n → M) (k : ℕ) : M := ∑ k' ∈ Finset.range (k + 1), blockSum hn bs g k'

theorem partialSum_zero (hn : 0 < n) (bs : ℕ) (g : Fin n → M) : partialSum hn bs g 0 = blockSum hn bs g 0 := by
  unfold partialSum
  rw [Finset.sum_range_one]

theorem partialSum_succ (hn : 0 < n) (bs : ℕ) (g : Fin n → M) (k : ℕ) :
    partialSum hn bs g (k + 1) = partialSum hn bs g k + blockSum hn bs g (k + 1) := by
  unfold partialSum
  rw [Finset.sum_range_succ]

/-- All the blocks together are the whole axis. -/
theorem partialSum_last {nb bs : ℕ} (hn : 0 < n) (h : nb * bs = n) (g : Fin n → M) {k : ℕ} (hk : k + 1 = nb) :
    partialSum hn bs g k = ∑ i : Fin n, g i := by
  unfold partialSum
  rw [hk]
  calc ∑ k' ∈ Finset.range nb, blockSum hn bs g k'
      = ∑ k' : Fin nb, blockSum hn bs g k'.val := (Fin.sum_univ_eq_sum_range (fun k' => blockSum hn bs g k') nb).symm
    _ = ∑ k' : Fin nb, ∑ q : Fin bs, g (blkEquiv h (k', q)) := by simp only [blockSum, blkEquiv_apply hn h]
    _ = ∑ p : Fin nb × Fin bs, g (blkEquiv h p) := (Fintype.sum_prod_type (fun p : Fin nb × Fin bs => g (blkEquiv h p))).symm
    _ = ∑ i : Fin n, g i := (blkEquiv h).sum_comp g

end BlockedSum
-- ==== Proof.KernelIdealP.Val1c.lean ====
/- Region 1 at the extended reals. With `pre = agg + xw * dinv2 + bias` (the column `dinv2` copied along the lanes, the
   row `bias` down the rows) of the arrays as the region finds them: the block result array ends holding `pre`; the sum
   accumulator holds after point `n`, at each lane, the sum of `pre` over the rows of the blocks `0 … n` (by induction on
   the point: the first point starts from the zero row, every later one adds its block's rows), the sum of squares
   likewise; at the last point the two results are stored from the accumulators, so they end holding the sums over all
   50000 rows. -/
import proofs.«106382_j48249662603742_1_alg».proof.Proof.KernelIdealP.Val1a
import proofs.«106382_j48249662603742_1_alg».proof.Proof.KernelIdealP.Val1b
import proofs.«106382_j48249662603742_1_alg».proof.Proof.LibBlockedSum
import Idealize.ShloMosaic.Lib.Pipeline.Value
import Idealize.ShloMosaic.Lib.ValueLayout
import Idealize.ShloMosaic.Lib.ValueIdx
import Idealize.ShloMosaic.PureOps.Ideal.Laws
import Idealize.ShloMosaic.Lib.Tactic

set_option maxRecDepth 16384

noncomputable section

namespace Cert.KernelIdeal.GenP

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when the region is entered, at the extended reals
variable (V : (c : Dev nD) → (b : Ref sig .tc) → Buf (Elt Ideal) ((c : Thread nD τ).loc b))

theorem pos50000 : 0 < 50000 := by decide
theorem blocks_eq : 10 * 5000 = 50000 := by decide

/-- `a + x * d + b`, the column `d` read at the row, the row `b` at the lane. -/
abbrev P1 (a x : FVec Ideal S50000x128 .f32) (d : FVec Ideal S50000x1 .f32) (b : FVec Ideal S1x128 .f32) : FVec Ideal S50000x128 .f32 :=
  fun i => a i + x i * d (ix2 (i 0) (0 : Fin 1)) + b (ix2 (0 : Fin 1) (i 1))
theorem P1_apply (a x : FVec Ideal S50000x128 .f32) (d : FVec Ideal S50000x1 .f32) (b : FVec Ideal S1x128 .f32) (i : S50000x128.Idx) :
    P1 a x d b i = a i + x i * d (ix2 (i 0) (0 : Fin 1)) + b (ix2 (0 : Fin 1) (i 1)) := rfl

/-- The sum of each lane over the 50000 rows, and of the squares. -/
abbrev S1 (p : FVec Ideal S50000x128 .f32) : FVec Ideal S1x128 .f32 := fun j => ∑ r : Fin 50000, p (ix2 r (j 1))
abbrev Q1 (p : FVec Ideal S50000x128 .f32) : FVec Ideal S1x128 .f32 := fun j => ∑ r : Fin 50000, p (ix2 r (j 1)) * p (ix2 r (j 1))
theorem S1_apply (p : FVec Ideal S50000x128 .f32) (j : S1x128.Idx) : S1 p j = ∑ r : Fin 50000, p (ix2 r (j 1)) := rfl
theorem Q1_apply (p : FVec Ideal S50000x128 .f32) (j : S1x128.Idx) : Q1 p j = ∑ r : Fin 50000, p (ix2 r (j 1)) * p (ix2 r (j 1)) := rfl

/-- Both depend on the lane only. -/
theorem S1_congr (p : FVec Ideal S50000x128 .f32) (a b : S1x128.Idx) (h : (a 1).val = (b 1).val) : S1 p a = S1 p b := by
  have e : a 1 = b 1 := Fin.ext h
  show ∑ r : Fin 50000, p (ix2 r (a 1)) = ∑ r : Fin 50000, p (ix2 r (b 1))
  rw [e]
theorem Q1_congr (p : FVec Ideal S50000x128 .f32) (a b : S1x128.Idx) (h : (a 1).val = (b 1).val) : Q1 p a = Q1 p b := by
  have e : a 1 = b 1 := Fin.ext h
  show ∑ r : Fin 50000, p (ix2 r (a 1)) * p (ix2 r (a 1)) = ∑ r : Fin 50000, p (ix2 r (b 1)) * p (ix2 r (b 1))
  rw [e]

/-- `pre` of the arrays as the region finds them. -/
abbrev pre1 (c : Dev nD) : FVec Ideal S50000x128 .f32 := P1 (V c main_v39) (V c main_v4) (V c main_v41) (V c main_v42)

/-- The printed index maps, decided over the grid: a row-blocked window's row block is the point's, every other
    block index is zero. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- Every row block is some point's. -/
theorem idx_onto1 : ∀ q0 : Fin 10, ∃ t : Fin cfg1.N, win1_4.index t = ![q0.val, 0] :=
  (by decide +kernel : ∀ q0 : Fin 10, ∃ t : Fin grid1.N, win1_4.index t = ![q0.val, 0])

/-! ## The input blocks read where the array's index says: block `t` holds rows `5000 t … 5000 t + 4999` -/

theorem iblk1_0_apply (c : Dev nD) (t : Fin cfg1.N) (y : S5000x128.Idx) (i : S50000x128.Idx)
    (h0 : (i 0).val = 5000 * t.val + (y 0).val) (h1 : (i 1).val = (y 1).val) :
    (iblk1 V c 0 t : FVec Ideal S5000x128 .f32) y = (V c main_v39 : FVec Ideal S50000x128 .f32) i := by
  obtain ⟨e00, e01, e10, e11, e20, e21, e30, e31, e40, e41, e50, e51, e60, e61⟩ := idx_facts1 t
  unfold iblk1
  rw [View.read_apply]
  show (V c main_v39 : FVec Ideal S50000x128 .f32) _ = _
  congr 1
  funext a
  apply Fin.ext
  match a with
  | ⟨0, _⟩ => show win1_0.index t (0 : Fin 2) * 5000 + 1 * (y 0).val = (i 0).val; omega
  | ⟨1, _⟩ => show win1_0.index t (1 : Fin 2) * 128 + 1 * (y 1).val = (i 1).val; omega

theorem iblk1_1_apply (c : Dev nD) (t : Fin cfg1.N) (y : S5000x128.Idx) (i : S50000x128.Idx)
    (h0 : (i 0).val = 5000 * t.val + (y 0).val) (h1 : (i 1).val = (y 1).val) :
    (iblk1 V c 1 t : FVec Ideal S5000x128 .f32) y = (V c main_v4 : FVec Ideal S50000x128 .f32) i := by
  obtain ⟨e00, e01, e10, e11, e20, e21, e30, e31, e40, e41, e50, e51, e60, e61⟩ := idx_facts1 t
  unfold iblk1
  rw [View.read_apply]
  show (V c main_v4 : FVec Ideal S50000x128 .f32) _ = _
  congr 1
  funext a
  apply Fin.ext
  match a with
  | ⟨0, _⟩ => show win1_1.index t (0 : Fin 2) * 5000 + 1 * (y 0).val = (i 0).val; omega
  | ⟨1, _⟩ => show win1_1.index t (1 : Fin 2) * 128 + 1 * (y 1).val = (i 1).val; omega

theorem iblk1_2_apply (c : Dev nD) (t : Fin cfg1.N) (y : S5000x1.Idx) (i : S50000x1.Idx)
    (h0 : (i 0).val = 5000 * t.val + (y 0).val) :
    (iblk1 V c 2 t : FVec Ideal S5000x1 .f32) y = (V c main_v41 : FVec Ideal S50000x1 .f32) i := by
  obtain ⟨e00, e01, e10, e11, e20, e21, e30, e31, e40, e41, e50, e51, e60, e61⟩ := idx_facts1 t
  have hy : (y 1).val < 1 := (y 1).isLt
  have hi : (i 1).val < 1 := (i 1).isLt
  unfold iblk1
  rw [View.read_apply]
  show (V c main_v41 : FVec Ideal S50000x1 .f32) _ = _
  congr 1
  funext a
  apply Fin.ext
  match a with
  | ⟨0, _⟩ => show win1_2.index t (0 : Fin 2) * 5000 + 1 * (y 0).val = (i 0).val; omega
  | ⟨1, _⟩ => show win1_2.index t (1 : Fin 2) * 1 + 1 * (y 1).val = (i 1).val; omega

theorem iblk1_3_apply (c : Dev nD) (t : Fin cfg1.N) (y : S1x128.Idx) (i : S1x128.Idx)
    (h1 : (i 1).val = (y 1).val) :
    (iblk1 V c 3 t : FVec Ideal S1x128 .f32) y = (V c main_v42 : FVec Ideal S1x128 .f32) i := by
  obtain ⟨e00, e01, e10, e11, e20, e21, e30, e31, e40, e41, e50, e51, e60, e61⟩ := idx_facts1 t
  have hy : (y 0).val < 1 := (y 0).isLt
  have hi : (i 0).val < 1 := (i 0).isLt
  unfold iblk1
  rw [View.read_apply]
  show (V c main_v42 : FVec Ideal S1x128 .f32) _ = _
  congr 1
  funext a
  apply Fin.ext
  match a with
  | ⟨0, _⟩ => show win1_3.index t (0 : Fin 2) * 1 + 1 * (y 0).val = (i 0).val; omega
  | ⟨1, _⟩ => show win1_3.index t (1 : Fin 2) * 128 + 1 * (y 1).val = (i 1).val; omega

/-- The block result of point `t` at `y` is `pre` at the array index `i` that `y` is in block `t`. -/
theorem blk_pre1 (c : Dev nD) (t : Fin cfg1.N) (y : S5000x128.Idx) (i : S50000x128.Idx)
    (h0 : (i 0).val = 5000 * t.val + (y 0).val) (h1 : (i 1).val = (y 1).val) :
    k1_pay3 (iblk1 V c 0 t) (iblk1 V c 1 t) (iblk1 V c 2 t) (iblk1 V c 3 t) y = pre1 V c i := by
  obtain ⟨p, q, rfl⟩ : ∃ (p : Fin 5000) (q : Fin 128), y = ix2 p q := ⟨y 0, y 1, eq_ix2 y⟩
  refine (pay3_apply _ _ _ _ p q).trans ?_
  rw [iblk1_0_apply V c t (ix2 p q) i h0 h1, iblk1_1_apply V c t (ix2 p q) i h0 h1,
    iblk1_2_apply V c t (ix2 p (0 : Fin 1)) (ix2 (i 0) (0 : Fin 1)) h0,
    iblk1_3_apply V c t (ix2 (0 : Fin 1) q) (ix2 (0 : Fin 1) (i 1)) h1]

/-! ## The block result array -/

/-- Whatever the kind of point, the block result is the pointwise payload of the point's input blocks. -/
theorem out4_eq (c : Dev nD) (t : Fin cfg1.N) :
    (outsAt1 V c t.val t.isLt).1 = k1_pay3 (iblk1 V c 0 t) (iblk1 V c 1 t) (iblk1 V c 2 t) (iblk1 V c 3 t) := by
  by_cases hz : t.val = 0
  · rw [outsAt1_A V c t hz, caseA_blk]
  · by_cases h1 : t.val % 10 = 9
    · rw [outsAt1_C V c t hz h1, caseC_blk]
    · rw [outsAt1_B V c t hz h1, caseB_blk]

/-- What point `t` writes back of the block result is block `t` of `pre`. -/
theorem flushed1_4_eq (c : Dev nD) (t : Fin cfg1.N) :
    (dat1 V c).flushed 4 t = ((cfg1.win 4).blk t).view.read (Elt Ideal) (pre1 V c) := by
  obtain ⟨e00, e01, e10, e11, e20, e21, e30, e31, e40, e41, e50, e51, e60, e61⟩ := idx_facts1 t
  show (cfg1.win 4).cut (grid1.coords t) ((dat1 V c).after 4 t) = _
  rw [after1_4, out4_eq]
  funext y
  rw [View.read_apply]
  refine (blk_pre1 V c t y (((cfg1.win 4).blk t).view.emb y) ?_ ?_).trans ?_
  · show win1_4.index t (0 : Fin 2) * 5000 + 1 * (y 0).val = 5000 * t.val + (y 0).val; omega
  · show win1_4.index t (1 : Fin 2) * 128 + 1 * (y 1).val = (y 1).val; omega
  · rfl

theorem mem_blk1_4 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v43_0).slice (win1_4.rect t)).set ↔ _
  rw [View.set_slice_whole, Rect.mem_set_unit]
  exact Iff.rfl

/-- The ten row blocks cover the array. -/
theorem cover1_4 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := idx_onto1 ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk1_4]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The block result array after the region is `pre`. -/
theorem final1_4 (c : Dev nD) : (dat1 (F := Ideal) V c).arrAt 4 cfg1.N
    = P1 (V c main_v39) (V c main_v4) (V c main_v41) (V c main_v42) :=
  (dat1 V c).arrAt_eq_of_cover 4 (pre1 V c) (fun t _ => flushed1_4_eq V c t) cover1_4

/-! ## The two accumulators, by induction on the point -/

/-- One more point: the sum accumulator's new value at lane `j` is the partial sum through this point's block. -/
theorem acc0_step (c : Dev nD) (j : Fin 128) (n : ℕ) (hn : n < cfg1.N) (s : FVec Ideal S1x128 .f32) :
    k1_pay4 (iblk1 V c 0 ⟨n, hn⟩) (iblk1 V c 1 ⟨n, hn⟩) (iblk1 V c 2 ⟨n, hn⟩) (iblk1 V c 3 ⟨n, hn⟩) s (ix2 (0 : Fin 1) j)
      = s (ix2 (0 : Fin 1) j) + BlockedSum.blockSum pos50000 5000 (fun r => pre1 V c (ix2 r j)) n := by
  have hlt : n < 10 := by have := N1_eq; omega
  refine (pay4_apply _ _ _ _ _ j).trans ?_
  congr 1
  unfold BlockedSum.blockSum
  have hb := fun q : Fin 5000 => blk_pre1 V c ⟨n, hn⟩ (ix2 q j) (ix2 (BlockedSum.blkIdx pos50000 5000 n q) j)
    (BlockedSum.blkIdx_val pos50000 blocks_eq hlt q) rfl
  exact Finset.sum_congr rfl fun q _ => by rw [hb q]

/-- After point `n` the sum accumulator holds, at lane `j`, the sum over the rows of the blocks `0 … n`. -/
theorem acc0_eq (c : Dev nD) (j : Fin 128) : ∀ (n : ℕ) (hn : n < cfg1.N),
    (outsAt1 V c n hn).2.2.2.1 (ix2 (0 : Fin 1) j)
      = BlockedSum.partialSum pos50000 5000 (fun r => pre1 V c (ix2 r j)) n := by
  intro n
  induction n with
  | zero =>
    intro hn
    rw [show outsAt1 V c 0 hn = caseA V c ⟨0, hn⟩ (first_pt _ rfl) (first_not_last _ rfl) from rfl, caseA_s0,
      acc0_step V c j 0 hn, pay1_apply, zero_add, BlockedSum.partialSum_zero]
  | succ n ih =>
    intro hn
    by_cases h1 : (n + 1) % 10 = 9
    · have e : outsAt1 V c (n + 1) hn = caseC V c ⟨n + 1, hn⟩ (later_not_first _ (Nat.succ_ne_zero n)) ((hcond1_1 ⟨n + 1, hn⟩).mpr h1)
          (outsAt1 V c n (Nat.lt_of_succ_lt hn)).2.2.2.1 (outsAt1 V c n (Nat.lt_of_succ_lt hn)).2.2.2.2 := (dif_pos h1).trans rfl
      rw [e, caseC_s0, acc0_step V c j (n + 1) hn, ih, BlockedSum.partialSum_succ]
    · have e : outsAt1 V c (n + 1) hn = caseB V c ⟨n + 1, hn⟩ (later_not_first _ (Nat.succ_ne_zero n)) (fun h => h1 ((hcond1_1 ⟨n + 1, hn⟩).mp h))
          (outsAt1 V c n (Nat.lt_of_succ_lt hn)).2.2.2.1 (outsAt1 V c n (Nat.lt_of_succ_lt hn)).2.2.2.2 := (dif_neg h1).trans rfl
      rw [e, caseB_s0, acc0_step V c j (n + 1) hn, ih, BlockedSum.partialSum_succ]

/-- One more point: the sum-of-squares accumulator's new value at lane `j` is the partial sum through this point's block. -/
theorem acc1_step (c : Dev nD) (j : Fin 128) (n : ℕ) (hn : n < cfg1.N) (s : FVec Ideal S1x128 .f32) :
    k1_pay5 (iblk1 V c 0 ⟨n, hn⟩) (iblk1 V c 1 ⟨n, hn⟩) (iblk1 V c 2 ⟨n, hn⟩) (iblk1 V c 3 ⟨n, hn⟩) s (ix2 (0 : Fin 1) j)
      = s (ix2 (0 : Fin 1) j) + BlockedSum.blockSum pos50000 5000 (fun r => pre1 V c (ix2 r j) * pre1 V c (ix2 r j)) n := by
  have hlt : n < 10 := by have := N1_eq; omega
  refine (pay5_apply _ _ _ _ _ j).trans ?_
  congr 1
  unfold BlockedSum.blockSum
  have hb := fun q : Fin 5000 => blk_pre1 V c ⟨n, hn⟩ (ix2 q j) (ix2 (BlockedSum.blkIdx pos50000 5000 n q) j)
    (BlockedSum.blkIdx_val pos50000 blocks_eq hlt q) rfl
  exact Finset.sum_congr rfl fun q _ => by rw [hb q]

/-- After point `n` the sum-of-squares accumulator holds, at lane `j`, the sum over the rows of the blocks `0 … n`. -/
theorem acc1_eq (c : Dev nD) (j : Fin 128) : ∀ (n : ℕ) (hn : n < cfg1.N),
    (outsAt1 V c n hn).2.2.2.2 (ix2 (0 : Fin 1) j)
      = BlockedSum.partialSum pos50000 5000 (fun r => pre1 V c (ix2 r j) * pre1 V c (ix2 r j)) n := by
  intro n
  induction n with
  | zero =>
    intro hn
    rw [show outsAt1 V c 0 hn = caseA V c ⟨0, hn⟩ (first_pt _ rfl) (first_not_last _ rfl) from rfl, caseA_s1,
      acc1_step V c j 0 hn, pay2z_apply, zero_add, BlockedSum.partialSum_zero]
  | succ n ih =>
    intro hn
    by_cases h1 : (n + 1) % 10 = 9
    · have e : outsAt1 V c (n + 1) hn = caseC V c ⟨n + 1, hn⟩ (later_not_first _ (Nat.succ_ne_zero n)) ((hcond1_1 ⟨n + 1, hn⟩).mpr h1)
          (outsAt1 V c n (Nat.lt_of_succ_lt hn)).2.2.2.1 (outsAt1 V c n (Nat.lt_of_succ_lt hn)).2.2.2.2 := (dif_pos h1).trans rfl
      rw [e, caseC_s1, acc1_step V c j (n + 1) hn, ih, BlockedSum.partialSum_succ]
    · have e : outsAt1 V c (n + 1) hn = caseB V c ⟨n + 1, hn⟩ (later_not_first _ (Nat.succ_ne_zero n)) (fun h => h1 ((hcond1_1 ⟨n + 1, hn⟩).mp h))
          (outsAt1 V c n (Nat.lt_of_succ_lt hn)).2.2.2.1 (outsAt1 V c n (Nat.lt_of_succ_lt hn)).2.2.2.2 := (dif_neg h1).trans rfl
      rw [e, caseB_s1, acc1_step V c j (n + 1) hn, ih, BlockedSum.partialSum_succ]

/-! ## The two results: stored at the last point, written back there -/

/-- At the last point the sum result is stored from the accumulator's new value. -/
theorem out5_eq (c : Dev nD) (t : Fin cfg1.N) (h9 : t.val % 10 = 9) (y : S1x128.Idx) :
    (outsAt1 V c t.val t.isLt).2.1 y = S1 (pre1 V c) y := by
  have hN := N1_eq
  have hz : t.val ≠ 0 := by omega
  have h9' : t.val = 9 := by have := t.isLt; omega
  obtain ⟨u, j, rfl⟩ : ∃ (u : Fin 1) (j : Fin 128), y = ix2 u j := ⟨y 0, y 1, eq_ix2 y⟩
  obtain rfl : u = 0 := Subsingleton.elim _ _
  have e : (outsAt1 V c t.val t.isLt).2.1 = (outsAt1 V c t.val t.isLt).2.2.2.1 := by
    rw [outsAt1_C V c t hz h9]
    exact (caseC_out5 V c t _ _ _ _).trans (caseC_s0 V c t _ _ _ _).symm
  rw [e, acc0_eq V c j t.val t.isLt, h9']
  exact BlockedSum.partialSum_last pos50000 blocks_eq _ (by rfl : 9 + 1 = 10)

/-- A row read through the window's block, at an index: the row at the embedded index. -/
theorem read_row1_5 (t : Fin cfg1.N) (X : FVec Ideal S1x128 .f32) (y : S1x128.Idx) :
    ((cfg1.win 5).blk t).view.read (Elt Ideal) X y = X (((cfg1.win 5).blk t).view.emb y) := rfl

/-- What the last point writes back is the whole row of sums (its one block is the whole array). -/
theorem flushed1_5_eq (c : Dev nD) (t : Fin cfg1.N) (hf : (cfg1.win 5).flush t = true) :
    (dat1 V c).flushed 5 t = ((cfg1.win 5).blk t).view.read (Elt Ideal) (S1 (pre1 V c)) := by
  have h9 : t.val % 10 = 9 := (flush1_5 t).mp hf
  obtain ⟨e00, e01, e10, e11, e20, e21, e30, e31, e40, e41, e50, e51, e60, e61⟩ := idx_facts1 t
  show (cfg1.win 5).cut (grid1.coords t) ((dat1 V c).after 5 t) = _
  rw [after1_5]
  funext y
  refine (out5_eq V c t h9 y).trans (Eq.trans ?_ (read_row1_5 t (S1 (pre1 V c)) y).symm)
  exact S1_congr (pre1 V c) y (((cfg1.win 5).blk t).view.emb y)
    (by show (y 1).val = win1_5.index t (1 : Fin 2) * 128 + 1 * (y 1).val; omega)

/-- The last point's block covers the one-row array. -/
theorem cover1_5 (i : S1x128.Idx) :
    ∃ t : Fin cfg1.N, (cfg1.win 5).flush t = true ∧ i ∈ ((cfg1.win 5).blk t).view.set := by
  obtain ⟨e00, e01, e10, e11, e20, e21, e30, e31, e40, e41, e50, e51, e60, e61⟩ := idx_facts1 t1_9
  refine ⟨t1_9, (flush1_5 t1_9).mpr rfl, ?_⟩
  show i ∈ ((View.whole main_v43_1).slice (win1_5.rect t1_9)).set
  rw [View.set_slice_whole, Rect.mem_set_unit]
  intro a
  have h0 : (i 0).val < 1 := (i 0).isLt
  have h1 : (i 1).val < 128 := (i 1).isLt
  match a with
  | ⟨0, _⟩ => show win1_5.index t1_9 (0 : Fin 2) * 1 ≤ (i 0).val ∧ (i 0).val < win1_5.index t1_9 (0 : Fin 2) * 1 + 1; omega
  | ⟨1, _⟩ => show win1_5.index t1_9 (1 : Fin 2) * 128 ≤ (i 1).val ∧ (i 1).val < win1_5.index t1_9 (1 : Fin 2) * 128 + 128; omega

/-- The sum array after the region. -/
theorem final1_5 (c : Dev nD) : (dat1 (F := Ideal) V c).arrAt 5 cfg1.N
    = S1 (P1 (V c main_v39) (V c main_v4) (V c main_v41) (V c main_v42)) :=
  (dat1 V c).arrAt_eq_of_cover 5 (S1 (pre1 V c)) (fun t hf => flushed1_5_eq V c t hf) cover1_5

/-- At the last point the sum-of-squares result is stored from the accumulator's new value. -/
theorem out6_eq (c : Dev nD) (t : Fin cfg1.N) (h9 : t.val % 10 = 9) (y : S1x128.Idx) :
    (outsAt1 V c t.val t.isLt).2.2.1 y = Q1 (pre1 V c) y := by
  have hN := N1_eq
  have hz : t.val ≠ 0 := by omega
  have h9' : t.val = 9 := by have := t.isLt; omega
  obtain ⟨u, j, rfl⟩ : ∃ (u : Fin 1) (j : Fin 128), y = ix2 u j := ⟨y 0, y 1, eq_ix2 y⟩
  obtain rfl : u = 0 := Subsingleton.elim _ _
  have e : (outsAt1 V c t.val t.isLt).2.2.1 = (outsAt1 V c t.val t.isLt).2.2.2.2 := by
    rw [outsAt1_C V c t hz h9]
    exact (caseC_out6 V c t _ _ _ _).trans (caseC_s1 V c t _ _ _ _).symm
  rw [e, acc1_eq V c j t.val t.isLt, h9']
  exact BlockedSum.partialSum_last pos50000 blocks_eq _ (by rfl : 9 + 1 = 10)

/-- A row read through the window's block, at an index: the row at the embedded index. -/
theorem read_row1_6 (t : Fin cfg1.N) (X : FVec Ideal S1x128 .f32) (y : S1x128.Idx) :
    ((cfg1.win 6).blk t).view.read (Elt Ideal) X y = X (((cfg1.win 6).blk t).view.emb y) := rfl

/-- What the last point writes back is the whole row of sums (its one block is the whole array). -/
theorem flushed1_6_eq (c : Dev nD) (t : Fin cfg1.N) (hf : (cfg1.win 6).flush t = true) :
    (dat1 V c).flushed 6 t = ((cfg1.win 6).blk t).view.read (Elt Ideal) (Q1 (pre1 V c)) := by
  have h9 : t.val % 10 = 9 := (flush1_6 t).mp hf
  obtain ⟨e00, e01, e10, e11, e20, e21, e30, e31, e40, e41, e50, e51, e60, e61⟩ := idx_facts1 t
  show (cfg1.win 6).cut (grid1.coords t) ((dat1 V c).after 6 t) = _
  rw [after1_6]
  funext y
  refine (out6_eq V c t h9 y).trans (Eq.trans ?_ (read_row1_6 t (Q1 (pre1 V c)) y).symm)
  exact Q1_congr (pre1 V c) y (((cfg1.win 6).blk t).view.emb y)
    (by show (y 1).val = win1_6.index t (1 : Fin 2) * 128 + 1 * (y 1).val; omega)

/-- The last point's block covers the one-row array. -/
theorem cover1_6 (i : S1x128.Idx) :
    ∃ t : Fin cfg1.N, (cfg1.win 6).flush t = true ∧ i ∈ ((cfg1.win 6).blk t).view.set := by
  obtain ⟨e00, e01, e10, e11, e20, e21, e30, e31, e40, e41, e50, e51, e60, e61⟩ := idx_facts1 t1_9
  refine ⟨t1_9, (flush1_6 t1_9).mpr rfl, ?_⟩
  show i ∈ ((View.whole main_v43_2).slice (win1_6.rect t1_9)).set
  rw [View.set_slice_whole, Rect.mem_set_unit]
  intro a
  have h0 : (i 0).val < 1 := (i 0).isLt
  have h1 : (i 1).val < 128 := (i 1).isLt
  match a with
  | ⟨0, _⟩ => show win1_6.index t1_9 (0 : Fin 2) * 1 ≤ (i 0).val ∧ (i 0).val < win1_6.index t1_9 (0 : Fin 2) * 1 + 1; omega
  | ⟨1, _⟩ => show win1_6.index t1_9 (1 : Fin 2) * 128 ≤ (i 1).val ∧ (i 1).val < win1_6.index t1_9 (1 : Fin 2) * 128 + 128; omega

/-- The sum-of-squares array after the region. -/
theorem final1_6 (c : Dev nD) : (dat1 (F := Ideal) V c).arrAt 6 cfg1.N
    = Q1 (P1 (V c main_v39) (V c main_v4) (V c main_v41) (V c main_v42)) :=
  (dat1 V c).arrAt_eq_of_cover 6 (Q1 (pre1 V c)) (fun t hf => flushed1_6_eq V c t hf) cover1_6

end Cert.KernelIdeal.GenP

end
-- ==== Proof.KernelIdealP.Val2.lean ====
/- Region 2 at the extended reals: the array the normalise kernel's write-backs leave is, index by index,
   max((pre - mean) * rsqrt(var + eps) * gamma + beta, 0) of the arrays as the region finds them, the four rows
   broadcast along the long axis. Each grid point writes back block `t` of it; the ten blocks cover the array. -/
import proofs.«106382_j48249662603742_1_alg».proof.Proof.KernelIdealP.R2
import Idealize.ShloMosaic.Lib.Pipeline.Value
import Idealize.ShloMosaic.Lib.ValueLayout
import Idealize.ShloMosaic.Lib.ValueIdx
import Idealize.ShloMosaic.PureOps.Ideal.Laws
import Idealize.ShloMosaic.Lib.Tactic

set_option maxRecDepth 16384

noncomputable section

namespace Cert.KernelIdeal.GenP

open Cert.KernelIdeal Cert.KernelIdeal.Gen
open Idealize.ShloMosaic Idealize.ShloMosaic.TcCoe Idealize.ShloMosaic.ValueIdx Idealize.SL.Sem
open Idealize.ShloMosaic.Pipeline (Dat)

-- the TensorCore's buffer contents when the region is entered, at the extended reals
variable (V : (c : Dev nD) → (b : Ref sig .tc) → Buf (Elt Ideal) ((c : Thread nD τ).loc b))

theorem zero_off2 : (![0, 0] : Fin 2 → Nat) = fun _ => 0 := funext fun a => by fin_cases a <;> rfl

/-- Row-wise normalisation, scale, shift and clamp at zero of a `50000 × 128` array by four rows of 128. -/
abbrev G2 (pre : FVec Ideal S50000x128 .f32) (mean var gamma beta : FVec Ideal S1x128 .f32) : FVec Ideal S50000x128 .f32 :=
  fun i => max ((((pre i - mean (ix2 (0 : Fin 1) (i 1))) * Ideal.rsqrt (var (ix2 (0 : Fin 1) (i 1)) + Ideal.ofBits .f32 0x3727C5AC#32))
      * gamma (ix2 (0 : Fin 1) (i 1))) + beta (ix2 (0 : Fin 1) (i 1))) (Ideal.ofBits .f32 0x00000000#32)

/-- The body's payload at an index: every operation is pointwise, the rows read at the index's column. -/
theorem pay2_apply (v0 : FVec Ideal S1x128 .f32) (v5 : FVec Ideal S5000x128 .f32) (v7 v13 v17 : FVec Ideal S1x128 .f32) (j : S5000x128.Idx) :
    k2_pay1 v0 v5 v7 v13 v17 j
      = max ((((v5 j - v7 (ix2 (0 : Fin 1) (j 1))) * Ideal.rsqrt (v0 (ix2 (0 : Fin 1) (j 1)) + Ideal.ofBits .f32 0x3727C5AC#32))
          * v13 (ix2 (0 : Fin 1) (j 1))) + v17 (ix2 (0 : Fin 1) (j 1))) (Ideal.ofBits .f32 0x00000000#32) := by
  obtain ⟨p, q, rfl⟩ : ∃ (p : Fin 5000) (q : Fin 128), j = ix2 p q := ⟨j 0, j 1, eq_ix2 j⟩
  unfold k2_pay1
  simp only [shapeCast_self]
  rw [maximumf_apply, addf_apply, mulf_apply, mulf_apply, subf_apply, broadcast_apply,
    broadcastTo_1b_ab_apply (a := 5000) (b := 128), broadcastTo_1b_ab_apply (a := 5000) (b := 128),
    broadcastTo_1b_ab_apply (a := 5000) (b := 128), broadcastTo_1b_ab_apply (a := 5000) (b := 128)]
  rfl

/-- The printed index maps, decided over the grid: the row block of the input and of the output is the point's,
    every other block index is zero. -/
theorem idx_facts2 : ∀ t : Fin cfg2.N, win2_0.index t (0 : Fin 2) = win2_5.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 :=
  (by decide +kernel : ∀ t : Fin grid2.N, _)

/-- Every row block is some point's. -/
theorem idx_onto2 : ∀ q0 : Fin 10, ∃ t : Fin cfg2.N, win2_5.index t = ![q0.val, 0] :=
  (by decide +kernel : ∀ q0 : Fin 10, ∃ t : Fin grid2.N, win2_5.index t = ![q0.val, 0])

/-- The input rows' block at point `t` is the array at the output block's indices. -/
theorem iblk2_0_apply (c : Dev nD) (t : Fin cfg2.N) (j : S5000x128.Idx) :
    (iblk2 V c 0 t : FVec Ideal S5000x128 .f32) j
      = (V c main_v43_0 : FVec Ideal S50000x128 .f32) (((cfg2.win 5).blk t).view.emb j) := by
  unfold iblk2
  rw [View.read_apply]
  show (V c main_v43_0 : FVec Ideal S50000x128 .f32) _ = _
  congr 1

/-- The mean's block at any point is the whole row. -/
theorem iblk2_1_apply (c : Dev nD) (t : Fin cfg2.N) (j : S5000x128.Idx) :
    (iblk2 V c 1 t : FVec Ideal S1x128 .f32) (ix2 (0 : Fin 1) (j 1))
      = (V c main_v45 : FVec Ideal S1x128 .f32) (ix2 (0 : Fin 1) ((((cfg2.win 5).blk t).view.emb j) 1)) := by
  obtain ⟨e00, e01, e10, e11, e20, e21, e30, e31, e40, e41, e51⟩ := idx_facts2 t
  unfold iblk2
  rw [View.read_apply]
  show (V c main_v45 : FVec Ideal S1x128 .f32) _ = _
  congr 1
  funext a
  apply Fin.ext
  match a with
  | ⟨0, _⟩ => show win2_1.index t (0 : Fin 2) * 1 + 1 * 0 = 0; omega
  | ⟨1, _⟩ => show win2_1.index t (1 : Fin 2) * 128 + 1 * (j 1).val = win2_5.index t (1 : Fin 2) * 128 + 1 * (j 1).val; omega

/-- The variance's block at any point is the whole row. -/
theorem iblk2_2_apply (c : Dev nD) (t : Fin cfg2.N) (j : S5000x128.Idx) :
    (iblk2 V c 2 t : FVec Ideal S1x128 .f32) (ix2 (0 : Fin 1) (j 1))
      = (V c main_v49 : FVec Ideal S1x128 .f32) (ix2 (0 : Fin 1) ((((cfg2.win 5).blk t).view.emb j) 1)) := by
  obtain ⟨e00, e01, e10, e11, e20, e21, e30, e31, e40, e41, e51⟩ := idx_facts2 t
  unfold iblk2
  rw [View.read_apply]
  show (V c main_v49 : FVec Ideal S1x128 .f32) _ = _
  congr 1
  funext a
  apply Fin.ext
  match a with
  | ⟨0, _⟩ => show win2_2.index t (0 : Fin 2) * 1 + 1 * 0 = 0; omega
  | ⟨1, _⟩ => show win2_2.index t (1 : Fin 2) * 128 + 1 * (j 1).val = win2_5.index t (1 : Fin 2) * 128 + 1 * (j 1).val; omega

/-- The scale's block at any point is the whole row. -/
theorem iblk2_3_apply (c : Dev nD) (t : Fin cfg2.N) (j : S5000x128.Idx) :
    (iblk2 V c 3 t : FVec Ideal S1x128 .f32) (ix2 (0 : Fin 1) (j 1))
      = (V c main_v50 : FVec Ideal S1x128 .f32) (ix2 (0 : Fin 1) ((((cfg2.win 5).blk t).view.emb j) 1)) := by
  obtain ⟨e00, e01, e10, e11, e20, e21, e30, e31, e40, e41, e51⟩ := idx_facts2 t
  unfold iblk2
  rw [View.read_apply]
  show (V c main_v50 : FVec Ideal S1x128 .f32) _ = _
  congr 1
  funext a
  apply Fin.ext
  match a with
  | ⟨0, _⟩ => show win2_3.index t (0 : Fin 2) * 1 + 1 * 0 = 0; omega
  | ⟨1, _⟩ => show win2_3.index t (1 : Fin 2) * 128 + 1 * (j 1).val = win2_5.index t (1 : Fin 2) * 128 + 1 * (j 1).val; omega

/-- The shift's block at any point is the whole row. -/
theorem iblk2_4_apply (c : Dev nD) (t : Fin cfg2.N) (j : S5000x128.Idx) :
    (iblk2 V c 4 t : FVec Ideal S1x128 .f32) (ix2 (0 : Fin 1) (j 1))
      = (V c main_v51 : FVec Ideal S1x128 .f32) (ix2 (0 : Fin 1) ((((cfg2.win 5).blk t).view.emb j) 1)) := by
  obtain ⟨e00, e01, e10, e11, e20, e21, e30, e31, e40, e41, e51⟩ := idx_facts2 t
  unfold iblk2
  rw [View.read_apply]
  show (V c main_v51 : FVec Ideal S1x128 .f32) _ = _
  congr 1
  funext a
  apply Fin.ext
  match a with
  | ⟨0, _⟩ => show win2_4.index t (0 : Fin 2) * 1 + 1 * 0 = 0; omega
  | ⟨1, _⟩ => show win2_4.index t (1 : Fin 2) * 128 + 1 * (j 1).val = win2_5.index t (1 : Fin 2) * 128 + 1 * (j 1).val; omega

/-- What point `t` writes back is block `t` of the normalised array. -/
theorem flushed2_eq (c : Dev nD) (t : Fin cfg2.N) :
    (dat2 V c).flushed 5 t = ((cfg2.win 5).blk t).view.read (Elt Ideal)
      (G2 (V c main_v43_0) (V c main_v45) (V c main_v49) (V c main_v50) (V c main_v51)) := by
  show (cfg2.win 5).cut (grid2.coords t) ((dat2 V c).after 5 t) = _
  rw [after2_5]
  unfold out2_5
  rw [View.canon_unit_zero zero_off2]
  simp only [View.ld_unit_zero (S := S5000x128) zero_off2, View.ld_unit_zero (S := S1x128) zero_off2]
  funext j
  rw [View.read_apply]
  refine (pay2_apply _ _ _ _ _ j).trans ?_
  rw [iblk2_0_apply V c t j, iblk2_1_apply V c t j, iblk2_2_apply V c t j, iblk2_3_apply V c t j, iblk2_4_apply V c t j]
  rfl

/-- An index of the array is in point `t`'s block iff each coordinate is in the block's range on its axis. -/
theorem mem_blk2 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v52).slice (win2_5.rect t)).set ↔ _
  rw [View.set_slice_whole, Rect.mem_set_unit]
  exact Iff.rfl

/-- The ten row blocks cover the array: row `r` is in the block of point `r / 5000`. -/
theorem cover2 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ := idx_onto2 ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- `G2` at an index, for rewriting. -/
theorem G2_apply (pre : FVec Ideal S50000x128 .f32) (mean var gamma beta : FVec Ideal S1x128 .f32) (i : S50000x128.Idx) :
    G2 pre mean var gamma beta i
      = max ((((pre i - mean (ix2 (0 : Fin 1) (i 1))) * Ideal.rsqrt (var (ix2 (0 : Fin 1) (i 1)) + Ideal.ofBits .f32 0x3727C5AC#32))
          * gamma (ix2 (0 : Fin 1) (i 1))) + beta (ix2 (0 : Fin 1) (i 1))) (Ideal.ofBits .f32 0x00000000#32) := rfl

/-- The array after the region: the normalised, scaled, shifted and clamped rows. -/
theorem final2 (c : Dev nD) : (dat2 (F := Ideal) V c).arrAt 5 cfg2.N
    = G2 (V c main_v43_0) (V c main_v45) (V c main_v49) (V c main_v50) (V c main_v51) :=
  (dat2 V c).arrAt_eq_of_cover 5 (G2 (V c main_v43_0) (V c main_v45) (V c main_v49) (V c main_v50) (V c main_v51)) (fun t _ => flushed2_eq V c t) (cover2)

end Cert.KernelIdeal.GenP

end
-- ==== Proof.KernelIdealP.KVal2.lean ====
/-
  The kernel program's result as the specification's function of the six argument arrays.
  After the accumulating kernel: its block result is  pre = agg + x·w * dinv² + bias , its two [1,128] results the column sums
  and column sums of squares of `pre` over all 50000 rows (ten blocks of 5000 added one after the other: only associativity and
  commutativity of the sum are used). The host then forms mean = S / N and var = Q / N − mean², and the normalising kernel
  writes  max ((pre − mean) * rsqrt (var + ε) * γ + β, 0)  block by block: the specification, entry by entry.
-/
import proofs.«106382_j48249662603742_1_alg».proof.Proof.KernelIdealP.KVal1
import proofs.«106382_j48249662603742_1_alg».proof.Proof.KernelIdealP.Val1c
import proofs.«106382_j48249662603742_1_alg».proof.Proof.KernelIdealP.Val2
import Idealize.ShloMosaic.Lib.ValueLayout

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

/-- A vector `[a]` cast to a column `[a, 1]` reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## After the accumulating kernel -/

theorem W2_arg4' (c : Dev nD) : W3 (F := Ideal) m ρ c (Proc.devRef .tc main_arg4) = (m ((c : Thread nD τ).loc main_arg4)) := by
  show StableHlo.after hostOps1 (W2 m ρ c) (Proc.devRef .tc main_arg4) = _
  after_results_simp
  exact W2_arg4 m ρ c
theorem W4_arg4 (c : Dev nD) : W4 (F := Ideal) m ρ c (Proc.devRef .tc main_arg4) = (m ((c : Thread nD τ).loc main_arg4)) :=
  (W4_of_ne m ρ c main_arg4 (by decide)).trans (W2_arg4' m ρ c)
theorem W2_arg5' (c : Dev nD) : W3 (F := Ideal) m ρ c (Proc.devRef .tc main_arg5) = (m ((c : Thread nD τ).loc main_arg5)) := by
  show StableHlo.after hostOps1 (W2 m ρ c) (Proc.devRef .tc main_arg5) = _
  after_results_simp
  exact W2_arg5 m ρ c
theorem W4_arg5 (c : Dev nD) : W4 (F := Ideal) m ρ c (Proc.devRef .tc main_arg5) = (m ((c : Thread nD τ).loc main_arg5)) :=
  (W4_of_ne m ρ c main_arg5 (by decide)).trans (W2_arg5' m ρ c)

/-- The array the accumulating kernel is entered with, put together: `pre` of the specification. -/
theorem pre1_eq (c : Dev nD) :
    P1 (V3 (F := Ideal) m ρ c main_v39) (V3 (F := Ideal) m ρ c main_v4) (V3 (F := Ideal) m ρ c main_v41) (V3 (F := Ideal) m ρ c main_v42)
      = Cert.Spec.pre (m ((c : Thread nD τ).loc main_arg0)) (m ((c : Thread nD τ).loc main_arg1)) (m ((c : Thread nD τ).loc main_arg2)) (m ((c : Thread nD τ).loc main_arg3)) := by
  rw [V3_v39, V3_v4, V3_v41, V3_v42]
  funext i
  obtain ⟨r, j, rfl⟩ : ∃ (r : Fin 50000) (j : Fin 128), i = ix2 r j := ⟨i 0, i 1, eq_ix2 i⟩
  rw [P1_apply]
  show _ + _ * shapeCast S50000x1 (Cert.Spec.dinv2 _) shapeCasts_S50000_S50000x1 (ix2 r (0 : Fin 1)) + shapeCast S1x128 _ shapeCasts_S128_S1x128 (ix2 (0 : Fin 1) j) = _
  rw [shapeCast_a_a1_apply, shapeCast_a_1a_apply]
  rfl

theorem W4_v43_0 (c : Dev nD) : W4 (F := Ideal) m ρ c (Proc.devRef .tc main_v43_0) = Cert.Spec.pre (m ((c : Thread nD τ).loc main_arg0)) (m ((c : Thread nD τ).loc main_arg1)) (m ((c : Thread nD τ).loc main_arg2)) (m ((c : Thread nD τ).loc main_arg3)) :=
  (W4_arr m ρ c 4).trans ((final1_4 (V3 m ρ) c).trans (pre1_eq m ρ c))
theorem W4_v43_1 (c : Dev nD) : W4 (F := Ideal) m ρ c (Proc.devRef .tc main_v43_1) = S1 (Cert.Spec.pre (m ((c : Thread nD τ).loc main_arg0)) (m ((c : Thread nD τ).loc main_arg1)) (m ((c : Thread nD τ).loc main_arg2)) (m ((c : Thread nD τ).loc main_arg3))) :=
  (W4_arr m ρ c 5).trans ((final1_5 (V3 m ρ) c).trans (congrArg S1 (pre1_eq m ρ c)))
theorem W4_v43_2 (c : Dev nD) : W4 (F := Ideal) m ρ c (Proc.devRef .tc main_v43_2) = Q1 (Cert.Spec.pre (m ((c : Thread nD τ).loc main_arg0)) (m ((c : Thread nD τ).loc main_arg1)) (m ((c : Thread nD τ).loc main_arg2)) (m ((c : Thread nD τ).loc main_arg3))) :=
  (W4_arr m ρ c 6).trans ((final1_6 (V3 m ρ) c).trans (congrArg Q1 (pre1_eq m ρ c)))

/-! ## Before the normalising kernel -/

/-- The word 50000 broadcast to a row. -/
abbrev nRow : FVec Ideal S1x128 .f32 := broadcastInDim S1x128 ![] bcast_S_S1x128 (constant (F := Ideal) S_ .f32 0x47435000#32)

theorem V5_v43_0 (c : Dev nD) : V5 (F := Ideal) m ρ c main_v43_0 = Cert.Spec.pre (m ((c : Thread nD τ).loc main_arg0)) (m ((c : Thread nD τ).loc main_arg1)) (m ((c : Thread nD τ).loc main_arg2)) (m ((c : Thread nD τ).loc main_arg3)) := by
  show StableHlo.after hostOps2 (W4 m ρ c) (Proc.devRef .tc main_v43_0) = _
  after_results_simp
  exact W4_v43_0 m ρ c
theorem V5_v45 (c : Dev nD) : V5 (F := Ideal) m ρ c main_v45
    = Host.divf (F := Ideal) (S1 (Cert.Spec.pre (m ((c : Thread nD τ).loc main_arg0)) (m ((c : Thread nD τ).loc main_arg1)) (m ((c : Thread nD τ).loc main_arg2)) (m ((c : Thread nD τ).loc main_arg3)))) nRow := by
  show StableHlo.after hostOps2 (W4 m ρ c) (Proc.devRef .tc main_v45) = _
  after_results_simp
  rw [W4_v43_1]
theorem V5_v49 (c : Dev nD) : V5 (F := Ideal) m ρ c main_v49
    = subf (Host.divf (F := Ideal) (Q1 (Cert.Spec.pre (m ((c : Thread nD τ).loc main_arg0)) (m ((c : Thread nD τ).loc main_arg1)) (m ((c : Thread nD τ).loc main_arg2)) (m ((c : Thread nD τ).loc main_arg3)))) nRow)
        (mulf (Host.divf (F := Ideal) (S1 (Cert.Spec.pre (m ((c : Thread nD τ).loc main_arg0)) (m ((c : Thread nD τ).loc main_arg1)) (m ((c : Thread nD τ).loc main_arg2)) (m ((c : Thread nD τ).loc main_arg3)))) nRow)
              (Host.divf (F := Ideal) (S1 (Cert.Spec.pre (m ((c : Thread nD τ).loc main_arg0)) (m ((c : Thread nD τ).loc main_arg1)) (m ((c : Thread nD τ).loc main_arg2)) (m ((c : Thread nD τ).loc main_arg3)))) nRow)) := by
  show StableHlo.after hostOps2 (W4 m ρ c) (Proc.devRef .tc main_v49) = _
  after_results_simp
  rw [W4_v43_1, W4_v43_2]
theorem V5_v50 (c : Dev nD) : V5 (F := Ideal) m ρ c main_v50 = (shapeCast S1x128 (m ((c : Thread nD τ).loc main_arg4)) shapeCasts_S128_S1x128 : FVec Ideal S1x128 .f32) := by
  show StableHlo.after hostOps2 (W4 m ρ c) (Proc.devRef .tc main_v50) = _
  after_results_simp
  rw [W4_arg4]
  rfl
theorem V5_v51 (c : Dev nD) : V5 (F := Ideal) m ρ c main_v51 = (shapeCast S1x128 (m ((c : Thread nD τ).loc main_arg5)) shapeCasts_S128_S1x128 : FVec Ideal S1x128 .f32) := by
  show StableHlo.after hostOps2 (W4 m ρ c) (Proc.devRef .tc main_v51) = _
  after_results_simp
  rw [W4_arg5]
  rfl

/-! ## The result -/

/-- THE KERNEL PROGRAM'S RESULT is the specification's function of the arguments. -/
theorem kernel_value (c : Dev nD) :
    (dat2 (F := Ideal) (V5 m ρ) c).arrAt 5 cfg2.N
      = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [final2 (V5 m ρ) c, V5_v43_0, V5_v45, V5_v49, V5_v50, V5_v51]
  funext i
  obtain ⟨r, j, rfl⟩ : ∃ (r : Fin 50000) (j : Fin 128), i = ix2 r j := ⟨i 0, i 1, eq_ix2 i⟩
  rw [G2_apply, Cert.Spec.G_apply]
  show max ((((_ - Host.divf (F := Ideal) (S1 _) nRow (ix2 (0 : Fin 1) j)) * Ideal.rsqrt (subf (Host.divf (F := Ideal) (Q1 _) nRow) (mulf (Host.divf (F := Ideal) (S1 _) nRow) (Host.divf (F := Ideal) (S1 _) nRow)) (ix2 (0 : Fin 1) j) + _))
      * shapeCast S1x128 _ shapeCasts_S128_S1x128 (ix2 (0 : Fin 1) j)) + shapeCast S1x128 _ shapeCasts_S128_S1x128 (ix2 (0 : Fin 1) j)) _ = _
  rw [shapeCast_a_1a_apply, shapeCast_a_1a_apply]
  rfl

end Cert.KernelIdeal.GenP

end
-- ==== Proof.RefStages.lean ====
/-
  The reference program's stages against the layer's definitions.

  The graph part of the layer (Spec) is the reference's own chain of array operations, stage for stage: the
  inverse square-root degree, the edge weights, the aggregation of a given `x · w` array, and the self-loop weight
  are the stages the reference names %11, %26, %39 and %40. The reference's `x · w` is the sum over the contracted
  channel at each entry.
-/
import proofs.«106382_j48249662603742_1_alg».proof.Proof.Spec
import proofs.«106382_j48249662603742_1_alg».proof.Proof.Gen.ReferenceIdeal.Read

noncomputable section

namespace Cert.RefSide

open Cert.ReferenceIdeal Cert.ReferenceIdeal.Gen Cert.ReferenceIdeal.Read Idealize.ShloMosaic Idealize.ShloMosaic.ValueIdx Cert.Spec

theorem v3_eq (ei : IVec S2x800000 32) : val_main_v3 (F := Ideal) ei = dstOf ei := rfl
theorem v1_eq (ei : IVec S2x800000 32) : val_main_v1 (F := Ideal) ei = srcOf ei := rfl
theorem v11_eq (ei : IVec S2x800000 32) : val_main_v11 (F := Ideal) ei = dinv ei := rfl
theorem v26_eq (ei : IVec S2x800000 32) : val_main_v26 (F := Ideal) ei = edgeNorm ei := rfl
theorem v40_eq (ei : IVec S2x800000 32) : val_main_v40 (F := Ideal) ei = dinv2 ei := rfl
theorem v39_eq (x : FVec Ideal S50000x128 .f32) (ei : IVec S2x800000 32) (w : FVec Ideal S128x128 .f32) :
    val_main_v39 (F := Ideal) x ei w = agg (val_main_v4 (F := Ideal) x w) ei := rfl

/-- The reference's product array is the entrywise sum over the contracted channel. -/
theorem v4_eq (x : FVec Ideal S50000x128 .f32) (w : FVec Ideal S128x128 .f32) :
    val_main_v4 (F := Ideal) x w = xw x w := by
  funext i
  rw [val_main_v4_apply]
  refine Finset.sum_congr rfl fun k _ => ?_
  have hl : lidx_main_v4 i k = ix2 (i 0) k := by
    funext a; match a with
    | ⟨0, _⟩ => rfl
    | ⟨1, _⟩ => rfl
  have hr : ridx_main_v4 i k = ix2 k (i 1) := by
    funext a; match a with
    | ⟨0, _⟩ => rfl
    | ⟨1, _⟩ => rfl
  rw [hl, hr]
  rfl

end Cert.RefSide

end
-- ==== Proof.RefPre.lean ====
/-
  The reference's stage %47 — aggregation, self-loop term and bias — is the layer before normalisation, `pre`.
  The broadcasts of the self-loop weight along the channels and of the bias along the rows are read at an index;
  the aggregation and the product array are the stages already identified.
-/
import proofs.«106382_j48249662603742_1_alg».proof.Proof.RefStages

noncomputable section

namespace Cert.RefSide

open Cert.ReferenceIdeal Cert.ReferenceIdeal.Gen Cert.ReferenceIdeal.Read Idealize.ShloMosaic Idealize.ShloMosaic.ValueIdx Cert.Spec

variable (x : FVec Ideal S50000x128 .f32) (ei : IVec S2x800000 32) (w : FVec Ideal S128x128 .f32) (b : FVec Ideal S128 .f32)

/-- Stage %47 is the layer before normalisation. -/
theorem v47_eq : val_main_v47 (F := Ideal) x ei w b = pre x ei w b := by
  funext i
  have h1 : idx_main_v41 (idx_main_v42 i) = ix1 (i 0) := funext fun a => by match a with | ⟨0, _⟩ => rfl
  have h2 : idx_main_v45 (idx_main_v46 i) = ix1 (i 1) := funext fun a => by match a with | ⟨0, _⟩ => rfl
  rw [val_main_v47_apply, val_main_v44_apply, val_main_v43_apply, val_main_v42_apply, val_main_v41_apply,
    val_main_v46_apply, val_main_v45_apply, v39_eq, v4_eq, v40_eq, h1, h2]
  unfold pre
  generalize agg (xw x w) ei = A
  generalize xw x w = X
  generalize dinv2 ei = D
  rfl

end Cert.RefSide

end
-- ==== Proof.RefMean.lean ====
/-
  The reference's column mean (stage %50) is the layer's `meanK` of `pre`, and the two subtractions of its
  broadcast (stages %53 and %60) are the deviation of each entry from its column's mean.
-/
import proofs.«106382_j48249662603742_1_alg».proof.Proof.RefPre

noncomputable section

namespace Cert.RefSide

open Cert.ReferenceIdeal Cert.ReferenceIdeal.Gen Cert.ReferenceIdeal.Read Idealize.ShloMosaic Idealize.ShloMosaic.ValueIdx Cert.Spec

variable (x : FVec Ideal S50000x128 .f32) (ei : IVec S2x800000 32) (w : FVec Ideal S128x128 .f32) (b : FVec Ideal S128 .f32)

/-- A sum along axis 0 from a zero word, divided by the row count, is the column mean. -/
theorem mean_form (p : FVec Ideal S50000x128 .f32) (j : S128.Idx) :
    Ideal.div (Ideal.ofBits .f32 0x00000000#32 + ∑ k : Fin 50000, p (idx_main_v48 j k)) (Ideal.ofBits .f32 0x47435000#32)
      = meanK p (j 0) := by
  have hs : (∑ k : Fin 50000, p (idx_main_v48 j k)) = ∑ r : Fin 50000, p (ix2 r (j 0)) := by
    refine Finset.sum_congr rfl fun k _ => ?_
    have h : idx_main_v48 j k = ix2 k (j 0) := by
      funext a; match a with
      | ⟨0, _⟩ => rfl
      | ⟨1, _⟩ => rfl
    exact congrArg p h
  rw [Ideal.ofBits_zero_f32, zero_add, hs]
  rfl

/-- Stage %50 is the column mean. -/
theorem v50_eq (j : S128.Idx) : val_main_v50 (F := Ideal) x ei w b j = meanK (pre x ei w b) (j 0) := by
  rw [val_main_v50_apply, val_main_v48_apply, val_main_v49_apply, val_main_cst_8_apply, val_main_cst_9_apply, v47_eq]
  generalize pre x ei w b = p
  exact mean_form p j

/-- Stages %53 and %60: the deviation from the column mean. -/
theorem v53_eq (i : S50000x128.Idx) :
    val_main_v53 (F := Ideal) x ei w b i = pre x ei w b i - meanK (pre x ei w b) (i 1) := by
  rw [val_main_v53_apply, val_main_v52_apply, val_main_v51_apply, v50_eq, v47_eq]
  generalize pre x ei w b = p
  have h : (idx_main_v51 (idx_main_v52 i)) 0 = i 1 := Fin.ext rfl
  rw [h]
  rfl

theorem v60_eq (i : S50000x128.Idx) :
    val_main_v60 (F := Ideal) x ei w b i = pre x ei w b i - meanK (pre x ei w b) (i 1) := by
  rw [val_main_v60_apply, val_main_v59_apply, val_main_v58_apply, v50_eq, v47_eq]
  generalize pre x ei w b = p
  have h : (idx_main_v58 (idx_main_v59 i)) 0 = i 1 := Fin.ext rfl
  rw [h]
  rfl

end Cert.RefSide

end
-- ==== Proof.LibRealEntries.lean ====
/-
  Real entries. An extended real is REAL when it is neither infinity (`IsReal v : ∃ r : ℝ, v = r`). The exact
  operations on the extended reals keep real entries real: sums, differences, products, maxima and minima; a finite
  sum; the exact quotient by a nonzero real; the square root of a nonnegative real and the reciprocal square root of
  a positive real; a contraction (a matrix product onto a real accumulator); a sum along axes from a real initial
  value; and an accumulating scatter (each entry of the operand plus the sum of the update entries that land on it,
  whatever the indices are). With these a chain of linear layers, rectifications, segment sums and normalisations of
  finite inputs has real entries throughout — which is what distributivity and cancellation on the extended reals
  need.
-/
import Idealize.ShloMosaic.PureOps.Ideal

noncomputable section

namespace Cert.LibRealEntries

open Idealize.ShloMosaic

/-- An extended real that is a real number. -/
def IsReal (v : EReal) : Prop := ∃ r : ℝ, v = (r : EReal)

theorem isReal_coe (r : ℝ) : IsReal (r : EReal) := ⟨r, rfl⟩
theorem isReal_zero : IsReal 0 := ⟨0, rfl⟩
theorem isReal_one : IsReal 1 := ⟨1, rfl⟩

theorem IsReal.ne_top {v : EReal} (h : IsReal v) : v ≠ ⊤ := by obtain ⟨r, rfl⟩ := h; exact EReal.coe_ne_top r
theorem IsReal.ne_bot {v : EReal} (h : IsReal v) : v ≠ ⊥ := by obtain ⟨r, rfl⟩ := h; exact EReal.coe_ne_bot r

/-- Real exactly when neither infinity. -/
theorem isReal_iff (v : EReal) : IsReal v ↔ v ≠ ⊤ ∧ v ≠ ⊥ :=
  ⟨fun h => ⟨h.ne_top, h.ne_bot⟩, fun h => ⟨v.toReal, (EReal.coe_toReal h.1 h.2).symm⟩⟩

/-- A real entry is the coercion of its own real part. -/
theorem IsReal.eq_coe_toReal {v : EReal} (h : IsReal v) : v = ((v.toReal : ℝ) : EReal) := by
  obtain ⟨r, rfl⟩ := h; rw [EReal.toReal_coe]

theorem IsReal.add {a b : EReal} (ha : IsReal a) (hb : IsReal b) : IsReal (a + b) := by
  obtain ⟨r, rfl⟩ := ha; obtain ⟨s, rfl⟩ := hb; exact ⟨r + s, (EReal.coe_add r s).symm⟩
theorem IsReal.sub {a b : EReal} (ha : IsReal a) (hb : IsReal b) : IsReal (a - b) := by
  obtain ⟨r, rfl⟩ := ha; obtain ⟨s, rfl⟩ := hb; exact ⟨r - s, (EReal.coe_sub r s).symm⟩
theorem IsReal.mul {a b : EReal} (ha : IsReal a) (hb : IsReal b) : IsReal (a * b) := by
  obtain ⟨r, rfl⟩ := ha; obtain ⟨s, rfl⟩ := hb; exact ⟨r * s, (EReal.coe_mul r s).symm⟩
theorem IsReal.neg {a : EReal} (ha : IsReal a) : IsReal (-a) := by
  obtain ⟨r, rfl⟩ := ha; exact ⟨-r, (EReal.coe_neg r).symm⟩
theorem IsReal.max {a b : EReal} (ha : IsReal a) (hb : IsReal b) : IsReal (max a b) := by
  rcases max_cases a b with h | h <;> rw [h.1] <;> assumption
theorem IsReal.min {a b : EReal} (ha : IsReal a) (hb : IsReal b) : IsReal (min a b) := by
  rcases min_cases a b with h | h <;> rw [h.1] <;> assumption

/-- A finite sum of real entries is real. -/
theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The exact quotient of a real entry by a nonzero real is real. -/
theorem IsReal.div_coe {a : EReal} (ha : IsReal a) {n : ℝ} (hn : n ≠ 0) : IsReal (Ideal.div a (n : EReal)) := by
  rw [Ideal.div_coe hn]; exact ha.mul (isReal_coe _)

/-- The square root of a nonnegative real is real. -/
theorem isReal_sqrt {r : ℝ} (hr : 0 ≤ r) : IsReal (Ideal.sqrt (r : EReal)) := by
  rw [Ideal.sqrt_coe, if_neg (not_lt.mpr hr)]; exact isReal_coe _

/-- The reciprocal square root of a positive real is real. -/
theorem isReal_rsqrt {r : ℝ} (hr : 0 < r) : IsReal (Ideal.rsqrt (r : EReal)) := by
  rw [Ideal.rsqrt_coe, if_neg (not_lt.mpr hr.le), if_neg hr.ne']; exact isReal_coe _

/-- A contraction of real operands onto a real accumulator has real entries. -/
theorem isReal_matmul {sl sr so : Shape} (d : DotDims sl sr so) (lhs : sl.Idx → EReal) (rhs : sr.Idx → EReal)
    (acc : so.Idx → EReal) (hl : ∀ i, IsReal (lhs i)) (hr : ∀ i, IsReal (rhs i)) (ha : ∀ j, IsReal (acc j)) (j : so.Idx) :
    IsReal (Ideal.matmul d lhs rhs acc j) :=
  (ha j).add (isReal_sum _ _ fun k _ => (hl _).mul (hr _))

/-- A host sum along axes of real entries from a real initial value has real entries. -/
theorem isReal_hostReduceAdd {s : Shape} {axes : List (Fin s.rank)} {t : Shape} (h : s.ReducesTo axes t) (x : s.Idx → EReal)
    (init : EReal) (hx : ∀ i, IsReal (x i)) (hi : IsReal init) (j : t.Idx) : IsReal (Ideal.hostReduceAdd h x init j) :=
  hi.add (isReal_sum _ _ fun i _ => hx i)

/-- A lane sum along axes of real entries has real entries. -/
theorem isReal_reduceAdd {s : Shape} {axes : List (Fin s.rank)} {t : Shape} (h : s.Reduces axes t) (x : s.Idx → EReal)
    (hx : ∀ i, IsReal (x i)) (j : t.Idx) : IsReal (Ideal.reduceAdd h x j) :=
  isReal_sum _ _ fun i _ => hx i

/-- An accumulating scatter of real updates into a real operand has real entries, whatever the indices. -/
theorem isReal_hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) :=
  (hx i).add (isReal_sum _ _ fun j _ => hu j)

end Cert.LibRealEntries

end
-- ==== Proof.LibBatchMoments.lean ====
/-
  Batch moments. For a finite family of reals `f` over `n` indices (`n > 0`), with `S = ∑ f` and `Q = ∑ f²`,

      Q / n − (S / n)²  =  (∑ (f − S / n)²) / n   ≥ 0,

  the biased variance written from the first two raw moments against the mean of the squared deviations. The same
  law on the extended reals for a family whose entries are all real, with the quotient taken as the exact
  division `Ideal.div` by the real `n`: there the left side floored at zero (`max · 0`) is still the right side,
  because the right side is a nonnegative real. This is what joins a normalisation that accumulates a running sum
  and a running sum of squares to one that subtracts the mean first (a batch normalisation against `jnp.var`).
  Also here: the coercion of the reals into the extended reals commutes with finite sums.
-/
import Idealize.ShloMosaic.PureOps.Ideal

noncomputable section

namespace Cert.LibBatchMoments

open Idealize.ShloMosaic

variable {ι : Type*}

/-- The coercion `ℝ → EReal` commutes with a finite sum. -/
theorem coe_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The sum of squared deviations from any centre `μ`, expanded: `∑ (f − μ)² = ∑ f² − 2 μ ∑ f + n μ²`. -/
theorem sum_sq_dev (s : Finset ι) (f : ι → ℝ) (μ : ℝ) :
    ∑ i ∈ s, (f i - μ) * (f i - μ) = (∑ i ∈ s, f i * f i) - 2 * μ * (∑ i ∈ s, f i) + (s.card : ℝ) * (μ * μ) := by
  have h : ∀ i, (f i - μ) * (f i - μ) = f i * f i - 2 * μ * f i + μ * μ := fun i => by ring
  simp only [h, Finset.sum_add_distrib, Finset.sum_sub_distrib, ← Finset.mul_sum, Finset.sum_const, nsmul_eq_mul]
  ring

/-- The biased variance from the raw moments: `Q / n − (S / n)² = (∑ (f − S / n)²) / n` for `n` indices, `n ≠ 0`. -/
theorem raw_moments_eq_centered (s : Finset ι) (f : ι → ℝ) (n : ℝ) (hcard : (s.card : ℝ) = n) (hn : n ≠ 0) :
    (∑ i ∈ s, f i * f i) / n - (∑ i ∈ s, f i) / n * ((∑ i ∈ s, f i) / n)
      = (∑ i ∈ s, (f i - (∑ j ∈ s, f j) / n) * (f i - (∑ j ∈ s, f j) / n)) / n := by
  rw [sum_sq_dev, hcard]
  field_simp
  ring

/-- The mean of squared deviations is nonnegative. -/
theorem centered_nonneg (s : Finset ι) (f : ι → ℝ) (μ n : ℝ) (hn : 0 < n) :
    0 ≤ (∑ i ∈ s, (f i - μ) * (f i - μ)) / n :=
  div_nonneg (Finset.sum_nonneg fun i _ => mul_self_nonneg _) hn.le

/-- The exact quotient of a real by a nonzero real, on the extended reals, is the real quotient. -/
theorem div_coe_coe (a : ℝ) {n : ℝ} (hn : n ≠ 0) : Ideal.div (a : EReal) (n : EReal) = ((a / n : ℝ) : EReal) := by
  rw [Ideal.div_coe hn, ← EReal.coe_mul, div_eq_mul_one_div a n]

/-- On the extended reals, for a family with real entries over `n > 0` indices: the raw-moment form of the variance,
    floored at zero, is the mean of the squared deviations from the mean. -/
theorem floored_raw_moments_eq_centered (s : Finset ι) (x : ι → EReal) (hx : ∀ i ∈ s, ∃ r : ℝ, x i = (r : EReal))
    (n : ℝ) (hcard : (s.card : ℝ) = n) (hn : 0 < n) :
    max (Ideal.div (∑ i ∈ s, x i * x i) (n : EReal)
          - Ideal.div (∑ i ∈ s, x i) (n : EReal) * Ideal.div (∑ i ∈ s, x i) (n : EReal)) 0
      = Ideal.div (∑ i ∈ s, (x i - Ideal.div (∑ j ∈ s, x j) (n : EReal)) * (x i - Ideal.div (∑ j ∈ s, x j) (n : EReal)))
          (n : EReal) := by
  have hn0 : n ≠ 0 := hn.ne'
  -- real representatives of the entries
  have hf : ∀ i ∈ s, x i = (((x i).toReal : ℝ) : EReal) := fun i hi => by
    obtain ⟨r, hr⟩ := hx i hi; rw [hr, EReal.toReal_coe]
  set f : ι → ℝ := fun i => (x i).toReal with hfdef
  have hS : ∑ i ∈ s, x i = ((∑ i ∈ s, f i : ℝ) : EReal) := by
    rw [coe_sum]; exact Finset.sum_congr rfl fun i hi => hf i hi
  have hQ : ∑ i ∈ s, x i * x i = ((∑ i ∈ s, f i * f i : ℝ) : EReal) := by
    rw [coe_sum]; exact Finset.sum_congr rfl fun i hi => by rw [EReal.coe_mul, ← hf i hi]
  have hμ : Ideal.div (∑ i ∈ s, x i) (n : EReal) = (((∑ i ∈ s, f i) / n : ℝ) : EReal) := by
    rw [hS, div_coe_coe _ hn0]
  have hC : ∑ i ∈ s, (x i - Ideal.div (∑ j ∈ s, x j) (n : EReal)) * (x i - Ideal.div (∑ j ∈ s, x j) (n : EReal))
      = ((∑ i ∈ s, (f i - (∑ j ∈ s, f j) / n) * (f i - (∑ j ∈ s, f j) / n) : ℝ) : EReal) := by
    rw [coe_sum, hμ]
    exact Finset.sum_congr rfl fun i hi => by rw [EReal.coe_mul, EReal.coe_sub, ← hf i hi]
  rw [hC, hμ, hQ, div_coe_coe _ hn0, div_coe_coe _ hn0, ← EReal.coe_mul, ← EReal.coe_sub,
    raw_moments_eq_centered s f n hcard hn0]
  exact max_eq_left (by exact_mod_cast centered_nonneg s f _ n hn)

end Cert.LibBatchMoments

end
-- ==== Proof.Moments.lean ====
/-
  The centred variance is the raw-moment variance on real columns.

  For a column of N = 50000 real entries f with S = ∑ f and Q = ∑ f², the mean of the squared deviations from the
  mean S / N equals Q / N − (S / N)². On the extended reals the identity needs the entries real: then both sides are
  the coercions of the two real expressions, and the real identity applies. The divisor word 0x47435000 is the real
  number 50000.
-/
import proofs.«106382_j48249662603742_1_alg».proof.Proof.Spec
import proofs.«106382_j48249662603742_1_alg».proof.Proof.LibRealEntries
import proofs.«106382_j48249662603742_1_alg».proof.Proof.LibBatchMoments

noncomputable section

namespace Cert.RefSide

open Cert.ReferenceIdeal Cert.ReferenceIdeal.Gen Idealize.ShloMosaic Idealize.ShloMosaic.ValueIdx Cert.Spec Cert.LibRealEntries
open Cert.LibBatchMoments (coe_sum raw_moments_eq_centered div_coe_coe)

/-- The column variance as the mean of the squared deviations from the column mean. -/
def varC (p : FVec Ideal S50000x128 .f32) (j : Fin 128) : EReal :=
  Ideal.div (∑ r : Fin 50000, (p (ix2 r j) - meanK p j) * (p (ix2 r j) - meanK p j)) nRows

/-- Normalisation with the centred variance, affine map and rectification. -/
def normReluC (p : FVec Ideal S50000x128 .f32) (γ β : FVec Ideal S128 .f32) : FVec Ideal S50000x128 .f32 :=
  fun i => max ((((p i - meanK p (i 1)) * Ideal.rsqrt (varC p (i 1) + eps)) * γ (ix1 (i 1))) + β (ix1 (i 1)))
             (Ideal.ofBits .f32 0x00000000#32)

/-- The divisor word is the real number 50000. -/
theorem nRows_eq : nRows = ((50000 : ℝ) : EReal) := by
  unfold nRows
  simp [Ideal.ofBits, Ideal.ieee, -EReal.coe_mul]
  norm_num

/-- On a column of real entries the centred variance is the raw-moment variance. -/
theorem varC_eq_varK (p : FVec Ideal S50000x128 .f32) (j : Fin 128) (hp : ∀ r : Fin 50000, IsReal (p (ix2 r j))) :
    varC p j = varK p j := by
  choose f hf using hp
  have h50 : (50000 : ℝ) ≠ 0 := by norm_num
  have hsum : colSum p j = ((∑ r : Fin 50000, f r : ℝ) : EReal) := by
    unfold colSum; rw [coe_sum]; exact Finset.sum_congr rfl fun r _ => hf r
  have hsq : colSumSq p j = ((∑ r : Fin 50000, f r * f r : ℝ) : EReal) := by
    unfold colSumSq; rw [coe_sum]; exact Finset.sum_congr rfl fun r _ => by rw [hf r, EReal.coe_mul]
  have hmean : meanK p j = (((∑ r : Fin 50000, f r) / 50000 : ℝ) : EReal) := by
    unfold meanK; rw [hsum, nRows_eq, div_coe_coe _ h50]
  have hdev : (∑ r : Fin 50000, (p (ix2 r j) - meanK p j) * (p (ix2 r j) - meanK p j))
      = ((∑ r : Fin 50000, (f r - (∑ r : Fin 50000, f r) / 50000) * (f r - (∑ r : Fin 50000, f r) / 50000) : ℝ) : EReal) := by
    rw [coe_sum]; exact Finset.sum_congr rfl fun r _ => by rw [hf r, hmean, ← EReal.coe_sub, ← EReal.coe_mul]
  unfold varC varK
  rw [hdev, hsq, hmean, nRows_eq, div_coe_coe _ h50, div_coe_coe _ h50, ← EReal.coe_mul, ← EReal.coe_sub]
  exact congrArg _ (raw_moments_eq_centered Finset.univ f 50000 (by simp) h50).symm

/-- With every entry real, normalising with the centred variance is normalising with the raw-moment variance. -/
theorem normReluC_eq (p : FVec Ideal S50000x128 .f32) (γ β : FVec Ideal S128 .f32) (hp : ∀ i, IsReal (p i)) :
    normReluC p γ β = normRelu p γ β := by
  funext i
  have h := varC_eq_varK p (i 1) (fun r => hp _)
  exact congrArg (fun v => max ((((p i - meanK p (i 1)) * Ideal.rsqrt (v + eps)) * γ (ix1 (i 1))) + β (ix1 (i 1)))
    (Ideal.ofBits .f32 0x00000000#32)) h

end Cert.RefSide

end
-- ==== Proof.RefVar.lean ====
/-
  The reference's variance. Stage %57 is the mean of the squared deviations of each column of `pre` from the
  column's mean: the centred variance.
-/
import proofs.«106382_j48249662603742_1_alg».proof.Proof.RefMean
import proofs.«106382_j48249662603742_1_alg».proof.Proof.Moments

noncomputable section

namespace Cert.RefSide

open Cert.ReferenceIdeal Cert.ReferenceIdeal.Gen Cert.ReferenceIdeal.Read Idealize.ShloMosaic Idealize.ShloMosaic.ValueIdx Cert.Spec

variable (x : FVec Ideal S50000x128 .f32) (ei : IVec S2x800000 32) (w : FVec Ideal S128x128 .f32) (b : FVec Ideal S128 .f32)

/-- A sum along axis 0, from a zero word, of the squared deviations, divided by the row count, is the centred
    variance. -/
theorem var_form (p : FVec Ideal S50000x128 .f32) (j : S128.Idx) :
    Ideal.div (Ideal.ofBits .f32 0x00000000#32
        + ∑ k : Fin 50000, (p (idx_main_v55 j k) - meanK p ((idx_main_v55 j k) 1)) * (p (idx_main_v55 j k) - meanK p ((idx_main_v55 j k) 1)))
      (Ideal.ofBits .f32 0x47435000#32) = varC p (j 0) := by
  have hs : (∑ k : Fin 50000, (p (idx_main_v55 j k) - meanK p ((idx_main_v55 j k) 1)) * (p (idx_main_v55 j k) - meanK p ((idx_main_v55 j k) 1)))
      = ∑ r : Fin 50000, (p (ix2 r (j 0)) - meanK p (j 0)) * (p (ix2 r (j 0)) - meanK p (j 0)) := by
    refine Finset.sum_congr rfl fun k _ => ?_
    have h : idx_main_v55 j k = ix2 k (j 0) := by
      funext a; match a with
      | ⟨0, _⟩ => rfl
      | ⟨1, _⟩ => rfl
    have h1 : (idx_main_v55 j k) 1 = j 0 := Fin.ext rfl
    rw [h1]
    exact congrArg (fun q => (p q - meanK p (j 0)) * (p q - meanK p (j 0))) h
  rw [Ideal.ofBits_zero_f32, zero_add, hs]
  rfl

/-- Stage %57 is the centred column variance. -/
theorem v57_eq (j : S128.Idx) : val_main_v57 (F := Ideal) x ei w b j = varC (pre x ei w b) (j 0) := by
  have hs : (∑ k : Fin 50000, val_main_v54 (F := Ideal) x ei w b (idx_main_v55 j k))
      = ∑ k : Fin 50000, (pre x ei w b (idx_main_v55 j k) - meanK (pre x ei w b) ((idx_main_v55 j k) 1))
          * (pre x ei w b (idx_main_v55 j k) - meanK (pre x ei w b) ((idx_main_v55 j k) 1)) :=
    Finset.sum_congr rfl fun k _ => by rw [val_main_v54_apply, v53_eq, Ideal.mulf_def]
  rw [val_main_v57_apply, val_main_v55_apply, val_main_v56_apply, val_main_cst_10_apply, val_main_cst_11_apply, hs,
    Ideal.hostDivf_def, Ideal.ofBits_def, Ideal.ofBits_def]
  generalize pre x ei w b = p
  exact var_form p j

end Cert.RefSide

end
-- ==== Proof.RefOut.lean ====
/-
  The reference's result. Stage %63 is the reciprocal square root of the centred variance after the floor ε, and
  the result (stage %73) is the normalisation of `pre` with that variance, the affine map and the rectification.
-/
import proofs.«106382_j48249662603742_1_alg».proof.Proof.RefVar

noncomputable section

namespace Cert.RefSide

open Cert.ReferenceIdeal Cert.ReferenceIdeal.Gen Cert.ReferenceIdeal.Read Idealize.ShloMosaic Idealize.ShloMosaic.ValueIdx Cert.Spec

variable (x : FVec Ideal S50000x128 .f32) (ei : IVec S2x800000 32) (w : FVec Ideal S128x128 .f32) (b γ β : FVec Ideal S128 .f32)

/-- Stage %63: the reciprocal standard deviation. -/
theorem v63_eq (j : S128.Idx) :
    val_main_v63 (F := Ideal) x ei w b j = Ideal.rsqrt (varC (pre x ei w b) (j 0) + eps) := by
  have heps : Ideal.ofBits .f32 0x3727C5AC#32 = eps := rfl
  rw [val_main_v63_apply, val_main_v62_apply, v57_eq, val_main_v61_apply, val_main_cst_12_apply,
    Ideal.hostUnary_rsqrt_def, Ideal.addf_def, Ideal.ofBits_def, heps]

/-- The reference's result is the normalisation of `pre` with the centred variance. -/
theorem v73_eq : val_main_v73 (F := Ideal) x ei w b γ β = normReluC (pre x ei w b) γ β := by
  funext i
  have h1 : idx_main_v67 (idx_main_v68 i) = ix1 (i 1) := funext fun a => by match a with | ⟨0, _⟩ => rfl
  have h2 : idx_main_v70 (idx_main_v71 i) = ix1 (i 1) := funext fun a => by match a with | ⟨0, _⟩ => rfl
  have h3 : (idx_main_v64 (idx_main_v65 i)) 0 = i 1 := Fin.ext rfl
  rw [val_main_v73_apply, val_main_v72_apply, val_main_v69_apply, val_main_v66_apply, v60_eq, val_main_v65_apply,
    val_main_v64_apply, v63_eq, val_main_v68_apply, val_main_v67_apply, val_main_v71_apply, val_main_v70_apply,
    val_main_call0_v0_apply, val_main_call0_cst_apply, h1, h2, h3,
    Ideal.maximumf_def, Ideal.addf_def, Ideal.mulf_def, Ideal.mulf_def, Ideal.ofBits_def]
  generalize pre x ei w b = p
  unfold normReluC
  rfl

end Cert.RefSide

end
-- ==== Proof.RealPre.lean ====
/-
  Real entries through the layer.

  With every entry of `x`, `w` and the bias a real number, every entry of the layer before normalisation is a real
  number, whatever the edge list holds. The degree of a node is one plus a sum of ones, a real that is at least one,
  so its reciprocal square root is real; a gather only selects entries; a broadcast repeats them; an accumulating
  scatter of real updates onto zeros is a finite sum of reals; the product array is a finite sum of products.
-/
import proofs.«106382_j48249662603742_1_alg».proof.Proof.Spec
import proofs.«106382_j48249662603742_1_alg».proof.Proof.LibRealEntries
import Idealize.ShloMosaic.Lib.IdealHost

noncomputable section

namespace Cert.RefSide

open Cert.ReferenceIdeal Cert.ReferenceIdeal.Gen Idealize.ShloMosaic Idealize.ShloMosaic.ValueIdx Cert.Spec Cert.LibRealEntries

/-- An extended real that is a nonnegative real number. -/
def IsNNReal (v : EReal) : Prop := ∃ r : ℝ, 0 ≤ r ∧ v = (r : EReal)

theorem isNNReal_zero : IsNNReal 0 := ⟨0, le_rfl, rfl⟩
theorem isNNReal_one : IsNNReal 1 := ⟨1, zero_le_one, rfl⟩

theorem IsNNReal.add {a b : EReal} (ha : IsNNReal a) (hb : IsNNReal b) : IsNNReal (a + b) := by
  obtain ⟨r, hr, rfl⟩ := ha; obtain ⟨s, hs, rfl⟩ := hb
  exact ⟨r + s, add_nonneg hr hs, (EReal.coe_add r s).symm⟩

/-- A finite sum of nonnegative reals is a nonnegative real. -/
theorem isNNReal_sum {ι : Type*} (s : Finset ι) (f : ι → EReal) (h : ∀ i ∈ s, IsNNReal (f i)) : IsNNReal (∑ i ∈ s, f i) := by
  classical
  induction s using Finset.induction_on with
  | empty => simpa using isNNReal_zero
  | insert a s ha ih =>
    rw [Finset.sum_insert ha]
    exact (h a (Finset.mem_insert_self a s)).add (ih fun i hi => h i (Finset.mem_insert_of_mem hi))

/-- An accumulating scatter of nonnegative reals onto nonnegative reals has nonnegative real entries. -/
theorem hostScatterAdd_nn {s si su : Shape} (d : ScatterDims s si su) {w : Nat} (x : s.Idx → EReal) (idx : IVec si w)
    (upd : su.Idx → EReal) (hx : ∀ i, IsNNReal (x i)) (hu : ∀ j, IsNNReal (upd j)) (i : s.Idx) :
    IsNNReal (Ideal.hostScatterAdd d x idx upd i) :=
  (hx i).add (isNNReal_sum _ _ fun j _ => hu j)

/-- The host's accumulating scatter, on the extended reals, is the exact sum. -/
theorem scatterAdd_eq {s si su : Shape} {φ : FTy} (d : ScatterDims s si su) {w : Nat} (x : FVec Ideal s φ) (idx : IVec si w)
    (upd : FVec Ideal su φ) : Host.scatterAdd d x idx upd = Ideal.hostScatterAdd d x idx upd := rfl

theorem rsqrt_apply {s : Shape} {φ : FTy} (x : FVec Ideal s φ) (i : s.Idx) : Host.rsqrt x i = Ideal.rsqrt (x i) := rfl

/-- A scalar constant broadcast to any shape reads the constant's value. -/
theorem bcast_scalar_word {T : Shape} (h : S_.BroadcastsInDim T ![]) (bits : BitVec 32) (j : T.Idx) :
    broadcastInDim T ![] h (constant (F := Ideal) S_ .f32 bits) j = Ideal.ofBits .f32 bits := by
  rw [broadcastInDim_scalar_apply]; rfl

/-- A gather only selects entries. -/
theorem isReal_gather {s si t : Shape} {w : Nat} (d : GatherDims s si t) (x : s.Idx → EReal) (idx : IVec si w)
    (hx : ∀ i, IsReal (x i)) (j : t.Idx) : IsReal (Host.gather d x idx j) := hx _

/-- A broadcast only repeats entries. -/
theorem isReal_bcast {s t : Shape} {dims : Fin s.rank → Fin t.rank} (h : s.BroadcastsInDim t dims) (x : s.Idx → EReal)
    (hx : ∀ i, IsReal (x i)) (j : t.Idx) : IsReal (broadcastInDim t dims h x j) := hx _

/-- The degree of a node is a positive real. -/
theorem deg_pos (ei : IVec S2x800000 32) (i : S50000.Idx) : ∃ r : ℝ, 0 < r ∧ deg ei i = (r : EReal) := by
  unfold deg
  generalize colIdx (dstOf ei) = I
  rw [addf_apply, scatterAdd_eq, bcast_scalar_word, Ideal.ofBits_one_f32]
  obtain ⟨r, hr, e⟩ := hostScatterAdd_nn scatter_S50000_S800000x1_S800000_n_0_0_1
    (broadcastInDim S50000 ![] bcast_S_S50000 (constant (F := Ideal) S_ .f32 0x00000000#32)) I
    (broadcastInDim S800000 ![] bcast_S_S800000 (constant (F := Ideal) S_ .f32 0x3F800000#32))
    (fun i => by rw [bcast_scalar_word, Ideal.ofBits_zero_f32]; exact isNNReal_zero)
    (fun j => by rw [bcast_scalar_word, Ideal.ofBits_one_f32]; exact isNNReal_one) i
  rw [e]
  exact ⟨r + 1, by linarith, by rw [EReal.coe_add]; rfl⟩

theorem isReal_dinv (ei : IVec S2x800000 32) (i : S50000.Idx) : IsReal (dinv ei i) := by
  obtain ⟨r, hr, e⟩ := deg_pos ei i
  unfold dinv
  rw [rsqrt_apply, e]
  exact isReal_rsqrt hr

theorem isReal_dinv2 (ei : IVec S2x800000 32) (i : S50000.Idx) : IsReal (dinv2 ei i) := by
  unfold dinv2
  rw [mulf_apply]
  exact (isReal_dinv ei i).mul (isReal_dinv ei i)

theorem isReal_edgeNorm (ei : IVec S2x800000 32) (e : S800000.Idx) : IsReal (edgeNorm ei e) := by
  unfold edgeNorm
  rw [mulf_apply]
  exact (isReal_gather _ _ _ (isReal_dinv ei) _).mul (isReal_gather _ _ _ (isReal_dinv ei) _)

theorem isReal_msg (y : FVec Ideal S50000x128 .f32) (ei : IVec S2x800000 32) (hy : ∀ i, IsReal (y i)) (j : S800000x128.Idx) :
    IsReal (msg y ei j) := by
  unfold msg
  rw [mulf_apply]
  exact (isReal_gather _ _ _ hy _).mul (isReal_bcast _ _ (isReal_bcast _ _ (isReal_edgeNorm ei)) _)

theorem isReal_agg (y : FVec Ideal S50000x128 .f32) (ei : IVec S2x800000 32) (hy : ∀ i, IsReal (y i)) (i : S50000x128.Idx) :
    IsReal (agg y ei i) := by
  unfold agg
  rw [scatterAdd_eq]
  exact isReal_hostScatterAdd _ _ _ _
    (fun i => by rw [bcast_scalar_word, Ideal.ofBits_zero_f32]; exact isReal_zero) (isReal_msg y ei hy) i

theorem isReal_xw (x : FVec Ideal S50000x128 .f32) (w : FVec Ideal S128x128 .f32) (hx : ∀ i, IsReal (x i))
    (hw : ∀ i, IsReal (w i)) (i : S50000x128.Idx) : IsReal (xw x w i) := by
  show IsReal (∑ k : Fin 128, x (ix2 (i 0) k) * w (ix2 k (i 1)))
  exact isReal_sum _ _ fun k _ => (hx _).mul (hw _)

/-- Every entry of the layer before normalisation is real when the entries of `x`, `w` and the bias are. -/
theorem isReal_pre (x : FVec Ideal S50000x128 .f32) (ei : IVec S2x800000 32) (w : FVec Ideal S128x128 .f32)
    (b : FVec Ideal S128 .f32) (hx : ∀ i, IsReal (x i)) (hw : ∀ i, IsReal (w i)) (hb : ∀ i, IsReal (b i))
    (i : S50000x128.Idx) : IsReal (pre x ei w b i) := by
  have hxw := isReal_xw x w hx hw
  unfold pre
  exact ((isReal_agg _ ei hxw i).add ((hxw i).mul (isReal_dinv2 ei _))).add (hb _)

end Cert.RefSide

end
-- ==== Proof.RefIsSpec.lean ====
/-
  The reference computes the layer.

  On argument arrays whose float entries (of `x`, `w` and the bias) are real numbers, the reference program's result
  is the layer `G` of its six arguments: the reference normalises `pre` with the centred variance, every entry of
  `pre` is real, and on real columns the centred variance is the raw-moment variance that `G` uses.
-/
import proofs.«106382_j48249662603742_1_alg».proof.Proof.RefOut
import proofs.«106382_j48249662603742_1_alg».proof.Proof.RealPre

noncomputable section

namespace Cert.RefSide

open Cert.ReferenceIdeal Cert.ReferenceIdeal.Gen Cert.ReferenceIdeal.Read Idealize.ShloMosaic Idealize.ShloMosaic.TcCoe Idealize.SL.Sem
open Idealize.ShloMosaic.ValueIdx Cert.Spec Cert.LibRealEntries

/-- The reference's last stage, as a function of six argument arrays with real float entries, is the layer. -/
theorem val_is_G (x : FVec Ideal S50000x128 .f32) (ei : IVec S2x800000 32) (w : FVec Ideal S128x128 .f32)
    (b γ β : FVec Ideal S128 .f32) (hx : ∀ i, IsReal (x i)) (hw : ∀ i, IsReal (w i)) (hb : ∀ i, IsReal (b i)) :
    val_main_v73 (F := Ideal) x ei w b γ β = G x ei w b γ β :=
  (v73_eq x ei w b γ β).trans (normReluC_eq _ γ β (isReal_pre x ei w b hx hw hb))

/-- The reference program's result, from a memory whose `x`, `w` and bias arrays have real entries, is the layer of
    its six argument arrays. -/
theorem ref_is_G (m : (ℓ : Loc nD τ sig) → Buf (Elt Ideal) ℓ) (c : Dev nD)
    (hx : ∀ i, IsReal ((m ((c.tc : Thread nD τ).loc main_arg0) : FVec Ideal S50000x128 .f32) i))
    (hw : ∀ i, IsReal ((m ((c.tc : Thread nD τ).loc main_arg2) : FVec Ideal S128x128 .f32) i))
    (hb : ∀ i, IsReal ((m ((c.tc : Thread nD τ).loc main_arg3) : FVec Ideal S128 .f32) i)) :
    Cert.ReferenceIdeal.Value.res_out0 (F := Ideal) m c
      = G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  (val_main_v73_eq m c).trans (val_is_G _ _ _ _ _ _ hx hw hb)

end Cert.RefSide

end
-- ==== Proof.FiniteInputs.lean ====
/-
  Finite inputs are real entries.

  The precondition states, for each float argument array, that every entry's absolute value is below the word
  0x7F800000 (+∞), as one conjunction of five "all" reductions. Read back: each reduction being 1 says every
  comparison is 1; an entry v with max v (−v) < ⊤ is neither infinity, so it is a real number.
-/
import proofs.«106382_j48249662603742_1_alg».proof.Pre_finite_inputs
import proofs.«106382_j48249662603742_1_alg».proof.Proof.LibRealEntries
import Idealize.ShloMosaic.Lib.ReduceAll
import Idealize.ShloMosaic.Lib.ValueIdx
import Idealize.ShloMosaic.PureOps.Ideal.Laws

noncomputable section

namespace Cert.RefSide

open Idealize.ShloMosaic Idealize.ShloMosaic.ValueIdx Cert.LibRealEntries

/-- An entry whose absolute value compares below +∞ is a real number. -/
theorem isReal_of_abs_lt_inf (v : EReal)
    (h : Ideal.cmp .olt (max v (-v)) (Ideal.ofBits .f32 0x7F800000#32) = 1#1) : IsReal v := by
  have htop : Ideal.ofBits .f32 0x7F800000#32 = ⊤ := by simp [Ideal.ofBits, Ideal.ieee]
  rw [htop] at h
  induction v using EReal.rec with
  | bot => simp [Ideal.cmp] at h
  | coe r => exact ⟨r, rfl⟩
  | top => simp [Ideal.cmp] at h

instance : Subsingleton (⟨0, ![]⟩ : Shape).Idx := ⟨fun a b => funext fun d => d.elim0⟩

/-- An "all entries finite" reduction that is 1 says every entry of the array is real. -/
theorem isReal_of_all {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi (cmpf .olt (Host.absf x) (broadcastInDim s ![] hb (constant (F := Ideal) ⟨0, ![]⟩ .f32 0x7F800000#32)))
          (constantI ⟨0, ![]⟩ 1 1#1) hr hu ix0 = 1#1) (i : s.Idx) : IsReal (x i) := by
  have h := Host.reduce_andi_all _ _ hr hu ix0 e i
  exact isReal_of_abs_lt_inf (x i) h

open Cert.Pre_finite_inputs in
/-- The precondition on six argument arrays gives real entries in the five float arrays. -/
theorem real_of_pre [Cert.Pre_finite_inputs.Facts] (x : FVec Ideal S50000x128 .f32) (ei : IVec S2x800000 32)
    (w : FVec Ideal S128x128 .f32) (b γ β : FVec Ideal S128 .f32)
    (h : Cert.Pre_finite_inputs.fn (F := Ideal) x ei w b γ β = fun _ => 1#1) :
    (∀ i, IsReal (x i)) ∧ (∀ i, IsReal (w i)) ∧ (∀ i, IsReal (b i)) ∧ (∀ i, IsReal (γ i)) ∧ (∀ i, IsReal (β i)) := by
  have h0 := congrFun h ix0
  dsimp only [Cert.Pre_finite_inputs.fn, Cert.Pre_finite_inputs.fn_part1] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  exact ⟨isReal_of_all x _ _ _ h1, isReal_of_all w _ _ _ h2, isReal_of_all b _ _ _ h3, isReal_of_all γ _ _ _ h4,
    isReal_of_all β _ _ _ h5⟩

end Cert.RefSide

end
-- ==== Proof.RefSide.lean ====
/-
  The reference computes the layer on finite inputs.

  From the precondition "every float input is finite", stated on the reference's own argument arrays, the
  reference program's result is the layer `G` of those arrays: finite inputs are real entries, and on real entries
  the reference's centred variance is the layer's raw-moment variance.
-/
import proofs.«106382_j48249662603742_1_alg».proof.Proof.RefIsSpec
import proofs.«106382_j48249662603742_1_alg».proof.Proof.FiniteInputs

noncomputable section

namespace Cert.RefSide

open Cert.ReferenceIdeal Cert.ReferenceIdeal.Gen Cert.ReferenceIdeal.Read Idealize.ShloMosaic Idealize.ShloMosaic.TcCoe Idealize.SL.Sem
open Idealize.ShloMosaic.ValueIdx Cert.Spec Cert.LibRealEntries

/-- On six argument arrays satisfying the finiteness precondition, the reference's last stage is the layer. -/
theorem val_is_G_of_finite [Cert.Pre_finite_inputs.Facts] (x : FVec Ideal S50000x128 .f32) (ei : IVec S2x800000 32)
    (w : FVec Ideal S128x128 .f32) (b γ β : FVec Ideal S128 .f32)
    (h : Cert.Pre_finite_inputs.fn (F := Ideal) x ei w b γ β = fun _ => 1#1) :
    val_main_v73 (F := Ideal) x ei w b γ β = G x ei w b γ β := by
  obtain ⟨hx, hw, hb, _, _⟩ := real_of_pre x ei w b γ β h
  exact val_is_G x ei w b γ β hx hw hb

/-- The reference program's result, from a memory whose argument arrays satisfy the finiteness precondition, is the
    layer of its six argument arrays. -/
theorem ref_is_G_of_finite [Cert.Pre_finite_inputs.Facts] (m : (ℓ : Loc nD τ sig) → Buf (Elt Ideal) ℓ) (c : Dev nD)
    (h : Cert.Pre_finite_inputs.fn (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) = fun _ => 1#1) :
    Cert.ReferenceIdeal.Value.res_out0 (F := Ideal) m c
      = G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  (val_main_v73_eq m c).trans (val_is_G_of_finite _ _ _ _ _ _ h)

end Cert.RefSide

end
-- ==== Proof.lean ====
/-
  The certificate of a graph-convolution layer with batch normalisation and rectification: three Pallas kernels (the
  product x·w by row blocks; the pre-normalisation array  agg + x·w * dinv² + bias  with its column sums and sums of
  squares accumulated over the row blocks; the normalisation) and the host's gather/scatter graph part between them,
  against a plain array reference.

  * The two kernel programs' frames: the program is run segment by segment — host operations, a kernel, host operations,
    a kernel, host operations, a kernel — each kernel through its pipeline with the proof data of its own entry contents;
    the accumulating kernel carries its two accumulators from grid point to grid point in its invariant.
  * The reference's frame is its run with the result dropped.
  * The idealization rewrote nothing, so the kernel program read over the extended reals is its own idealization.
  * Equality of results over the extended reals: both programs compute the one function `Cert.Spec.G` of the six
    argument arrays. The kernel side needs no hypothesis: block sums added one after the other are the whole sums, and
    the rest is the same operations entry by entry. The reference normalises with the centred variance where the kernel
    uses raw moments, Q/N − (S/N)²; these agree because every entry of the pre-normalisation array is a real number
    when the float inputs are finite (degrees are ≥ 1, so their inverse square roots are real; gathers select entries;
    sums of reals are real).
-/
import proofs.«106382_j48249662603742_1_alg».proof.Defs
import proofs.«106382_j48249662603742_1_alg».proof.Proof.Gen.Kernel
import proofs.«106382_j48249662603742_1_alg».proof.Proof.Gen.KernelIdeal
import proofs.«106382_j48249662603742_1_alg».proof.Proof.Gen.ReferenceIdeal
import proofs.«106382_j48249662603742_1_alg».proof.Proof.Gen.Pre_finite_inputs
import proofs.«106382_j48249662603742_1_alg».proof.Proof.Gen.ReferenceIdeal.Run
import proofs.«106382_j48249662603742_1_alg».proof.Proof.KernelP.Run
import proofs.«106382_j48249662603742_1_alg».proof.Proof.KernelIdealP.Run
import proofs.«106382_j48249662603742_1_alg».proof.Proof.KernelIdealP.KVal2
import proofs.«106382_j48249662603742_1_alg».proof.Proof.RefSide

noncomputable section

namespace Cert.Proof

open Idealize.ShloMosaic Idealize.ShloMosaic.TcCoe Idealize.SL.Sem

theorem frame_k : Cert.frame_Kernel := fun m ρ _ => Cert.Kernel.GenP.frame (F := Bits) m ρ
theorem frame_ki : Cert.frame_KernelIdeal := fun m ρ _ => Cert.KernelIdeal.GenP.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the layer `G` of the (agreeing) argument arrays in their result buffers. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.GenP.kernel_value m ρ c), (h c).2⟩)
      (Cert.KernelIdeal.GenP.run_result (F := Ideal) m ρ)
  · refine (θ_run Cert.ReferenceIdeal.defs _ _).mono (fun _ h c => ⟨(h c).1.trans ?_, (h c).2⟩)
      (Cert.ReferenceIdeal.Value.run (F := Ideal) m' ρ')
    have hp := hpre c
    rw [← (hagree c).1, ← (hagree c).2.1, ← (hagree c).2.2.1, ← (hagree c).2.2.2.1, ← (hagree c).2.2.2.2.1, ← (hagree c).2.2.2.2.2] at hp
    refine (Cert.RefSide.ref_is_G_of_finite m' c hp).trans ?_
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
